-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x64 : Shape := ⟨2, ![512, 64]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x8192 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S8192x512 .f32) (main_arg1 : FVec F S512x64 .f32) (main_arg2 : FVec F S512x64 .f32) (main_arg3 : FVec F S512x64 .f32) (main_arg4 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S8192x512 : Shape := ⟨2, ![8192, 512]⟩
abbrev S512x64 : Shape := ⟨2, ![512, 64]⟩
abbrev S8192x8192 : Shape := ⟨2, ![8192, 8192]⟩
abbrev S36 : Shape := ⟨1, ![36]⟩
abbrev S8192x64 : Shape := ⟨2, ![8192, 64]⟩
abbrev S1024x512 : Shape := ⟨2, ![1024, 512]⟩
abbrev S1024x64 : Shape := ⟨2, ![1024, 64]⟩
abbrev S1 : Shape := ⟨1, ![1]⟩
abbrev S1024x1024 : Shape := ⟨2, ![1024, 1024]⟩
abbrev S1024x1 : Shape := ⟨2, ![1024, 1]⟩
abbrev S1x1024 : Shape := ⟨2, ![1, 1024]⟩
abbrev S64x1024 : Shape := ⟨2, ![64, 1024]⟩

abbrev nBuf : Space → Nat
  | .hbm => 9
  | .vmem => 22
  | .smem => 2
  | _ => 0

abbrev bufTy : (tb : Table) → Fin (tcTables nBuf tb) → BufTy
  | .hbm, ⟨0, _⟩ => ⟨S8192x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S8192x8192, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x1024, .f32⟩
  | .local _ .vmem, ⟨18, _⟩ => ⟨S1024x1024, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .smem, ⟨0, _⟩ => ⟨S36, .i32⟩
  | .local _ .smem, ⟨1, _⟩ => ⟨S36, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![36], ![false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (v1 : BitVec 32) (v3 : BitVec 32) : BitVec 1 :=
  let v40 : BitVec 1 := Scalar.cmpi .eq v3 v1
  let v41 : BitVec 32 := Scalar.extui v40
  let c0_i32_15 : BitVec 32 := 0#32
  let v42 : BitVec 1 := Scalar.cmpi .ne v41 c0_i32_15
  v42

def cc1_transform_0 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S36) ![v0.toNat] S1.size (k1_off1_inb i)) numel1_S1
  let c0_i32 : BitVec 32 := 0#32
  let c0_i32_0 : BitVec 32 := 0#32
  ![v1.toNat, c0_i32.toNat]

def cc1_transform_1 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S36) ![v0.toNat] S1.size (k1_off1_inb i)) numel1_S1
  let c0_i32 : BitVec 32 := 0#32
  let c0_i32_0 : BitVec 32 := 0#32
  ![v1.toNat, c0_i32.toNat]

def cc1_transform_2 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S36) ![v0.toNat] S1.size (k1_off1_inb i)) numel1_S1
  let c0_i32 : BitVec 32 := 0#32
  let c0_i32_0 : BitVec 32 := 0#32
  ![v1.toNat, c0_i32.toNat]

def cc1_transform_3 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S36) ![v0.toNat] S1.size (k1_off1_inb i)) numel1_S1
  let v2 : Index := Scalar.indexCast arg0
  let v3 : BitVec 32 := pf.at 1 (Rect.unit (s := S36) ![v2.toNat] S1.size (k1_off1_inb i)) numel1_S1
  let c0_i32 : BitVec 32 := 0#32
  ![v1.toNat, v3.toNat]

def cc1_transform_4 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S36) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1024x64_S1024x64_0_0 : ∀ a, (![0, 0] : Fin 2 → Nat) a + S1024x64.size a ≤ S1024x64.size a
  h_S1024x64 : 0 < S1024x64.numel
  numel1_S1 : S1.numel = 1
  shapeCasts_S1024x64_S1024x64 : S1024x64.ShapeCasts S1024x64
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  dot_S1024x512_S512x64_S1024x64_1_0_0_1_n_n_wf : DotDims.WF S1024x512 S512x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)
  hrank1 : 0 < grid1.rank
  k1_off1_inb : ∀ i : grid1.Coords, ∀ a, (k1_off1 i) a + S1.size a ≤ S36.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1 pf i = cc1_transform_4 k1_off1_inb numel1_S1 pf i'

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v0_0) S1024x64.size reads1_0 false false 2 stage1_0 sem1_0 nbuf1_0 hstage1_0

abbrev spec1_1 : Pipeline.WinSpec sig grid1.rank :=
  Pipeline.WinSpec.ofSpec (Memref.whole main_v0_1) S1024x64.size reads1_1 false false 2 stage1_1 sem1_1 nbuf1_1 hstage1_1

abbrev spec1_2 : Pipeline.WinSpec sig grid1.rank :=
  Pipeline.WinSpec.ofSpec (Memref.whole main_v0_2) S1024x64.size reads1_2 false false 2 stage1_2 sem1_2 nbuf1_2 hstage1_2

abbrev spec1_3 : Pipeline.WinSpec sig grid1.rank :=
  Pipeline.WinSpec.ofSpec (Memref.whole main_arg4) S1024x1024.size reads1_3 false false 2 stage1_3 sem1_3 nbuf1_3 hstage1_3

abbrev spec1_4 : Pipeline.WinSpec sig grid1.rank :=
  Pipeline.WinSpec.ofSpec (Memref.whole main_v1) S1024x64.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | 4 => cc1_transform_4 k1_off1_inb numel1_S1 pf | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | 4 => hreads1_4 pf | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1024x64.size a ≤ S8192x64.size a), EltTy.bits .f32 = 32 ∨ (Rect.block (s := S8192x64) S1024x64.size (cc1_transform_0 k1_off1_inb numel1_S1 pf i) h).WholeWords (EltTy.packing .f32)) ∧
  (∀ i : grid1.Coords, ∃ h : (∀ a, (cc1_transform_1 k1_off1_inb numel1_S1 pf i a + 1) * S1024x64.size a ≤ S8192x64.size a), EltTy.bits .f32 = 32 ∨ (Rect.block (s := S8192x64) S1024x64.size (cc1_transform_1 k1_off1_inb numel1_S1 pf i) h).WholeWords (EltTy.packing .f32)) ∧
  (∀ i : grid1.Coords, ∃ h : (∀ a, (cc1_transform_2 k1_off1_inb numel1_S1 pf i a + 1) * S1024x64.size a ≤ S8192x64.size a), EltTy.bits .f32 = 32 ∨ (Rect.block (s := S8192x64) S1024x64.size (cc1_transform_2 k1_off1_inb numel1_S1 pf i) h).WholeWords (EltTy.packing .f32)) ∧
  (∀ i : grid1.Coords, ∃ h : (∀ a, (cc1_transform_3 k1_off1_inb numel1_S1 pf i a + 1) * S1024x1024.size a ≤ S8192x8192.size a), EltTy.bits .f32 = 32 ∨ (Rect.block (s := S8192x8192) S1024x1024.size (cc1_transform_3 k1_off1_inb numel1_S1 pf i) h).WholeWords (EltTy.packing .f32)) ∧
  (∀ i : grid1.Coords, ∃ h : (∀ a, (cc1_transform_4 k1_off1_inb numel1_S1 pf i a + 1) * S1024x64.size a ≤ S8192x64.size a), EltTy.bits .f32 = 32 ∨ (Rect.block (s := S8192x64) S1024x64.size (cc1_transform_4 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2 i).elim fun h _ => h a | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2 i).elim fun _ h => h | ⟨_ + 5, h⟩ => absurd h (Nat.not_lt.2 (Nat.le_add_left _ _))
abbrev idle1 (pf : pre1.Contents (Elt F)) : Fin 5 → grid1.Coords → Bool := fun | 0 => fun _ => false | 1 => fun _ => false | 2 => fun _ => false | 3 => fun _ => false | 4 => fun i => !(k1_cond2 (pf.atD 0 (k1_off1 i)) (pf.atD 1 (k1_off1 i)) == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S8192x512 : Shape := ⟨2, ![8192, 512]⟩
abbrev S512x64 : Shape := ⟨2, ![512, 64]⟩
abbrev S8192x8192 : Shape := ⟨2, ![8192, 8192]⟩
abbrev S8192x64 : Shape := ⟨2, ![8192, 64]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S8192x8192, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S8192x8192, .f32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  dot_S8192x512_S512x64_S8192x64_1_0_0_1_n_n_wf : DotDims.WF S8192x512 S512x64 S8192x64 [1] [0] [0] [1] [] []
  dot_S8192x64_S8192x64_S8192x8192_1_1_0_0_n_n_wf : DotDims.WF S8192x64 S8192x64 S8192x8192 [1] [1] [0] [0] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.RunCond.lean ====
/- The run of @main of the word-level kernel program, conditional on one segment record per kernel
   region: the same run as the conditional frame, with the final contents of the result buffer
   `main_v1` read off the last valuation beside the five arguments. The result buffer is the last
   one updated in the chain of boundary valuations, so its final contents are the unknown
   `outs 3 main_v1` that the second region's record pins. -/
import proofs.«162603_j30889404792899_1_alg».proof.Proof.Gen.Kernel.Regions

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

/-- The last boundary valuation holds, at the result buffer, what the second region leaves there:
    the result buffer is the outermost update of the chain. -/
theorem V3_main_v1 (m : (ℓ : Loc nD τ sig) → Buf (Elt F) ℓ) (outs : Outs (F := F)) (c : Dev nD) :
    V3 m outs c main_v1 = outs 3 main_v1 c := by
  simp only [V3, Function.update_self]

set_option backward.isDefEq.respectTransparency.types false in
/-- THE CONDITIONAL RUN. Under the hypotheses of the conditional frame — one segment record per
    region, entered from the boundary thread state before it and left at the one after it — every
    weakly fair execution of @main from memory `m` terminates, and every final memory holds the
    result buffer at `outs 3 main_v1` and each argument as launched. -/
theorem run_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v1) = outs 3 main_v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) a pdats ι (cellOf_inj a) EP defs₀ 𝒱₀ L lv m ρ main
    (segs m 𝒱₀ L lv E ι a pdats R0 R1)
    (fun c Q => by
      rewrite [main_chain c, Seg.run_eq_chain,
        show (segs m 𝒱₀ L lv E ι a pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v1) = outs 3 main_v1 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest makes the first
    -- rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v1) (Finset.mem_filter.mpr ⟨StableHlo.devRef_mem_tcRefs main_v1, by decide⟩)).trans (V3_main_v1 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c)⟩
    · iexact HSI

end Cert.Kernel.Run

end
-- ==== Proof.K.RunInst.lean ====
/- The conditional run of @main of the word-level kernel program, fixed at the plainest choice of
   proof algebra: one copy of the staging-cell algebra as the whole user component, no core owing
   another anything, no ghost state besides the staging cells'. Beside the buffers every boundary
   thread state carries the same rest: the core's generator register at some state, and the core
   owing nothing. What remains to be supplied is one segment record per kernel region and the two
   entailments tying each record to the boundary states around it. -/
import proofs.«162603_j30889404792899_1_alg».proof.Proof.K.RunCond
import Idealize.ShloMosaic.Lib.Pipeline.Kit

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

local notation "𝕄" => MT nD τ sig Unit (Elt F) ℕ (UR sig nD τ) ℕ

/-- No pair of cores is assigned a level: no core ever owes another a unit. -/
abbrev L₀ : GSem nD τ sig → Finset Unit := fun _ => ∅
abbrev lv₀ : GSem nD τ sig → Unit → ℕ := fun _ _ => 0

/-- What rides beside the buffers through every boundary: the core's generator register at some
    state, and the core owing nothing. -/
abbrev R (c : Dev nD) : sProp 𝕄 :=
  iprop((∃ r, prngReg c r) ∗ ∃ W, owes (c : Thread nD τ) (0 : CellTallies nD τ sig Unit) W)

/-- The launch element: the staging cells' first ghost state, for the pipelines pinned at the
    tables' contents `a`. -/
abbrev u₀ (a : (p : Fin 2) → (pcfgs (F := F) p).Adm) : UR sig nD τ :=
  initOf (Pipeline.cells (Pipeline.pin (pcfgs (F := F)) a) (cellOf_inj a))
    (Pipeline.launchToks (Pipeline.pin (pcfgs (F := F)) a) (cellOf_inj a))

/-- The launch element is the staging cells' ghost state itself, and no core gets any further
    ghost resource: the user component is owned through its only embedding, and a conjunction of
    empty resources over the cores is empty. -/
theorem launch_ghost (a : (p : Fin 2) → (pcfgs (F := F) p).Adm) :
    (ownU (u₀ a) : sProp 𝕄) ⊢ |={Set.univ}=> iprop(BI.own (emb₁ (u₀ a)) ∗ bigSep Finset.univ fun _ : Dev nD => (BI.emp : sProp 𝕄)) := by
  rw [BI.bigSep_emp_const, ownU_emb₁]
  iintro Hu
  imodintro
  isplitl [Hu]
  · iexact Hu
  · iempintro

/-- At launch every core makes the rest state from what it is dealt: its generator register is at
    the launch state, and it owes nothing at the empty set of recorded pairs. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L₀ lv₀)
      ⊢ (|={Set.univ}=> bigSep Finset.univ (R (F := F)) : sProp 𝕄) := by
  refine Pipeline.initEach L₀ lv₀ fun c => ?_
  iintro ⟨⟨-, Howes, -, Hreg, -⟩, -⟩
  imodintro
  isplitl [Hreg]
  · iexists (ρ c); iexact Hreg
  · iexists ∅; iexact Howes

/-- The rest state ends with the core owing nothing. -/
theorem rest_owes (c : Dev nD) :
    R (F := F) c ⊢ (iprop(∃ W, owes (c : Thread nD τ) (0 : CellTallies nD τ sig Unit) W) : sProp 𝕄) := by
  iintro ⟨-, Howes⟩
  iexact Howes

/-- THE RUN FROM THE REGIONS' RECORDS. Given, for each kernel region, a segment record whose entry
    state follows from the boundary state before it and whose exit state gives the boundary state
    after it — every unscoped buffer held at the boundary's contents, beside the rest `R` —, every
    weakly fair execution of @main from memory `m` terminates, and every final memory holds the
    result buffer at what the second region leaves in it and each argument as launched. -/
theorem run_of_regions (m : (ℓ : Loc nD τ sig) → Buf (Elt F) ℓ) (ρ : Dev nD → PrngReg) (outs : Outs (F := F))
    (a : (p : Fin 2) → (pcfgs (F := F) p).Adm)
    (pdats : (p : Fin 2) → (c : Dev nD) → Dat τ (Elt F) Unit ℕ (UR sig nD τ) ℕ (Pipeline.pin (pcfgs (F := F)) a p) c)
    (R0 : RegionSeg (pcfgs (F := F)) a pdats () defs₀ Variants.none L₀ lv₀ 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : RegionSeg (pcfgs (F := F)) a pdats () defs₀ Variants.none L₀ lv₀ 1)
    (hpre1 : ∀ c : Dev nD, iprop(StableHlo.held (c : Thread nD τ) (Pipeline.ucRefs τ sig) (V2 m outs c) ∗ R c) ⊢ R1.pre c)
    (hpost1 : ∀ c : Dev nD, R1.post c ⊢ iprop(StableHlo.held (c : Thread nD τ) (Pipeline.ucRefs τ sig) (V3 m outs c) ∗ R c)) :
    θ_run defs (onTc (τ := τ) (main (F := F))) ⟨m, fun _ => 0, ρ⟩ (fun r => ∀ c : Dev nD,
      r.2.mem ((c.tc : Thread nD τ).loc main_v1) = outs 3 main_v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m emb₁ () Variants.none L₀ lv₀ (fun _ _ => rfl) ρ outs a pdats
    (0 : Dev nD → CellTallies nD τ sig Unit) (fun _ => (BI.emp : sProp 𝕄)) (u₀ a) (launch_ghost a)
    (fun _ => R) (launch_rest ρ) rest_owes R0 hpre0 hpost0 R1 hpre1 hpost1

end Cert.Kernel.Run

end
-- ==== Proof.K.Tables1.lean ====
import proofs.«162603_j30889404792899_1_alg».proof.Proof.Gen.Kernel.Regions
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The tile-pair tables of the second region, and the pipeline pinned at them -/

/-- The two tables of tile pairs, as the host constants write them: entry `t` is the pair (row tile, column tile) of grid point `t`. -/
def tblC : pre1.Contents (Elt F) := fun
  | ⟨0, _⟩ => fun i => lit0 (S36.rowMajor i)
  | ⟨1, _⟩ => fun i => lit1 (S36.rowMajor i)

/-- The grid point as a table index. -/
def pt (i : grid1.Coords) : Fin 36 := ⟨(i 0).val, (i 0).isLt⟩

/-- Row tile and column tile of a table entry, as numbers. -/
def rowT (t : Fin 36) : ℕ := (lit0 t).toNat
def colT (t : Fin 36) : ℕ := (lit1 t).toNat

/-- Every pair is causal and inside the 8 × 8 tiling. -/
theorem tiles_facts : ∀ t : Fin 36, colT t ≤ rowT t ∧ rowT t < 8 := by decide

/-- The word a grid point's coordinate denotes is the coordinate: it is below 36. -/
theorem off_toNat (i : grid1.Coords) : (Scalar.indexCast (BitVec.ofNat 32 (i 0).val)).toNat = (i 0).val := by
  have h : (i 0).val < 36 := (i 0).isLt
  unfold Scalar.indexCast
  rw [BitVec.toNat_ofNat]
  omega

/-- The one element of the unit rectangle at a grid point's offset sits at that point's row-major position. -/
theorem unit_pos (i : grid1.Coords) (h1 : 0 < (Rect.unit (s := S36) (k1_off1 i) S1.size (k1_off1_inb i)).shape.numel) :
    (S36.rowMajor ((Rect.unit (s := S36) (k1_off1 i) S1.size (k1_off1_inb i)).emb (Shape.Idx.first h1))) = pt i := by
  apply Fin.ext
  refine (Shape.rowMajor_val_one (d := ![36]) _).trans ?_
  rw [Rect.emb_apply]
  show (Scalar.indexCast (BitVec.ofNat 32 (i 0).val)).toNat + 1 * 0 = (i 0).val
  rw [off_toNat]; omega

theorem word0 (i : grid1.Coords) :
    (tblC (F := F)).at 0 (Rect.unit (s := S36) (k1_off1 i) S1.size (k1_off1_inb i)) numel1_S1 = lit0 (pt i) :=
  congrArg lit0 (unit_pos i _)
theorem word1 (i : grid1.Coords) :
    (tblC (F := F)).at 1 (Rect.unit (s := S36) (k1_off1 i) S1.size (k1_off1_inb i)) numel1_S1 = lit1 (pt i) :=
  congrArg lit1 (unit_pos i _)

/-- The index maps at the tables: the q / l-row / output tile is the row tile, the k / v tile the column tile. -/
theorem tr0 (i : grid1.Coords) : cc1_transform_0 k1_off1_inb numel1_S1 (tblC (F := F)) i = ![rowT (pt i), 0] := by
  show ![((tblC (F := F)).at 0 (Rect.unit (s := S36) (k1_off1 i) S1.size (k1_off1_inb i)) numel1_S1).toNat, (0#32 : BitVec 32).toNat] = _
  rw [word0]; rfl
theorem tr1 (i : grid1.Coords) : cc1_transform_1 k1_off1_inb numel1_S1 (tblC (F := F)) i = ![colT (pt i), 0] := by
  show ![((tblC (F := F)).at 1 (Rect.unit (s := S36) (k1_off1 i) S1.size (k1_off1_inb i)) numel1_S1).toNat, (0#32 : BitVec 32).toNat] = _
  rw [word1]; rfl
theorem tr2 (i : grid1.Coords) : cc1_transform_2 k1_off1_inb numel1_S1 (tblC (F := F)) i = ![colT (pt i), 0] := by
  show ![((tblC (F := F)).at 1 (Rect.unit (s := S36) (k1_off1 i) S1.size (k1_off1_inb i)) numel1_S1).toNat, (0#32 : BitVec 32).toNat] = _
  rw [word1]; rfl
theorem tr3 (i : grid1.Coords) : cc1_transform_3 k1_off1_inb numel1_S1 (tblC (F := F)) i = ![rowT (pt i), colT (pt i)] := by
  show ![((tblC (F := F)).at 0 (Rect.unit (s := S36) (k1_off1 i) S1.size (k1_off1_inb i)) numel1_S1).toNat,
         ((tblC (F := F)).at 1 (Rect.unit (s := S36) (k1_off1 i) S1.size (k1_off1_inb i)) numel1_S1).toNat] = _
  rw [word0, word1]; rfl
theorem tr4 (i : grid1.Coords) : cc1_transform_4 k1_off1_inb numel1_S1 (tblC (F := F)) i = ![rowT (pt i), 0] := by
  show ![((tblC (F := F)).at 0 (Rect.unit (s := S36) (k1_off1 i) S1.size (k1_off1_inb i)) numel1_S1).toNat, (0#32 : BitVec 32).toNat] = _
  rw [word0]; rfl

/-- Every block the tables name lies inside its array: the tables are admissible contents. -/
theorem ok_tblC : ok1 (F := F) tblC := by
  unfold ok1
  refine ⟨fun i => ⟨?_, .inl rfl⟩, fun i => ⟨?_, .inl rfl⟩, fun i => ⟨?_, .inl rfl⟩, fun i => ⟨?_, .inl rfl⟩, fun i => ⟨?_, .inl rfl⟩⟩
  · intro a; rw [tr0]; have := tiles_facts (pt i)
    match a with
    | ⟨0, _⟩ => show (rowT (pt i) + 1) * 1024 ≤ 8192; omega
    | ⟨1, _⟩ => show (0 + 1) * 64 ≤ 64; omega
  · intro a; rw [tr1]; have := tiles_facts (pt i)
    match a with
    | ⟨0, _⟩ => show (colT (pt i) + 1) * 1024 ≤ 8192; omega
    | ⟨1, _⟩ => show (0 + 1) * 64 ≤ 64; omega
  · intro a; rw [tr2]; have := tiles_facts (pt i)
    match a with
    | ⟨0, _⟩ => show (colT (pt i) + 1) * 1024 ≤ 8192; omega
    | ⟨1, _⟩ => show (0 + 1) * 64 ≤ 64; omega
  · intro a; rw [tr3]; have := tiles_facts (pt i)
    match a with
    | ⟨0, _⟩ => show (rowT (pt i) + 1) * 1024 ≤ 8192; omega
    | ⟨1, _⟩ => show (colT (pt i) + 1) * 1024 ≤ 8192; omega
  · intro a; rw [tr4]; have := tiles_facts (pt i)
    match a with
    | ⟨0, _⟩ => show (rowT (pt i) + 1) * 1024 ≤ 8192; omega
    | ⟨1, _⟩ => show (0 + 1) * 64 ≤ 64; omega

/-- The tables as admissible contents, and the second pipeline at them. -/
abbrev a1 : (pcfg1 (F := F)).Adm := ⟨tblC, ok_tblC⟩
abbrev cfgT : Pipeline.Cfg sig Λ₀ := cfg1 (a1 (F := F))

end Cert.Kernel.R1
end
-- ==== Proof.K.Adm.lean ====
/- The admissible contents of the two pipelines' prefetched tables, fixed for the run: the
   projection region prefetches nothing; the attention region prefetches the two tables of tile
   pairs, and its index maps are read at the contents the host constants write. -/
import proofs.«162603_j30889404792899_1_alg».proof.Proof.K.Tables1

noncomputable section

namespace Cert.Kernel.Run

open Idealize.ShloMosaic
open Cert.Kernel.Gen

variable {F : FTy → Type} [FloatOps F]

/-- The admissible contents of each pipeline's prefetched tables: the first region has none, the
    second region's are the two tables of tile pairs as the host constants write them. A literal
    match on the pipeline's index, so that each pipeline pinned at these contents reduces to its
    printed configuration. -/
def adm : (p : Fin 2) → (pcfgs (F := F) p).Adm
  | ⟨0, _⟩ => cfg0.toPCfg_adm
  | ⟨1, _⟩ => R1.a1

end Cert.Kernel.Run

end
-- ==== Proof.K.Region0.lean ====
/- REGION 0 of @main (the projection call, pipeline 0), generic in the float instance: what each output block
   is as a function of the input blocks, the body's Hoare triple, the pipeline's proof data at region-entry
   contents `V`, and the per-point body obligation the launch theorems ask for. -/
import proofs.«162603_j30889404792899_1_alg».proof.Proof.Gen.Kernel.Launch
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the projection region is entered
variable (V : (c : Dev nD) → (b : Ref sig .tc) → Buf (Elt F) ((c : Thread nD τ).loc b))

/-! ## Blocks of the windows -/

/-- The block of window `w` at grid point `t`: the window's array, as the region finds it, read through the
    block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds that window's block at every point. Where the point fetches,
    the fetch puts it there; where it does not (the three weight windows after the first point) the block index has
    not moved and the body left the buffer alone. Stated for any proof data over `V`'s arrays whose body keeps the
    block in place. -/

theorem in0_holds {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem in1_holds {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem in2_holds {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem in3_holds {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each one a whole block -/

abbrev rX : Rect S1024x512 := Rect.unit (s := S1024x512) ![0, 0] S1024x512.size inb_S1024x512_S1024x512_0_0
abbrev rW : Rect S512x64 := Rect.unit (s := S512x64) ![0, 0] S512x64.size inb_S512x64_S512x64_0_0
abbrev rO : Rect S1024x64 := Rect.unit (s := S1024x64) ![0, 0] S1024x64.size inb_S1024x64_S1024x64_0_0

/-! ## The three output blocks as functions of the input blocks

Each output buffer receives one store of the whole block: the matrix product of the row block `x` (rounded to bf16)
with one weight matrix (rounded to bf16), accumulated onto zero. -/

/-- The query block from the row block and the query weights. -/
def out0_4 (x : Vec F S1024x512 .f32) (wq : Vec F S512x64 .f32) : Vec F S1024x64 .f32 :=
  View.canon [⟨rO, k0_pay2 (View.ld x rX) (View.ld wq rW)⟩]

/-- The key block from the row block and the key weights. -/
def out0_5 (x : Vec F S1024x512 .f32) (wk : Vec F S512x64 .f32) : Vec F S1024x64 .f32 :=
  View.canon [⟨rO, k0_pay3 (View.ld x rX) (View.ld wk rW)⟩]

/-- The value block from the row block and the value weights. -/
def out0_6 (x : Vec F S1024x512 .f32) (wv : Vec F S512x64 .f32) : Vec F S1024x64 .f32 :=
  View.canon [⟨rO, k0_pay4 (View.ld x rX) (View.ld wv rW)⟩]

/-- A single store through the whole-block rectangle covers the block. -/
theorem whole_store_covers (p : Vec F S1024x64 .f32) (y : S1024x64.Idx) :
    ∃ pc ∈ ([⟨rO, p⟩] : List (View.Piece (Elt F) S1024x64 .f32)), y ∈ pc.1.set :=
  View.cover_of_tiled [⟨rO, p⟩] S1024x64.size (by rfl) y

/-! ## The body's triple -/

set_option maxHeartbeats 1000000 in
/-- Run on whole staging buffers — the four inputs at known contents, the three outputs at arbitrary contents (the body
    reads each output buffer once before overwriting it, and never uses what it read) — the body returns with the
    inputs untouched and each output buffer holding its block. -/
theorem sound_kernel0 (c : Dev nD) (E : Set ℕ) (i : grid0.Coords)
    (a0 : Memref sig .tc .vmem S1024x512 .f32) (h0 : a0.IsWhole)
    (a1 : Memref sig .tc .vmem S512x64 .f32) (h1 : a1.IsWhole)
    (a2 : Memref sig .tc .vmem S512x64 .f32) (h2 : a2.IsWhole)
    (a3 : Memref sig .tc .vmem S512x64 .f32) (h3 : a3.IsWhole)
    (a4 : Memref sig .tc .vmem S1024x64 .f32) (h4 : a4.IsWhole)
    (a5 : Memref sig .tc .vmem S1024x64 .f32) (h5 : a5.IsWhole)
    (a6 : Memref sig .tc .vmem S1024x64 .f32) (h6 : a6.IsWhole)
    (x : Vec F S1024x512 .f32) (wq wk wv : Vec F S512x64 .f32) (K : PUnit → sProp 𝕄) :
    iprop(owns (c : Thread nD τ) a0 fullShare x ∗ owns (c : Thread nD τ) a1 fullShare wq
        ∗ owns (c : Thread nD τ) a2 fullShare wk ∗ owns (c : Thread nD τ) a3 fullShare wv
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a0 fullShare x ∗ owns (c : Thread nD τ) a1 fullShare wq
            ∗ owns (c : Thread nD τ) a2 fullShare wk ∗ owns (c : Thread nD τ) a3 fullShare wv
            ∗ owns (c : Thread nD τ) a4 fullShare (out0_4 x wq) ∗ owns (c : Thread nD τ) a5 fullShare (out0_5 x wk)
            ∗ owns (c : Thread nD τ) a6 fullShare (out0_6 x wv)) -∗ K ⟨⟩))
      ⊢ wp frame (wpE (defs₀ (F := F)) Variants.none c none) E (cc0__proj_kernel i a0 h0 a1 h1 a2 h2 a3 h3 a4 h4 a5 h5 a6 h6) K := by
  simp only [cc0__proj_kernel_eq_skeleton]; unfold cc0__proj_kernel_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, Hk⟩
  subst e0; subst e1; subst e2; subst e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (whole_store_covers _)
  isplitl [H5]
  · iexists _; isplitr
    swap; · iexact H5
    ipureintro
    exact View.read_writes_eq_canon _ _ _ (whole_store_covers _)
  iexists _; isplitr
  swap; · iexact H6
  ipureintro
  exact View.read_writes_eq_canon _ _ _ (whole_store_covers _)

/-! ## The proof data of pipeline 0 -/

/-- On core `c`: the arrays are the region-entry contents; after the body at point `t` an input buffer still holds
    its block and an output buffer holds its block computed from the input blocks; the invariant is the scoped rest and
    the generator register, both untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  in0_holds V (dat0 V c) (A_eq0 V c 0) (after0_0 V c) t d
theorem before0_1 (c : Dev nD) (t : Fin cfg0.N) (d) : (dat0 V c).before 1 t d = iblk0 V c 1 t :=
  in1_holds V (dat0 V c) (A_eq0 V c 1) (after0_1 V c) t d
theorem before0_2 (c : Dev nD) (t : Fin cfg0.N) (d) : (dat0 V c).before 2 t d = iblk0 V c 2 t :=
  in2_holds V (dat0 V c) (A_eq0 V c 2) (after0_2 V c) t d
theorem before0_3 (c : Dev nD) (t : Fin cfg0.N) (d) : (dat0 V c).before 3 t d = iblk0 V c 3 t :=
  in3_holds V (dat0 V c) (A_eq0 V c 3) (after0_3 V c) t d

/-! ## The body obligation -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- At any point the input buffers hold their blocks, so the body's triple applies; the invariant and the core's debt
    are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorems take, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.Seg0.lean ====
/- The projection region of @main as a segment of the run: entered from every unscoped buffer held
   at the contents the host constants leave, left at the same contents with the three projection
   buffers replaced by what the pipeline's write-backs leave in them. The region's seven windows
   are the row block of the input and the three weight matrices (inputs, never written back) and a
   row block of each of the three projections (outputs); its invariant is the class's plain one —
   the scoped buffers no window stages and the generator register —; it owes nothing and has no
   semaphore of its own. -/
import proofs.«162603_j30889404792899_1_alg».proof.Proof.K.RunInst
import proofs.«162603_j30889404792899_1_alg».proof.Proof.K.Adm
import proofs.«162603_j30889404792899_1_alg».proof.Proof.K.Region0

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

/-- What the first region finds in the TensorCore's buffers: the launch contents with the two
    tile tables written. -/
abbrev E1 : (c : Dev nD) → (b : Ref sig .tc) → Buf (Elt F) ((c : Thread nD τ).loc b) := fun c b => V1 m c b

/-- What the first region leaves there: the three projection buffers at the unknowns `outs 2`,
    every other buffer as found. -/
abbrev E2 (outs : Outs (F := F)) : (c : Dev nD) → (b : Ref sig .tc) → Buf (Elt F) ((c : Thread nD τ).loc b) :=
  fun c b => V2 m outs c b

/-- The proof data of both pipelines: the first region's at its entry contents, the second
    region's a parameter. A literal match on the pipeline's index, so that each pinned
    configuration reduces to the printed one. -/
def pdats (d1 : (c : Dev nD) → Dat τ (Elt F) Unit ℕ (UR sig nD τ) ℕ (R1.cfgT (F := F)) c) :
    (p : Fin 2) → (c : Dev nD) → Dat τ (Elt F) Unit ℕ (UR sig nD τ) ℕ (Pipeline.pin (pcfgs (F := F)) adm p) c
  | ⟨0, _⟩ => fun c => R0.dat0 (E1 m) c
  | ⟨1, _⟩ => d1

/-! ## The three projection buffers in the chain of updates -/

theorem V2_main_v0_0 (outs : Outs (F := F)) (c : Dev nD) : V2 m outs c main_v0_0 = outs 2 main_v0_0 c := by
  simp only [V2, Function.update_self,
    Function.update_of_ne (StableHlo.devRef_ne_of_ne (by decide) : (Proc.devRef .tc main_v0_0 : DevRef τ sig) ≠ Proc.devRef .tc main_v0_1),
    Function.update_of_ne (StableHlo.devRef_ne_of_ne (by decide) : (Proc.devRef .tc main_v0_0 : DevRef τ sig) ≠ Proc.devRef .tc main_v0_2)]
theorem V2_main_v0_1 (outs : Outs (F := F)) (c : Dev nD) : V2 m outs c main_v0_1 = outs 2 main_v0_1 c := by
  simp only [V2, Function.update_self,
    Function.update_of_ne (StableHlo.devRef_ne_of_ne (by decide) : (Proc.devRef .tc main_v0_1 : DevRef τ sig) ≠ Proc.devRef .tc main_v0_2)]
theorem V2_main_v0_2 (outs : Outs (F := F)) (c : Dev nD) : V2 m outs c main_v0_2 = outs 2 main_v0_2 c := by
  simp only [V2, Function.update_self]

variable (d1 : (c : Dev nD) → Dat τ (Elt F) Unit ℕ (UR sig nD τ) ℕ (R1.cfgT (F := F)) c)
  (outs : Outs (F := F))

/-- At the first region's exit each of its arrays holds what the write-backs leave: an input's
    array is never written and no update of the chain touches an argument; an output's array is
    the projection buffer the unknowns name. -/
theorem exit_arrays0
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N)
    (c : Dev nD) : ∀ w : Fin cfg0.W, (pdats m d1 0 c).arrAt w cfg0.N = E2 m outs c (Pipeline.arrRef spec0 w)
  | ⟨0, _⟩ => ((R0.dat0 (E1 m) c).arrAt_in 0 rfl _).trans (V2_of m outs c main_arg0 (by decide)).symm
  | ⟨1, _⟩ => ((R0.dat0 (E1 m) c).arrAt_in 1 rfl _).trans (V2_of m outs c main_arg1 (by decide)).symm
  | ⟨2, _⟩ => ((R0.dat0 (E1 m) c).arrAt_in 2 rfl _).trans (V2_of m outs c main_arg2 (by decide)).symm
  | ⟨3, _⟩ => ((R0.dat0 (E1 m) c).arrAt_in 3 rfl _).trans (V2_of m outs c main_arg3 (by decide)).symm
  | ⟨4, _⟩ => (h4 c).symm.trans (V2_main_v0_0 m outs c).symm
  | ⟨5, _⟩ => (h5 c).symm.trans (V2_main_v0_1 m outs c).symm
  | ⟨6, _⟩ => (h6 c).symm.trans (V2_main_v0_2 m outs c).symm

/-- Every buffer that is no array of the first region's windows leaves the region as it entered:
    the chain updates the three projection buffers only, and each is an output window's array. -/
theorem exit_rest0 (c : Dev nD) : ∀ b, b ∉ Finset.univ.image (Pipeline.arrRef spec0) → E2 m outs c b = E1 m c b := by
  intro b hb
  refine V2_of m outs c b fun h => hb ?_
  simp only [List.mem_cons, List.not_mem_nil, or_false] at h
  rcases h with rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩

/-- A core owing nothing, whatever pairs its waits recorded, owes the first region's first
    tallies within the region's bound: the tallies are zero and the bound is everything. -/
theorem owes_in0 (c : Dev nD) (t : Fin (cfg0.N + 1)) :
    (iprop(∃ W, owes (c : Thread nD τ) (0 : CellTallies nD τ sig Unit) W) : sProp 𝕄) ⊢ (pdats m d1 0 c).owesAt () t := by
  unfold Pipeline.Dat.owesAt Pipeline.owesWithin
  iintro ⟨%W, Howes⟩
  iexists W
  isplitr
  · ipureintro; exact fun _ _ => Set.mem_union_left _ (Set.mem_univ _)
  · iexact Howes

/-- and back: what the region owes at any point is nothing. -/
theorem owes_out0 (c : Dev nD) (t : Fin (cfg0.N + 1)) :
    (pdats m d1 0 c).owesAt () t ⊢ (iprop(∃ W, owes (c : Thread nD τ) (0 : CellTallies nD τ sig Unit) W) : sProp 𝕄) := by
  unfold Pipeline.Dat.owesAt Pipeline.owesWithin
  iintro ⟨%W, -, Howes⟩
  iexists W
  iexact Howes

set_option backward.isDefEq.respectTransparency.types false in
/-- ENTRY of the first region: the unscoped buffers held at the entry contents are the seven
    windows' arrays at the proof data's entry contents beside the unscoped rest; the region has no
    table; the core owes nothing; the generator register goes into the invariant. -/
theorem entry0 (c : Dev nD) :
    iprop(iprop(StableHlo.held (c : Thread nD τ) (Pipeline.ucRefs τ sig) (V1 m c) ∗ R c) ∗ Pipeline.ownSems0 (fun k : PEmpty => k.elim) c ∗ levAts L₀ lv₀)
      ⊢ (|={Set.univ}=> iprop((pdats m d1 0 c).arrays ((pdats m d1 0 c).arrAt · 0) ∗ Pipeline.prefHeld (pcfgs (F := F) 0).pre c (fun _ => fullShare) (adm (F := F) 0).1
          ∗ (pdats m d1 0 c).owesAt () 0 ∗ (iprop(∃ r, prngReg c r)) ∗ Pipeline.unscopedRest (Ix := Unit) (Name := ℕ) (U := UR sig nD τ) (Lvl := ℕ) spec0 c (E1 m c)) : sProp 𝕄) := by
  have hsplit := Pipeline.arrays_of_unscopedBufs (p := 0) (pcfgs (F := F)) adm (pdats m d1) (launch0 (F := F)).win (launch0 (F := F)).arr_whole c
    ((pdats m d1 0 c).share_full fun _ => rfl) (E1 m c) fun _ => rfl
  rw [Pipeline.unscopedBufs_held] at hsplit
  iintro ⟨⟨Hbufs, Hreg, Howes⟩, -, -⟩
  ihave Hparts := hsplit $$ Hbufs
  icases Hparts with ⟨Harr, Hrest⟩
  imodintro
  isplitl [Harr]
  · iexact Harr
  isplitr
  · unfold Pipeline.prefHeld
    rw [show (Finset.univ : Finset (Fin 0)) = ∅ from rfl, BI.bigSep_empty]
    iempintro
  isplitl [Howes]
  · iapply (owes_in0 m d1 c 0); iexact Howes
  isplitl [Hreg]
  · iexact Hreg
  · iexact Hrest

/-- The invariant at the first point: the scoped buffers no window stages and the generator
    register; the first region has no table to take in. -/
theorem inv_in0 (c : Dev nD) :
    (iprop((iprop(∃ r, prngReg c r)) ∗ Pipeline.prefHeld (pcfgs (F := F) 0).pre c (fun _ => fullShare) (adm (F := F) 0).1
        ∗ Pipeline.scopedRest (Pipeline.pin (pcfgs (F := F)) adm 0).spec c) : sProp 𝕄) ⊢ (pdats m d1 0 c).Φ 0 := by
  show _ ⊢ Pipeline.ΦA spec0 c
  unfold Pipeline.ΦA
  iintro ⟨Hreg, -, Hscoped⟩
  isplitl [Hscoped]
  · iexact Hscoped
  · iexact Hreg

/-- The invariant at the last point gives both back; the kernel has no semaphore of its own. -/
theorem inv_out0 (c : Dev nD) :
    (pdats m d1 0 c).Φ (Fin.last (Pipeline.pin (pcfgs (F := F)) adm 0).N)
      ⊢ (iprop((iprop(∃ r, prngReg c r)) ∗ Pipeline.ownSems0 (fun k : PEmpty => k.elim) c
          ∗ Pipeline.scopedRest (Pipeline.pin (pcfgs (F := F)) adm 0).spec c) : sProp 𝕄) := by
  rw [Pipeline.ownSems0_none]
  show Pipeline.ΦA spec0 c ⊢ _
  unfold Pipeline.ΦA
  iintro ⟨Hscoped, Hreg⟩
  isplitl [Hreg]
  · iexact Hreg
  isplitr
  · iempintro
  · iexact Hscoped

set_option backward.isDefEq.respectTransparency.types false in
/-- EXIT of the first region: the seven arrays at what the write-backs leave and the unscoped rest
    as entered are the unscoped buffers held at the exit contents; the core owes nothing; the
    generator register comes back. -/
theorem exit0
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N) (c : Dev nD) :
    iprop((pdats m d1 0 c).arrays ((pdats m d1 0 c).arrAt · (Pipeline.pin (pcfgs (F := F)) adm 0).N)
        ∗ (pdats m d1 0 c).owesAt () (Fin.last (Pipeline.pin (pcfgs (F := F)) adm 0).N)
        ∗ (iprop(∃ r, prngReg c r)) ∗ Pipeline.unscopedRest (Ix := Unit) (Name := ℕ) (U := UR sig nD τ) (Lvl := ℕ) spec0 c (E1 m c))
      ⊢ (|={Set.univ}=> iprop(StableHlo.held (c : Thread nD τ) (Pipeline.ucRefs τ sig) (V2 m outs c) ∗ R c) : sProp 𝕄) := by
  have hjoin := Pipeline.unscopedBufs_of_arrays (p := 0) (pcfgs (F := F)) adm (Ix := Unit) (Name := ℕ) (U := UR sig nD τ) (Lvl := ℕ)
    (launch0 (F := F)).win (launch0 (F := F)).arr_whole c (pdats m d1) ((pdats m d1 0 c).share_full fun _ => rfl)
    (E1 m c) (E2 m outs c) ((pdats m d1 0 c).arrAt · cfg0.N) (exit_arrays0 m d1 outs h4 h5 h6 c) (exit_rest0 m outs c)
  rw [Pipeline.unscopedBufs_held] at hjoin
  iintro ⟨Harr, Howes, Hreg, Hrest⟩
  imodintro
  isplitl [Harr Hrest]
  · iapply hjoin
    isplitl [Harr]
    · iexact Harr
    · iexact Hrest
  isplitl [Hreg]
  · iexact Hreg
  · iapply (owes_out0 m d1 c (Fin.last _)); iexact Howes

set_option backward.isDefEq.respectTransparency.types false in
/-- THE FIRST REGION AS A SEGMENT: entered from every unscoped buffer held at the contents after
    the host constants, left at the same with the three projection buffers at `outs 2` — provided
    those unknowns are what the pipeline's write-backs leave in the three output arrays. -/
def reg0
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N) :
    RegionSeg (pcfgs (F := F)) adm (pdats m d1) () defs₀ Variants.none L₀ lv₀ 0 where
  win := (launch0 (F := F)).win.to₀
  block_pos := (launch0 (F := F)).block_pos
  stage_whole := (launch0 (F := F)).stage_whole
  K := PEmpty
  osem k := k.elim
  ho := Pipeline.OwnSemFacts.none _
  hbody c := (R0.body_obligation0 (E1 m) c).loose
  hwaits := Pipeline.hwaits_of_owed_zero _ _ _ _ L₀ lv₀ 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := entry0 m d1 c
  hin c := inv_in0 m d1 c
  hout c := inv_out0 m d1 c
  hexit c := exit0 m d1 outs h4 h5 h6 c

theorem reg0_pre (h4 h5 h6) (c : Dev nD) : (reg0 m d1 outs h4 h5 h6).pre c = iprop(StableHlo.held (c : Thread nD τ) (Pipeline.ucRefs τ sig) (V1 m c) ∗ R c) := rfl
theorem reg0_post (h4 h5 h6) (c : Dev nD) : (reg0 m d1 outs h4 h5 h6).post c = iprop(StableHlo.held (c : Thread nD τ) (Pipeline.ucRefs τ sig) (V2 m outs c) ∗ R c) := rfl

end Cert.Kernel.Run

end
-- ==== Proof.K.Seg1.lean ====
/- The attention region of @main as a segment of the run: entered from every unscoped buffer held
   at the contents the projection region leaves, left at the same contents with the result buffer
   replaced by what the pipeline's write-backs leave in it. The region prefetches the two tables of
   tile pairs; at its entry they hold what the host constants wrote, they go into the body's
   invariant at the full share and come back out of it at the end. Its five windows are a row block
   of the queries, of the keys, of the values and a tile of the mask operand (inputs), and a row
   block of the result (output). The proof data of the region is a parameter here: what this module
   needs of it is listed once, as a record of facts. -/
import proofs.«162603_j30889404792899_1_alg».proof.Proof.K.Seg0

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.StableHlo
open Cert.Kernel.Gen

variable {F : FTy → Type} [FloatOps F]

local notation "𝕄" => MT nD τ sig Unit (Elt F) ℕ (UR sig nD τ) ℕ

variable (m : (ℓ : Loc nD τ sig) → Buf (Elt F) ℓ) (outs : Outs (F := F))

/-- What the second region leaves in the TensorCore's buffers: the result buffer at the unknown
    `outs 3`, every other buffer as found. -/
abbrev E3 : (c : Dev nD) → (b : Ref sig .tc) → Buf (Elt F) ((c : Thread nD τ).loc b) := fun c b => V3 m outs c b

/-! ## The tables at the region's entry -/

/-- The first table's buffer is written by the first host constant and by nothing after it. -/
theorem V2_main_c (c : Dev nD) : V2 m outs c main_c = fun i => lit0 (S36.rowMajor i) := by
  refine (V2_of m outs c main_c (by decide)).trans ?_
  show StableHlo.after hostOps0 (V0 m c) (Proc.devRef .tc main_c) = _
  after_results
  rfl

/-- The second table's buffer is written by the second host constant and by nothing after it. -/
theorem V2_main_c_0 (c : Dev nD) : V2 m outs c main_c_0 = fun i => lit1 (S36.rowMajor i) := by
  refine (V2_of m outs c main_c_0 (by decide)).trans ?_
  show StableHlo.after hostOps0 (V0 m c) (Proc.devRef .tc main_c_0) = _
  after_results
  rfl

/-- At the second region's entry the prefetched tables hold the tile pairs the pipeline is pinned at. -/
theorem tables_entry1 (c : Dev nD) : (fun k => E2 m outs c (pre1.ref k)) = (R1.tblC (F := F)) := by
  funext k
  match k with
  | ⟨0, _⟩ => exact V2_main_c m outs c
  | ⟨1, _⟩ => exact V2_main_c_0 m outs c

/-! ## What the run needs of the second region's proof data -/

/-- The facts about the second region's proof data `d1` that make the region a segment between
    the boundary contents: its arrays are read off the entry contents, every share is full, nothing
    is owed and no bound is kept on the recorded pairs; the body obligation holds; the invariant at
    the first point is made from the generator register, the tables at the full share and the scoped
    buffers no window stages, and at the last point gives them back; and the unknown the last
    boundary names is what the write-backs leave in the result array. -/
structure Facts1 (d1 : (c : Dev nD) → Dat τ (Elt F) Unit ℕ (UR sig nD τ) ℕ (R1.cfgT (F := F)) c) : Prop where
  hA : ∀ c w, (d1 c).A w = E2 m outs c (Pipeline.arrRef spec1 w)
  hq : ∀ c w, (d1 c).q w = fullShare
  howed : ∀ c t, (d1 c).owed t = 0
  hrec : ∀ c t, (d1 c).recorded t = Set.univ
  hbody : ∀ c, Pipeline.BodyObligation (d1 c) (defs₀ (F := F)) Variants.none () Set.univ
  hin : ∀ c, (iprop((iprop(∃ r, prngReg c r)) ∗ Pipeline.prefHeld pre1 c (fun _ => fullShare) (R1.tblC (F := F))
      ∗ Pipeline.scopedRest spec1 c) : sProp 𝕄) ⊢ (d1 c).Φ 0
  hout : ∀ c, (d1 c).Φ (Fin.last (R1.cfgT (F := F)).N) ⊢ (iprop((iprop((iprop(∃ r, prngReg c r)) ∗ Pipeline.prefHeld pre1 c (fun _ => fullShare) (R1.tblC (F := F))))
      ∗ Pipeline.scopedRest spec1 c) : sProp 𝕄)
  hres : ∀ c, outs 3 main_v1 c = (d1 c).arrAt 4 (R1.cfgT (F := F)).N

variable (d1 : (c : Dev nD) → Dat τ (Elt F) Unit ℕ (UR sig nD τ) ℕ (R1.cfgT (F := F)) c)

/-- At the second region's exit each of its arrays holds what the write-backs leave: an input's
    array is never written and the last update touches the result buffer only; the output's array
    is the result buffer, at the unknown the last boundary names. -/
theorem exit_arrays1 (f1 : Facts1 m outs d1) (c : Dev nD) :
    ∀ w : Fin (R1.cfgT (F := F)).W, (pdats m d1 1 c).arrAt w (R1.cfgT (F := F)).N = E3 m outs c (Pipeline.arrRef spec1 w)
  | ⟨0, _⟩ => ((d1 c).arrAt_in 0 rfl _).trans ((f1.hA c 0).trans (V3_of m outs c main_v0_0 (by decide)).symm)
  | ⟨1, _⟩ => ((d1 c).arrAt_in 1 rfl _).trans ((f1.hA c 1).trans (V3_of m outs c main_v0_1 (by decide)).symm)
  | ⟨2, _⟩ => ((d1 c).arrAt_in 2 rfl _).trans ((f1.hA c 2).trans (V3_of m outs c main_v0_2 (by decide)).symm)
  | ⟨3, _⟩ => ((d1 c).arrAt_in 3 rfl _).trans ((f1.hA c 3).trans (V3_of m outs c main_arg4 (by decide)).symm)
  | ⟨4, _⟩ => (f1.hres c).symm.trans (V3_main_v1 m outs c).symm

/-- Every buffer that is no array of the second region's windows leaves the region as it entered:
    the last update touches the result buffer only, and that is the output window's array. -/
theorem exit_rest1 (c : Dev nD) : ∀ b, b ∉ Finset.univ.image (Pipeline.arrRef spec1) → E3 m outs c b = E2 m outs c b := by
  intro b hb
  refine V3_of m outs c b fun h => hb ?_
  simp only [List.mem_cons, List.not_mem_nil, or_false] at h
  subst h
  exact Finset.mem_image.mpr ⟨4, Finset.mem_univ _, rfl⟩

/-- A core owing nothing owes the second region's tallies within its bound at any point, -/
theorem owes_in1 (f1 : Facts1 m outs d1) (c : Dev nD) (t : Fin ((R1.cfgT (F := F)).N + 1)) :
    (iprop(∃ W, owes (c : Thread nD τ) (0 : CellTallies nD τ sig Unit) W) : sProp 𝕄) ⊢ (pdats m d1 1 c).owesAt () t := by
  show _ ⊢ (d1 c).owesAt () t
  unfold Pipeline.Dat.owesAt Pipeline.owesWithin Pipeline.Dat.bound
  rw [f1.howed c t, f1.hrec c t]
  iintro ⟨%W, Howes⟩
  iexists W
  isplitr
  · ipureintro; exact fun _ _ => Set.mem_union_left _ (Set.mem_univ _)
  · iexact Howes

/-- and what the region owes at any point is nothing. -/
theorem owes_out1 (f1 : Facts1 m outs d1) (c : Dev nD) (t : Fin ((R1.cfgT (F := F)).N + 1)) :
    (pdats m d1 1 c).owesAt () t ⊢ (iprop(∃ W, owes (c : Thread nD τ) (0 : CellTallies nD τ sig Unit) W) : sProp 𝕄) := by
  show (d1 c).owesAt () t ⊢ _
  unfold Pipeline.Dat.owesAt Pipeline.owesWithin
  rw [f1.howed c t]
  iintro ⟨%W, -, Howes⟩
  iexists W
  iexact Howes

set_option backward.isDefEq.respectTransparency.types false in
/-- ENTRY of the second region: the unscoped buffers held at the entry contents are the five
    windows' arrays at the proof data's entry contents, the two tables at the tile pairs, and the
    rest; the core owes nothing; the generator register goes into the invariant. -/
theorem entry1 (f1 : Facts1 m outs d1) (c : Dev nD) :
    iprop(iprop(StableHlo.held (c : Thread nD τ) (Pipeline.ucRefs τ sig) (V2 m outs c) ∗ R c) ∗ Pipeline.ownSems0 (fun k : PEmpty => k.elim) c ∗ levAts L₀ lv₀)
      ⊢ (|={Set.univ}=> iprop((pdats m d1 1 c).arrays ((pdats m d1 1 c).arrAt · 0) ∗ Pipeline.prefHeld (pcfgs (F := F) 1).pre c (fun _ => fullShare) (adm (F := F) 1).1
          ∗ (pdats m d1 1 c).owesAt () 0 ∗ (iprop(∃ r, prngReg c r))
          ∗ Pipeline.unscopedRestP (Ix := Unit) (Name := ℕ) (U := UR sig nD τ) (Lvl := ℕ) pre1 spec1 c (E2 m outs c)) : sProp 𝕄) := by
  have hsplit := Pipeline.arrays_of_unscopedBufs (p := 1) (pcfgs (F := F)) adm (pdats m d1) (launch1 (F := F)).win (launch1 (F := F)).arr_whole c
    ((pdats m d1 1 c).share_full (f1.hq c)) (E2 m outs c) (f1.hA c)
  rw [Pipeline.unscopedBufs_held] at hsplit
  have htab := Pipeline.unscopedRest_split (Ix := Unit) (Name := ℕ) (U := UR sig nD τ) (Lvl := ℕ) preFacts1 c (E2 m outs c)
  rw [tables_entry1 m outs c] at htab
  iintro ⟨⟨Hbufs, Hreg, Howes⟩, -, -⟩
  ihave Hparts := hsplit $$ Hbufs
  icases Hparts with ⟨Harr, Hrest⟩
  ihave Hrest' := (Entails.of_eq htab) $$ Hrest
  icases Hrest' with ⟨Htab, Hrest⟩
  imodintro
  isplitl [Harr]
  · iexact Harr
  isplitl [Htab]
  · iexact Htab
  isplitl [Howes]
  · iapply (owes_in1 m outs d1 f1 c 0); iexact Howes
  isplitl [Hreg]
  · iexact Hreg
  · iexact Hrest

/-- The invariant at the first point, from the generator register, the tables and the scoped
    buffers no window stages. -/
theorem inv_in1 (f1 : Facts1 m outs d1) (c : Dev nD) :
    (iprop((iprop(∃ r, prngReg c r)) ∗ Pipeline.prefHeld (pcfgs (F := F) 1).pre c (fun _ => fullShare) (adm (F := F) 1).1
        ∗ Pipeline.scopedRest (Pipeline.pin (pcfgs (F := F)) adm 1).spec c) : sProp 𝕄) ⊢ (pdats m d1 1 c).Φ 0 :=
  f1.hin c

/-- The invariant at the last point gives back the generator register and the tables (both leave
    the region through what it hands on) and the scoped buffers; the kernel has no semaphore of its
    own. -/
theorem inv_out1 (f1 : Facts1 m outs d1) (c : Dev nD) :
    (pdats m d1 1 c).Φ (Fin.last (Pipeline.pin (pcfgs (F := F)) adm 1).N)
      ⊢ (iprop((iprop((iprop(∃ r, prngReg c r)) ∗ Pipeline.prefHeld pre1 c (fun _ => fullShare) (R1.tblC (F := F))))
          ∗ Pipeline.ownSems0 (fun k : PEmpty => k.elim) c
          ∗ Pipeline.scopedRest (Pipeline.pin (pcfgs (F := F)) adm 1).spec c) : sProp 𝕄) := by
  rw [Pipeline.ownSems0_none]
  refine (f1.hout c).trans ?_
  iintro ⟨Hback, Hscoped⟩
  isplitl [Hback]
  · iexact Hback
  isplitr
  · iempintro
  · iexact Hscoped

set_option backward.isDefEq.respectTransparency.types false in
/-- EXIT of the second region: the tables, back at the tile pairs, and the rest make the unscoped
    buffers that are no window's array, as entered; with the five arrays at what the write-backs
    leave they are the unscoped buffers held at the last boundary's contents; the core owes
    nothing; the generator register comes back. -/
theorem exit1 (f1 : Facts1 m outs d1) (c : Dev nD) :
    iprop((pdats m d1 1 c).arrays ((pdats m d1 1 c).arrAt · (Pipeline.pin (pcfgs (F := F)) adm 1).N)
        ∗ (pdats m d1 1 c).owesAt () (Fin.last (Pipeline.pin (pcfgs (F := F)) adm 1).N)
        ∗ (iprop((iprop(∃ r, prngReg c r)) ∗ Pipeline.prefHeld pre1 c (fun _ => fullShare) (R1.tblC (F := F))))
        ∗ Pipeline.unscopedRestP (Ix := Unit) (Name := ℕ) (U := UR sig nD τ) (Lvl := ℕ) pre1 spec1 c (E2 m outs c))
      ⊢ (|={Set.univ}=> iprop(StableHlo.held (c : Thread nD τ) (Pipeline.ucRefs τ sig) (V3 m outs c) ∗ R c) : sProp 𝕄) := by
  have hjoin := Pipeline.unscopedBufs_of_arrays (p := 1) (pcfgs (F := F)) adm (Ix := Unit) (Name := ℕ) (U := UR sig nD τ) (Lvl := ℕ)
    (launch1 (F := F)).win (launch1 (F := F)).arr_whole c (pdats m d1) ((pdats m d1 1 c).share_full (f1.hq c))
    (E2 m outs c) (E3 m outs c) ((pdats m d1 1 c).arrAt · (R1.cfgT (F := F)).N) (exit_arrays1 m outs d1 f1 c) (exit_rest1 m outs c)
  rw [Pipeline.unscopedBufs_held] at hjoin
  have htab := Pipeline.unscopedRest_split (Ix := Unit) (Name := ℕ) (U := UR sig nD τ) (Lvl := ℕ) preFacts1 c (E2 m outs c)
  rw [tables_entry1 m outs c] at htab
  iintro ⟨Harr, Howes, ⟨Hreg, Htab⟩, Hrest⟩
  ihave Hrest' := (Entails.of_eq htab.symm) $$ [Htab Hrest]
  · isplitl [Htab]
    · iexact Htab
    · iexact Hrest
  imodintro
  isplitl [Harr Hrest']
  · iapply hjoin
    isplitl [Harr]
    · iexact Harr
    · iexact Hrest'
  isplitl [Hreg]
  · iexact Hreg
  · iapply (owes_out1 m outs d1 f1 c (Fin.last _)); iexact Howes

set_option backward.isDefEq.respectTransparency.types false in
/-- THE SECOND REGION AS A SEGMENT: entered from every unscoped buffer held at the contents the
    first region leaves, left at the same with the result buffer at `outs 3`. -/
def reg1 (f1 : Facts1 m outs d1) :
    RegionSeg (pcfgs (F := F)) adm (pdats m d1) () defs₀ Variants.none L₀ lv₀ 1 where
  win := (launch1 (F := F)).win.to₀
  block_pos := (launch1 (F := F)).block_pos
  stage_whole := (launch1 (F := F)).stage_whole
  K := PEmpty
  osem k := k.elim
  ho := Pipeline.OwnSemFacts.none _
  hbody c := (f1.hbody c).loose
  hwaits := Pipeline.hwaits_of_owed_zero _ _ _ _ L₀ lv₀ 1 fun c t => f1.howed c t
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop((iprop(∃ r, prngReg c r)) ∗ Pipeline.prefHeld pre1 c (fun _ => fullShare) (R1.tblC (F := F)))
  Z c := Pipeline.unscopedRestP (Ix := Unit) (Name := ℕ) (U := UR sig nD τ) (Lvl := ℕ) pre1 spec1 c (E2 m outs c)
  hentry c := entry1 m outs d1 f1 c
  hin c := inv_in1 m outs d1 f1 c
  hout c := inv_out1 m outs d1 f1 c
  hexit c := exit1 m outs d1 f1 c

/-! ## The run of @main from the two regions' proof data -/

/-- THE RUN. With the first region's proof data at its entry contents and any proof data of the
    second region meeting `Facts1`, and with the unknowns `outs 2` at what the first region's
    write-backs leave in the three projection arrays: every weakly fair execution of @main from
    memory `m` terminates, and every final memory holds the result buffer at `outs 3 main_v1` —
    by `Facts1.hres` what the second region's write-backs leave in the result array — and each
    argument as launched. -/
theorem run_of_data (ρ : Dev nD → PrngReg)
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N)
    (f1 : Facts1 m outs d1) :
    θ_run defs (onTc (τ := τ) (main (F := F))) ⟨m, fun _ => 0, ρ⟩ (fun r => ∀ c : Dev nD,
      r.2.mem ((c.tc : Thread nD τ).loc main_v1) = outs 3 main_v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_of_regions m ρ outs adm (pdats m d1) (reg0 m d1 outs h4 h5 h6) (fun _ => .rfl) (fun _ => .rfl)
    (reg1 m outs d1 f1) (fun _ => .rfl) (fun _ => .rfl)

end Cert.Kernel.Run

end
-- ==== Proof.K.Sched1.lean ====
import proofs.«162603_j30889404792899_1_alg».proof.Proof.Gen.Kernel.Regions
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.K.Tables1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region's schedule at the tile-pair tables -/

theorem N_T : (cfgT (F := F)).N = 36 := N_1

/-- A grid point as a table index: its position. -/
def ptT (t : Fin (cfgT (F := F)).N) : Fin 36 := ⟨t.val, lt_of_lt_of_eq t.isLt N_T⟩

/-- A grid point's coordinate is its position. -/
theorem pt_coords (t : Fin (cfgT (F := F)).N) : pt ((cfgT (F := F)).grid.coords t) = ptT t := by
  have h : t.val < 36 := lt_of_lt_of_eq t.isLt N_T
  apply Fin.ext
  show (((cfgT (F := F)).grid.coords t) 0).val = t.val
  unfold Pipeline.Grid.coords
  show t.val / 1 % 36 = t.val
  omega

/-- The reset condition holds exactly when the column tile is the first. -/
theorem cond1_iff (v3 : BitVec 32) : Scalar.cmpi .ne (Scalar.extui (Scalar.cmpi .eq v3 0#32)) 0#32 = 1#1 ↔ v3 = 0#32 := by
  by_cases h : v3 = 0#32
  · subst h; simp only [iff_true]; decide
  · simp only [h, iff_false]
    have e : Scalar.cmpi .eq v3 0#32 = 0#1 := by
      show BitVec.ofBool (v3 == 0#32) = 0#1
      rw [beq_eq_false_iff_ne.mpr h]; rfl
    rw [e]; decide

/-- The store condition holds exactly on the diagonal: column tile = row tile. -/
theorem cond2_iff (v1 v3 : BitVec 32) : k1_cond2 v1 v3 = 1#1 ↔ v3 = v1 := by
  unfold k1_cond2
  by_cases h : v3 = v1
  · subst h
    have e : Scalar.cmpi .eq v3 v3 = 1#1 := by
      show BitVec.ofBool (v3 == v3) = 1#1
      rw [beq_self_eq_true]; rfl
    simp only [e, iff_true]; decide
  · have e : Scalar.cmpi .eq v3 v1 = 0#1 := by
      show BitVec.ofBool (v3 == v1) = 0#1
      rw [beq_eq_false_iff_ne.mpr h]; rfl
    simp only [e, h, iff_false]; decide

/-- The table words the idle table is stated over are the pair at the point. -/
theorem atD0 (i : grid1.Coords) : (tblC (F := F)).atD 0 (k1_off1 i) = lit0 (pt i) := by
  unfold Pipeline.Prefetch.Contents.atD
  split
  · show lit0 (S36.rowMajor _) = lit0 (pt i)
    congr 1; apply Fin.ext
    refine (Shape.rowMajor_val_one (d := ![36]) _).trans ?_
    show (Scalar.indexCast (BitVec.ofNat 32 (i 0).val)).toNat = (i 0).val
    exact off_toNat i
  · next h =>
    refine absurd (fun a => ?_) h
    have := k1_off1_inb i
    match a with
    | ⟨0, _⟩ => exact this 0
theorem atD1 (i : grid1.Coords) : (tblC (F := F)).atD 1 (k1_off1 i) = lit1 (pt i) := by
  unfold Pipeline.Prefetch.Contents.atD
  split
  · show lit1 (S36.rowMajor _) = lit1 (pt i)
    congr 1; apply Fin.ext
    refine (Shape.rowMajor_val_one (d := ![36]) _).trans ?_
    show (Scalar.indexCast (BitVec.ofNat 32 (i 0).val)).toNat = (i 0).val
    exact off_toNat i
  · next h =>
    refine absurd (fun a => ?_) h
    have := k1_off1_inb i
    match a with
    | ⟨0, _⟩ => exact this 0

/-- The output window is idle exactly off the diagonal. -/
theorem idle4_eq (i : grid1.Coords) : (cfgT (F := F)).idle 4 i = !decide (lit1 (pt i) = lit0 (pt i)) := by
  show (!(k1_cond2 ((tblC (F := F)).atD 0 (k1_off1 i)) ((tblC (F := F)).atD 1 (k1_off1 i)) == 1#1)) = _
  rw [atD0, atD1]
  by_cases h : lit1 (pt i) = lit0 (pt i)
  · rw [decide_eq_true h, (cond2_iff _ _).mpr h]; try rfl
  · rw [decide_eq_false h]
    have : k1_cond2 (lit0 (pt i)) (lit1 (pt i)) ≠ 1#1 := fun e => h ((cond2_iff _ _).mp e)
    rw [beq_eq_false_iff_ne.mpr this]; try rfl

/-- In the tables the row tile changes after a point, or the point is the last, exactly on the diagonal. -/
theorem diag_facts : ∀ t : Fin 36, (t.val + 1 = 36 ∨ ∃ h : t.val + 1 < 36, rowT ⟨t.val + 1, h⟩ ≠ rowT t) ↔ lit1 t = lit0 t := by decide

/-- The output block is written back exactly at the diagonal points. -/
theorem flush4_iff (t : Fin (cfgT (F := F)).N) : ((cfgT (F := F)).win 4).flush t = true ↔ lit1 (ptT t) = lit0 (ptT t) := by
  rw [← diag_facts (ptT t)]
  unfold Pipeline.Window.flush
  rw [show ((cfgT (F := F)).win 4).isOut = true from rfl, Bool.true_and, Bool.or_eq_true, decide_eq_true_eq, decide_eq_true_eq]
  have hN : (cfgT (F := F)).grid.N = 36 := N_T
  have hix : ∀ s : Fin (cfgT (F := F)).N, ((cfgT (F := F)).win 4).index s = ![rowT (ptT s), 0] := fun s => by
    show cc1_transform_4 k1_off1_inb numel1_S1 (tblC (F := F)) ((cfgT (F := F)).grid.coords s) = _
    rw [tr4, pt_coords]
  have hv : (ptT t).val = t.val := rfl
  constructor
  · rintro (h | ⟨h, hne⟩)
    · left; omega
    · right; refine ⟨by omega, fun e => hne ?_⟩
      rw [hix, hix]; exact congrArg (fun x => ![x, 0]) e
  · rintro (h | ⟨h, hne⟩)
    · left; omega
    · right; refine ⟨by omega, fun e => hne ?_⟩
      rw [hix, hix] at e
      exact congrFun e 0

end Cert.Kernel.R1
end
-- ==== Proof.K.Dat1.lean ====
import proofs.«162603_j30889404792899_1_alg».proof.Proof.Gen.Kernel.Regions
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.K.Sched1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region's proof data: blocks, the accumulator's trajectory, the invariant -/

variable (V : (c : Dev nD) → (b : Ref sig .tc) → Buf (Elt F) ((c : Thread nD τ).loc b))

/-- Window `w`'s block at point `t`, read off its array as the region finds it. -/
def iblk1 (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V c (Pipeline.arrRef spec1 w))

/-- The pair of tile numbers at a grid point, as the words the body loads. -/
def wRow (t : Fin (cfgT (F := F)).N) : BitVec 32 := lit0 (ptT t)
def wCol (t : Fin (cfgT (F := F)).N) : BitVec 32 := lit1 (ptT t)

/-- One step of the accumulation: the scratch after a point, from the scratch the product is added to. -/
def accStep (c : Dev nD) (t : Fin (cfgT (F := F)).N) (acc : Vec F S1024x64 .f32) : Vec F S1024x64 .f32 :=
  k1_pay1 (k1_pay3 (wRow t) (wCol t) (iblk1 V c 0 t) (iblk1 V c 1 t) (iblk1 V c 3 t) acc (iblk1 V c 2 t))

/-- THE ACCUMULATION. What the scratch holds after the body at position `n`: the step from zeros where the column tile is
    the first of its row, else from what the point before left. -/
def accAfter (c : Dev nD) : (n : ℕ) → (hn : n < (cfgT (F := F)).N) → Vec F S1024x64 .f32
  | 0, hn => accStep V c ⟨0, hn⟩ k1_pay2
  | n + 1, hn => accStep V c ⟨n + 1, hn⟩ (if wCol (F := F) ⟨n + 1, hn⟩ = 0#32 then k1_pay2 else accAfter c n (Nat.lt_of_succ_lt hn))

theorem accAfter_reset (c : Dev nD) (t : Fin (cfgT (F := F)).N) (h : wCol t = 0#32) :
    accAfter V c t.val t.isLt = accStep V c t k1_pay2 := by
  obtain ⟨n, hn⟩ := t
  cases n with
  | zero => rfl
  | succ n => show accStep V c _ (if _ then _ else _) = _; rw [if_pos h]

theorem accAfter_step (c : Dev nD) (t : Fin (cfgT (F := F)).N) (h : wCol t ≠ 0#32) (h0 : t.val ≠ 0) :
    accAfter V c t.val t.isLt = accStep V c t (accAfter V c (t.val - 1) (Nat.lt_of_le_of_lt (Nat.sub_le _ _) t.isLt)) := by
  obtain ⟨n, hn⟩ := t
  cases n with
  | zero => exact absurd rfl h0
  | succ n => show accStep V c _ (if _ then _ else _) = _; rw [if_neg h]; rfl

/-- The first point resets: its column tile is the first. -/
theorem wCol_zero (t : Fin (cfgT (F := F)).N) (h : t.val = 0) : wCol t = 0#32 := by
  unfold wCol
  have : ptT t = 0 := Fin.ext h
  rw [this]; rfl

/-- The scratch accumulator as a memref. -/
abbrev scM : Memref sig .tc .vmem S1024x64 .f32 := Memref.whole cc1_scratch0

/-- The two tables, held whole at the tile pairs. -/
abbrev tabs (c : Dev nD) : sProp 𝕄 := Pipeline.prefHeld (Ix := Unit) (Name := ℕ) (U := UR sig nD τ) (Lvl := ℕ) pre1 c (fun _ => fullShare) (tblC (F := F))

/-- The scoped buffers of the core that the second region neither stages nor accumulates in (the first region's staging
    buffers), each at some contents. -/
def rest11 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped rest is those eleven and the scratch at some contents. -/
theorem scopedRest_split (c : Dev nD) :
    (Pipeline.scopedRest (Ix := Unit) (Name := ℕ) (U := UR sig nD τ) (Lvl := ℕ) (Val := Elt F) spec1 c : sProp 𝕄)
      ⊣⊢ iprop(rest11 (F := F) c ∗ ∃ d, owns (c : Thread nD τ) scM fullShare d) := by
  rw [scopedRest1_eq]; unfold rest11; simp only [scM, owns_whole]
  constructor
  · iintro ⟨H1, H2, H3, H4, H5, H6, H7, H8, H9, H10, H11, HS⟩
    isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexact HS
  · iintro ⟨⟨H1, H2, H3, H4, H5, H6, H7, H8, H9, H10, H11⟩, HS⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS

/-- The region invariant before position `n`: the tables, the generator register at some state, the buffers the region does
    not touch, and the scratch — at anything before the first point, afterwards at what the point before left. -/
def PhiS (c : Dev nD) : (n : ℕ) → n ≤ (cfgT (F := F)).N → sProp 𝕄
  | 0, _ => iprop(tabs (F := F) c ∗ (∃ r, prngReg c r) ∗ rest11 (F := F) c ∗ ∃ d, owns (c : Thread nD τ) scM fullShare d)
  | n + 1, hn => iprop(tabs (F := F) c ∗ (∃ r, prngReg c r) ∗ rest11 (F := F) c ∗ owns (c : Thread nD τ) scM fullShare (accAfter V c n hn))

theorem PhiS_zero (c : Dev nD) (n : ℕ) (h : n ≤ (cfgT (F := F)).N) (hz : n = 0) :
    PhiS V c n h = iprop(tabs (F := F) c ∗ (∃ r, prngReg c r) ∗ rest11 (F := F) c ∗ ∃ d, owns (c : Thread nD τ) scM fullShare d) := by
  subst hz; rfl
theorem PhiS_succ (c : Dev nD) (n : ℕ) (hn : n < (cfgT (F := F)).N) :
    PhiS V c (n + 1) hn = iprop(tabs (F := F) c ∗ (∃ r, prngReg c r) ∗ rest11 (F := F) c ∗ owns (c : Thread nD τ) scM fullShare (accAfter V c n hn)) := rfl
theorem PhiS_pos (c : Dev nD) (n : ℕ) (h : n ≤ (cfgT (F := F)).N) (hz : n ≠ 0) :
    PhiS V c n h = iprop(tabs (F := F) c ∗ (∃ r, prngReg c r) ∗ rest11 (F := F) c ∗ owns (c : Thread nD τ) scM fullShare (accAfter V c (n - 1) (by omega))) := by
  cases n with
  | zero => exact absurd rfl hz
  | succ n => rfl

/-- The proof data of the second pipeline on core `c`: the arrays as the region finds them; after the body each input's buffer
    at its block and the output's at the accumulator (stored on the diagonal; elsewhere the point is idle for it and the
    statement unused); the invariant `PhiS`; nothing owed; full shares. -/
def dat1 (c : Dev nD) : Dat τ (Elt F) Unit ℕ (UR sig nD τ) ℕ (cfgT (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAfter V c t.val t.isLt
  Φ t := PhiS V c t.val (Nat.le_of_lt_succ t.isLt)
  q _ := fullShare
  owed _ := 0

theorem A_eq1 (c : Dev nD) (w : Fin (cfgT (F := F)).W) : (dat1 V c).A w = V c (Pipeline.arrRef spec1 w) := by
  dsimp only [dat1]
theorem after1_0 (c : Dev nD) (t : Fin (cfgT (F := F)).N) : (dat1 V c).after 0 t = iblk1 V c 0 t := by dsimp only [dat1]; rfl
theorem after1_1 (c : Dev nD) (t : Fin (cfgT (F := F)).N) : (dat1 V c).after 1 t = iblk1 V c 1 t := by dsimp only [dat1]; rfl
theorem after1_2 (c : Dev nD) (t : Fin (cfgT (F := F)).N) : (dat1 V c).after 2 t = iblk1 V c 2 t := by dsimp only [dat1]; rfl
theorem after1_3 (c : Dev nD) (t : Fin (cfgT (F := F)).N) : (dat1 V c).after 3 t = iblk1 V c 3 t := by dsimp only [dat1]; rfl
theorem after1_4 (c : Dev nD) (t : Fin (cfgT (F := F)).N) : (dat1 V c).after 4 t = accAfter V c t.val t.isLt := by dsimp only [dat1]; rfl

theorem PhiS_castSucc (c : Dev nD) (t : Fin (cfgT (F := F)).N) :
    (dat1 V c).Φ t.castSucc = PhiS V c t.val (Nat.le_of_lt t.isLt) := by
  dsimp only [dat1]; simp only [Fin.coe_castSucc]

/-- Each input's current staging buffer holds its block at every point, fetched there or not: unfetched, the tile number
    has not changed. -/
theorem before1_0 (c : Dev nD) (t : Fin (cfgT (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgT (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgT (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfgT (F := F)).N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Cert.Kernel.R1
end
-- ==== Proof.K.Phi1.lean ====
import proofs.«162603_j30889404792899_1_alg».proof.Proof.Gen.Kernel.Regions
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.K.Dat1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region's invariant at its two ends -/

variable (V : (c : Dev nD) → (b : Ref sig .tc) → Buf (Elt F) ((c : Thread nD τ).loc b))

/-- What the launch hands the region — the generator register, the two tables at the tile pairs, the scoped buffers no window
    stages — is the invariant before the first point: the scratch is among those buffers, at anything. -/
theorem phi_in (c : Dev nD) :
    iprop((∃ r, prngReg c r) ∗ tabs (F := F) c ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = PhiS V c 0 (Nat.zero_le _) from rfl, PhiS_zero V c 0 _ rfl]
  iintro ⟨Hp, Ht, Hr⟩
  ihave Hr' := (scopedRest_split (F := F) c).1 $$ Hr
  icases Hr' with ⟨H11, HS⟩
  isplitl [Ht]; · iexact Ht
  isplitl [Hp]; · iexact Hp
  isplitl [H11]; · iexact H11
  iexact HS

/-- After any point but the first the invariant gives all of that back: the scratch's named contents are forgotten. -/
theorem phi_out_of_pos (c : Dev nD) (t : Fin ((cfgT (F := F)).N + 1)) (ht : t.val ≠ 0) :
    ((dat1 V c).Φ t : sProp 𝕄)
      ⊢ iprop(((∃ r, prngReg c r) ∗ tabs (F := F) c) ∗ Pipeline.scopedRest (Ix := Unit) (Name := ℕ) (U := UR sig nD τ) (Lvl := ℕ) (Val := Elt F) spec1 c) := by
  rw [show (dat1 V c).Φ t = PhiS V c t.val (Nat.le_of_lt_succ t.isLt) from rfl, PhiS_pos V c _ _ ht]
  iintro ⟨Ht, Hp, H11, HS⟩
  isplitl [Hp Ht]
  · isplitl [Hp]; · iexact Hp
    iexact Ht
  iapply (scopedRest_split (F := F) c).2
  isplitl [H11]; · iexact H11
  iexists _; iexact HS

/-- The same after the last point. -/
theorem phi_out (c : Dev nD) :
    ((dat1 V c).Φ (Fin.last (cfgT (F := F)).N) : sProp 𝕄)
      ⊢ iprop(((∃ r, prngReg c r) ∗ tabs (F := F) c) ∗ Pipeline.scopedRest (Ix := Unit) (Name := ℕ) (U := UR sig nD τ) (Lvl := ℕ) (Val := Elt F) spec1 c) :=
  phi_out_of_pos V c _ (by rw [Fin.val_last]; have : (cfgT (F := F)).N = 36 := N_T; omega)

end Cert.Kernel.R1
end
-- ==== Proof.K.Body1.lean ====
/- The body of the second kernel, run once per control case on arbitrary whole staging memrefs at arbitrary contents.
   The body reads the point's tile pair `(i, j)` off the two tables, resets its accumulator when `j = 0`, adds the
   masked product `(select(row ≥ col, (q kᵀ) * l, 0)) v` to it, and copies it to the output's buffer when `j = i`.
   Four cases: the reset is made or not, the output is stored or not. Each theorem says: from these buffers at these
   contents the body runs to the continuation with the buffers at those contents; nothing about the grid's order. -/
import proofs.«162603_j30889404792899_1_alg».proof.Proof.Gen.Kernel.Launch
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two prefetched tables as the body is handed them: each table's whole buffer as a memref. -/
abbrev tbM0 : Memref sig .tc .smem S36 .i32 := Memref.whole main_c
abbrev htbM0 : tbM0.IsWhole := Memref.isWhole_whole _
abbrev tbM1 : Memref sig .tc .smem S36 .i32 := Memref.whole main_c_0
abbrev htbM1 : tbM1.IsWhole := Memref.isWhole_whole _

/-- A table memref's buffer on core `c`: the type of its contents, and the buffer held read-only at share `q`
    at contents `f`. -/
abbrev TbBuf (c : Dev nD) {S : Shape} {e : EltTy} (M : Memref sig .tc .smem S e) : Type := Buf (Elt F) (M.view.loc (c : Thread nD τ))
abbrev tbPt (q : PosShare TreeShare) (c : Dev nD) {S : Shape} {e : EltTy} (M : Memref sig .tc .smem S e) (f : TbBuf (F := F) c M) : sProp 𝕄 :=
  M.view.loc (c : Thread nD τ) ↦{q} f

/-- The word of the first table at the point's offset, and of the second: the row tile `i` and the column tile `j`
    of the pair the point works on. -/
def w1 (i : grid1.Coords) (c : Dev nD) (xt0 : TbBuf (F := F) c tbM0) : BitVec 32 :=
  tbM0.view.readAt (Elt F) (Rect.unit (s := S36) (k1_off1 i) S1.size (k1_off1_inb i)).toLoadRect xt0 (Shape.Idx.first (numel1_S1.symm ▸ Nat.one_pos))
def w3 (i : grid1.Coords) (c : Dev nD) (xt1 : TbBuf (F := F) c tbM1) : BitVec 32 :=
  tbM1.view.readAt (Elt F) (Rect.unit (s := S36) (k1_off1 i) S1.size (k1_off1_inb i)).toLoadRect xt1 (Shape.Idx.first (numel1_S1.symm ▸ Nat.one_pos))

/-- The first condition: the column tile is the first of its row (`j = 0`), as the body computes it. -/
def cond1 (v3 : BitVec 32) : Prop := Scalar.cmpi .ne (Scalar.extui (Scalar.cmpi .eq v3 0#32)) 0#32 = 1#1

/-- What the accumulator holds after the point's store, from what it held when the point's product was added. -/
def accOut (v1 v3 : BitVec 32) (q k : Vec F S1024x64 .f32) (l : Vec F S1024x1024 .f32) (acc' v : Vec F S1024x64 .f32) : Vec F S1024x64 .f32 :=
  k1_pay1 (k1_pay3 v1 v3 q k l acc' v)

/-- The zero offsets of a rank-two whole-buffer rectangle are the zero function. -/
theorem zero2 : (![0, 0] : Fin 2 → Nat) = fun _ => 0 := by funext a; fin_cases a <;> rfl

/-- After a store through the whole-buffer rectangle, made last, the buffer reads the stored value, whatever it held
    before and whatever the earlier stores were: the rectangle holds every index, so the last piece alone covers. -/
theorem read_store_whole {S : Shape} {e : EltTy} (M : Memref sig .tc .vmem S e) (f : M.view.ty.Contents (Elt F))
    {off : Fin S.rank → Nat} (hz : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩)]
  exact View.canon_cons_unit_zero hz inb w L

set_option maxHeartbeats 1000000 in
/-- Neither branch taken: the column tile is not the first of its row and not the diagonal one. The accumulator goes
    from `acc` to `accOut … acc …`; the output's buffer is not touched. -/
theorem runG_FF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32) (acc o : Vec F S1024x64 .f32)
    (xt0 : TbBuf (F := F) c tbM0) (xt1 : TbBuf (F := F) c tbM1)
    (h1 : ¬ cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) arg8 fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) arg8 fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT0, HT1, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_store_whole arg8 _ zero2 inb_S1024x64_S1024x64_0_0 _ []).trans ?_
    unfold accOut w1 w3
    sl_unfold_run_names
    simp only [View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_FF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32) (acc o : Vec F S1024x64 .f32)
    (xt0 : TbBuf (F := F) c tbM0) (xt1 : TbBuf (F := F) c tbM1)
    (h1 : ¬ cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) (Memref.whole cc1_scratch0) fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) (Memref.whole cc1_scratch0) fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_FF sh c E i arg3 harg3 arg4 harg4 arg5 harg5 arg6 harg6 arg7 harg7 (Memref.whole cc1_scratch0) (Memref.isWhole_whole _) q k v l acc o xt0 xt1 h1 h2 K

set_option maxHeartbeats 1000000 in
/-- The diagonal tile of a row that is not its first: no reset; the accumulator goes from `acc` to `accOut … acc …`
    and that value is stored whole into the output's buffer, whatever it held. -/
theorem runG_FT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32) (acc : Vec F S1024x64 .f32)
    (xt0 : TbBuf (F := F) c tbM0) (xt1 : TbBuf (F := F) c tbM1)
    (h1 : ¬ cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ owns (c : Thread nD τ) arg8 fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l acc v) ∗ owns (c : Thread nD τ) arg8 fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, HT0, HT1, Hk⟩
  obtain rfl := harg3.eq_unread hf3; obtain rfl := harg4.eq_unread hf4; obtain rfl := harg5.eq_unread hf5
  obtain rfl := harg6.eq_unread hf6; obtain rfl := harg8.eq_unread hf8
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole arg7 _ zero2 inb_S1024x64_S1024x64_0_0 _ _).trans ?_
    unfold accOut w1 w3
    sl_unfold_run_names
    simp only [View.readCov_unit_zero (S := S1024x64) _ zero2, View.readAt_eq_ld, harg3.read_unread, harg4.read_unread, harg5.read_unread, harg6.read_unread, harg8.read_unread,
      View.ld_unit_zero (S := S1024x64) zero2, View.ld_unit_zero (S := S1024x1024) zero2] <;> rfl
  isplitl [H8]
  · iexists _; isplitr
    swap; · iexact H8
    ipureintro
    refine (read_store_whole arg8 _ zero2 inb_S1024x64_S1024x64_0_0 _ _).trans ?_
    unfold accOut w1 w3
    sl_unfold_run_names
    simp only [View.readCov_unit_zero (S := S1024x64) _ zero2, View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_FT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32) (acc : Vec F S1024x64 .f32)
    (xt0 : TbBuf (F := F) c tbM0) (xt1 : TbBuf (F := F) c tbM1)
    (h1 : ¬ cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ owns (c : Thread nD τ) (Memref.whole cc1_scratch0) fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l acc v) ∗ owns (c : Thread nD τ) (Memref.whole cc1_scratch0) fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_FT sh c E i arg3 harg3 arg4 harg4 arg5 harg5 arg6 harg6 arg7 harg7 (Memref.whole cc1_scratch0) (Memref.isWhole_whole _) q k v l acc xt0 xt1 h1 h2 K

set_option maxHeartbeats 1000000 in
/-- The first tile of a row that is not the diagonal one: the accumulator, whatever it held, is reset to zeros and
    goes to `accOut … k1_pay2 …`; the output's buffer is not touched. -/
theorem runG_TF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32) (o : Vec F S1024x64 .f32)
    (xt0 : TbBuf (F := F) c tbM0) (xt1 : TbBuf (F := F) c tbM1)
    (h1 : cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ (∃ d, owns (c : Thread nD τ) arg8 fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) arg8 fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, HT0, HT1, Hk⟩
  obtain rfl := harg3.eq_unread hf3; obtain rfl := harg4.eq_unread hf4; obtain rfl := harg5.eq_unread hf5
  obtain rfl := harg6.eq_unread hf6; obtain rfl := harg7.eq_unread hf7
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_store_whole arg8 _ zero2 inb_S1024x64_S1024x64_0_0 _ _).trans ?_
    unfold accOut w1 w3
    sl_unfold_run_names
    simp only [View.readCov_cons_toLoadRect, View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_TF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32) (o : Vec F S1024x64 .f32)
    (xt0 : TbBuf (F := F) c tbM0) (xt1 : TbBuf (F := F) c tbM1)
    (h1 : cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ (∃ d, owns (c : Thread nD τ) (Memref.whole cc1_scratch0) fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) (Memref.whole cc1_scratch0) fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_TF sh c E i arg3 harg3 arg4 harg4 arg5 harg5 arg6 harg6 arg7 harg7 (Memref.whole cc1_scratch0) (Memref.isWhole_whole _) q k v l o xt0 xt1 h1 h2 K

set_option maxHeartbeats 1000000 in
/-- The first tile of a row that is also its diagonal one (the first row): the accumulator, whatever it held, is reset
    to zeros and goes to `accOut … k1_pay2 …`, and that value is stored whole into the output's buffer, whatever it held. -/
theorem runG_TT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32)
    (xt0 : TbBuf (F := F) c tbM0) (xt1 : TbBuf (F := F) c tbM1)
    (h1 : cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ (∃ d, owns (c : Thread nD τ) arg8 fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l (k1_pay2 (F := F)) v) ∗ owns (c : Thread nD τ) arg8 fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, HT0, HT1, Hk⟩
  obtain rfl := harg3.eq_unread hf3; obtain rfl := harg4.eq_unread hf4; obtain rfl := harg5.eq_unread hf5
  obtain rfl := harg6.eq_unread hf6
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole arg7 _ zero2 inb_S1024x64_S1024x64_0_0 _ _).trans ?_
    unfold accOut w1 w3
    sl_unfold_run_names
    simp only [View.readCov_cons_toLoadRect, View.readAt_eq_ld, harg3.read_unread, harg4.read_unread, harg5.read_unread, harg6.read_unread, harg8.read_unread,
      View.ld_unit_zero (S := S1024x64) zero2, View.ld_unit_zero (S := S1024x1024) zero2] <;> rfl
  isplitl [H8]
  · iexists _; isplitr
    swap; · iexact H8
    ipureintro
    refine (read_store_whole arg8 _ zero2 inb_S1024x64_S1024x64_0_0 _ _).trans ?_
    unfold accOut w1 w3
    sl_unfold_run_names
    simp only [View.readCov_cons_toLoadRect, View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_TT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32)
    (xt0 : TbBuf (F := F) c tbM0) (xt1 : TbBuf (F := F) c tbM1)
    (h1 : cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ (∃ d, owns (c : Thread nD τ) (Memref.whole cc1_scratch0) fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l (k1_pay2 (F := F)) v) ∗ owns (c : Thread nD τ) (Memref.whole cc1_scratch0) fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_TT sh c E i arg3 harg3 arg4 harg4 arg5 harg5 arg6 harg6 arg7 harg7 (Memref.whole cc1_scratch0) (Memref.isWhole_whole _) q k v l xt0 xt1 h1 h2 K

end Cert.Kernel.R1

end
-- ==== Proof.K.Obl1.lean ====
import proofs.«162603_j30889404792899_1_alg».proof.Proof.Gen.Kernel.Regions
import proofs.«162603_j30889404792899_1_alg».proof.Proof.Gen.Kernel.Skeleton
import proofs.«162603_j30889404792899_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.K.Phi1
import proofs.«162603_j30889404792899_1_alg».proof.Proof.K.Body1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region's body obligation -/

variable (V : (c : Dev nD) → (b : Ref sig .tc) → Buf (Elt F) ((c : Thread nD τ).loc b))

/-- Each window's current staging memref at point `t`, spelled as the pipeline passes it, and its wholeness. -/
abbrev ms1_0 (t : Fin (cfgT (F := F)).N) : Memref sig .tc .vmem S1024x64 .f32 := spec1_0.stage ((cfgT (F := F)).slots t 0)
abbrev hs1_0 (t : Fin (cfgT (F := F)).N) : (ms1_0 (F := F) t).IsWhole := hstage1_0 (((cfgT (F := F)).slots t 0).cast nbuf1_0)
abbrev ms1_1 (t : Fin (cfgT (F := F)).N) : Memref sig .tc .vmem S1024x64 .f32 := spec1_1.stage ((cfgT (F := F)).slots t 1)
abbrev hs1_1 (t : Fin (cfgT (F := F)).N) : (ms1_1 (F := F) t).IsWhole := hstage1_1 (((cfgT (F := F)).slots t 1).cast nbuf1_1)
abbrev ms1_2 (t : Fin (cfgT (F := F)).N) : Memref sig .tc .vmem S1024x64 .f32 := spec1_2.stage ((cfgT (F := F)).slots t 2)
abbrev hs1_2 (t : Fin (cfgT (F := F)).N) : (ms1_2 (F := F) t).IsWhole := hstage1_2 (((cfgT (F := F)).slots t 2).cast nbuf1_2)
abbrev ms1_3 (t : Fin (cfgT (F := F)).N) : Memref sig .tc .vmem S1024x1024 .f32 := spec1_3.stage ((cfgT (F := F)).slots t 3)
abbrev hs1_3 (t : Fin (cfgT (F := F)).N) : (ms1_3 (F := F) t).IsWhole := hstage1_3 (((cfgT (F := F)).slots t 3).cast nbuf1_3)
abbrev ms1_4 (t : Fin (cfgT (F := F)).N) : Memref sig .tc .vmem S1024x64 .f32 := spec1_4.stage ((cfgT (F := F)).slots t 4)
abbrev hs1_4 (t : Fin (cfgT (F := F)).N) : (ms1_4 (F := F) t).IsWhole := hstage1_4 (((cfgT (F := F)).slots t 4).cast nbuf1_4)

/-- The kernel body at point `t`, on what the pipeline calls it with. -/
abbrev bodyAt1 (t : Fin (cfgT (F := F)).N) : Prog (TpuEff nD τ sig (Elt F) Λ₀ .tc) PUnit :=
  cc1__attn_kernel (grid1.coords t) tbM0 htbM0 tbM1 htbM1 (ms1_0 t) (hs1_0 t) (ms1_1 t) (hs1_1 t) (ms1_2 t) (hs1_2 t) (ms1_3 t) (hs1_3 t) (ms1_4 t) (hs1_4 t) scM (Memref.isWhole_whole _)

/-- The tables, one by one. -/
theorem tabs_eq (c : Dev nD) : (tabs (F := F) c : sProp 𝕄) = iprop(tbPt fullShare c tbM0 (tblC (F := F) 0) ∗ tbPt fullShare c tbM1 (tblC (F := F) 1)) := by
  unfold tabs Pipeline.prefHeld
  rw [show (Finset.univ : Finset (Fin 2)) = insert (0 : Fin 2) {(1 : Fin 2)} from by decide,
    bigSep_insert (by decide), bigSep_singleton]
  rfl

/-- The words the body loads from the tables at a point are the point's tile pair. -/
theorem w1_tbl (i : grid1.Coords) (c : Dev nD) : w1 (F := F) i c (tblC (F := F) 0) = lit0 (pt i) := by
  unfold w1
  show lit0 (S36.rowMajor ((Rect.unit (s := S36) (k1_off1 i) S1.size (k1_off1_inb i)).emb _)) = _
  exact congrArg lit0 (unit_pos i _)
theorem w3_tbl (i : grid1.Coords) (c : Dev nD) : w3 (F := F) i c (tblC (F := F) 1) = lit1 (pt i) := by
  unfold w3
  show lit1 (S36.rowMajor ((Rect.unit (s := S36) (k1_off1 i) S1.size (k1_off1_inb i)).emb _)) = _
  exact congrArg lit1 (unit_pos i _)

/-- What the body is called with at point `t`, the windows one by one, -/
def bodyPre1 (c : Dev nD) (t : Fin (cfgT (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin (cfgT (F := F)).N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any point. The inputs' memrefs hold their blocks; the tables' words are the point's tile pair, which says which
    of the four cases the point is in (first column tile or not: the accumulator restarts from zeros or continues; diagonal
    or not: the output is stored or left as found, and there the pipeline does not write it back); the invariant hands the
    body the scratch at what the point before left and takes it back at this point's accumulation. -/
theorem sound_body1 (c : Dev nD) (t : Fin (cfgT (F := F)).N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ, tabs_eq]
  rw [show (dat1 V c).leavesExact 0 t = owns (c : Thread nD τ) (ms1_0 t) fullShare ((dat1 V c).after 0 t) from rfl, after1_0,
    show (dat1 V c).leavesExact 1 t = owns (c : Thread nD τ) (ms1_1 t) fullShare ((dat1 V c).after 1 t) from rfl, after1_1,
    show (dat1 V c).leavesExact 2 t = owns (c : Thread nD τ) (ms1_2 t) fullShare ((dat1 V c).after 2 t) from rfl, after1_2,
    show (dat1 V c).leavesExact 3 t = owns (c : Thread nD τ) (ms1_3 t) fullShare ((dat1 V c).after 3 t) from rfl, after1_3]
  have hpt : pt (grid1.coords t) = ptT t := pt_coords t
  have hw1 : w1 (F := F) (grid1.coords t) c (tblC (F := F) 0) = wRow t := by rw [w1_tbl, hpt]; rfl
  have hw3 : w3 (F := F) (grid1.coords t) c (tblC (F := F) 1) = wCol t := by rw [w3_tbl, hpt]; rfl
  have hlive : wCol t = wRow t → (cfgT (F := F)).idle 4 ((cfgT (F := F)).grid.coords t) = false := fun hd => by
    rw [idle4_eq, pt_coords, decide_eq_true (show lit1 (ptT t) = lit0 (ptT t) from hd)]; rfl
  have hidle : ¬ wCol t = wRow t → (cfgT (F := F)).idle 4 ((cfgT (F := F)).grid.coords t) = true := fun hd => by
    rw [idle4_eq, pt_coords, decide_eq_false (show ¬ lit1 (ptT t) = lit0 (ptT t) from hd)]; rfl
  have hnoflush : ¬ wCol t = wRow t → ((cfgT (F := F)).win 4).flush t = false := fun hd => by
    cases hf : ((cfgT (F := F)).win 4).flush t with
    | false => rfl
    | true => exact absurd ((flush4_iff t).mp hf) hd
  by_cases hr : wCol t = 0#32
  · by_cases hd : wCol t = wRow t
    ·
      have hacc : accAfter V c t.val t.isLt = accOut (w1 (grid1.coords t) c (tblC (F := F) 0)) (w3 (grid1.coords t) c (tblC (F := F) 1)) (iblk1 V c 0 t) (iblk1 V c 1 t) (iblk1 V c 3 t) (k1_pay2 (F := F)) (iblk1 V c 2 t) := by
        rw [accAfter_reset V c t hr]; unfold accStep accOut; rw [hw1, hw3]
      rw [show (dat1 V c).leavesExact 4 t = owns (c : Thread nD τ) (ms1_4 t) fullShare ((dat1 V c).after 4 t) from by
        unfold Dat.leavesExact; rw [hlive hd]; rfl, after1_4, hacc]
      by_cases hz : t.val = 0
      · rw [PhiS_castSucc V c t, PhiS_zero V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TT fullShare c Set.univ (grid1.coords t) _ _ _ _ _ _ _ _ _ _ (iblk1 V c 0 t) (iblk1 V c 1 t) (iblk1 V c 2 t) (iblk1 V c 3 t) (tblC 0) (tblC 1) ((cond1_iff _).mpr (hw3.trans hr)) ((cond2_iff _ _).mpr (hw3.trans (hd.trans hw1.symm))) _)
        isplitl [H0]; · iexact H0
        isplitl [H1]; · iexact H1
        isplitl [H2]; · iexact H2
        isplitl [H3]; · iexact H3
        isplitl [H4]; · iexists _; iexact H4
        isplitl [HS]; · iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexact H4
      · rw [PhiS_castSucc V c t, PhiS_pos V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TT fullShare c Set.univ (grid1.coords t) _ _ _ _ _ _ _ _ _ _ (iblk1 V c 0 t) (iblk1 V c 1 t) (iblk1 V c 2 t) (iblk1 V c 3 t) (tblC 0) (tblC 1) ((cond1_iff _).mpr (hw3.trans hr)) ((cond2_iff _ _).mpr (hw3.trans (hd.trans hw1.symm))) _)
        isplitl [H0]; · iexact H0
        isplitl [H1]; · iexact H1
        isplitl [H2]; · iexact H2
        isplitl [H3]; · iexact H3
        isplitl [H4]; · iexists _; iexact H4
        isplitl [HS]; · iexists _; iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexact H4
    ·
      have hacc : accAfter V c t.val t.isLt = accOut (w1 (grid1.coords t) c (tblC (F := F) 0)) (w3 (grid1.coords t) c (tblC (F := F) 1)) (iblk1 V c 0 t) (iblk1 V c 1 t) (iblk1 V c 3 t) (k1_pay2 (F := F)) (iblk1 V c 2 t) := by
        rw [accAfter_reset V c t hr]; unfold accStep accOut; rw [hw1, hw3]
      rw [Dat.leavesExact_idle (dat1 V c) 4 t (hidle hd) (hnoflush hd)]
      rw [hacc]
      by_cases hz : t.val = 0
      · rw [PhiS_castSucc V c t, PhiS_zero V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TF fullShare c Set.univ (grid1.coords t) _ _ _ _ _ _ _ _ _ _ (iblk1 V c 0 t) (iblk1 V c 1 t) (iblk1 V c 2 t) (iblk1 V c 3 t) ((dat1 V c).before 4 t d4) (tblC 0) (tblC 1) ((cond1_iff _).mpr (hw3.trans hr)) (fun h => hd (hw3.symm.trans (((cond2_iff _ _).mp h).trans hw1))) _)
        isplitl [H0]; · iexact H0
        isplitl [H1]; · iexact H1
        isplitl [H2]; · iexact H2
        isplitl [H3]; · iexact H3
        isplitl [H4]; · iexact H4
        isplitl [HS]; · iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TF fullShare c Set.univ (grid1.coords t) _ _ _ _ _ _ _ _ _ _ (iblk1 V c 0 t) (iblk1 V c 1 t) (iblk1 V c 2 t) (iblk1 V c 3 t) ((dat1 V c).before 4 t d4) (tblC 0) (tblC 1) ((cond1_iff _).mpr (hw3.trans hr)) (fun h => hd (hw3.symm.trans (((cond2_iff _ _).mp h).trans hw1))) _)
        isplitl [H0]; · iexact H0
        isplitl [H1]; · iexact H1
        isplitl [H2]; · iexact H2
        isplitl [H3]; · iexact H3
        isplitl [H4]; · iexact H4
        isplitl [HS]; · iexists _; iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexists _; iexact H4
  · by_cases hd : wCol t = wRow t
    ·
      have hz : t.val ≠ 0 := fun h => hr (wCol_zero t h)
      have hacc : accAfter V c t.val t.isLt = accOut (w1 (grid1.coords t) c (tblC (F := F) 0)) (w3 (grid1.coords t) c (tblC (F := F) 1)) (iblk1 V c 0 t) (iblk1 V c 1 t) (iblk1 V c 3 t) (accAfter V c (t.val - 1) (Nat.lt_of_le_of_lt (Nat.sub_le _ _) t.isLt)) (iblk1 V c 2 t) := by
        rw [accAfter_step V c t hr hz]; unfold accStep accOut; rw [hw1, hw3]
      rw [show (dat1 V c).leavesExact 4 t = owns (c : Thread nD τ) (ms1_4 t) fullShare ((dat1 V c).after 4 t) from by
        unfold Dat.leavesExact; rw [hlive hd]; rfl, after1_4, hacc]
      rw [PhiS_castSucc V c t, PhiS_pos V c _ _ hz, tabs_eq]
      iintro ⟨⟨⟨HT0, HT1⟩, Hg, H11, HS⟩, Ho, ⟨%d0, H0⟩, ⟨%d1, H1⟩, ⟨%d2, H2⟩, ⟨%d3, H3⟩, ⟨%d4, H4⟩⟩
      iapply (run_FT fullShare c Set.univ (grid1.coords t) _ _ _ _ _ _ _ _ _ _ (iblk1 V c 0 t) (iblk1 V c 1 t) (iblk1 V c 2 t) (iblk1 V c 3 t) (accAfter V c (t.val - 1) (Nat.lt_of_le_of_lt (Nat.sub_le _ _) t.isLt)) (tblC 0) (tblC 1) (fun h => hr (hw3.symm.trans ((cond1_iff _).mp h))) ((cond2_iff _ _).mpr (hw3.trans (hd.trans hw1.symm))) _)
      isplitl [H0]; · iexact H0
      isplitl [H1]; · iexact H1
      isplitl [H2]; · iexact H2
      isplitl [H3]; · iexact H3
      isplitl [H4]; · iexists _; iexact H4
      isplitl [HS]; · iexact HS
      isplitl [HT0]; · iexact HT0
      isplitl [HT1]; · iexact HT1
      iintro ⟨H0, H1, H2, H3, H4, HS, HT0, HT1⟩
      isplitl [HT0 HT1 Hg H11 HS]
      · isplitl [HT0 HT1]
        · isplitl [HT0]; · iexact HT0
          iexact HT1
        isplitl [Hg]; · iexact Hg
        isplitl [H11]; · iexact H11
        iexact HS
      isplitl [Ho]; · iexact Ho
      isplitl [H0]; · iexact H0
      isplitl [H1]; · iexact H1
      isplitl [H2]; · iexact H2
      isplitl [H3]; · iexact H3
      iexact H4
    ·
      have hz : t.val ≠ 0 := fun h => hr (wCol_zero t h)
      have hacc : accAfter V c t.val t.isLt = accOut (w1 (grid1.coords t) c (tblC (F := F) 0)) (w3 (grid1.coords t) c (tblC (F := F) 1)) (iblk1 V c 0 t) (iblk1 V c 1 t) (iblk1 V c 3 t) (accAfter V c (t.val - 1) (Nat.lt_of_le_of_lt (Nat.sub_le _ _) t.isLt)) (iblk1 V c 2 t) := by
        rw [accAfter_step V c t hr hz]; unfold accStep accOut; rw [hw1, hw3]
      rw [Dat.leavesExact_idle (dat1 V c) 4 t (hidle hd) (hnoflush hd)]
      rw [hacc]
      rw [PhiS_castSucc V c t, PhiS_pos V c _ _ hz, tabs_eq]
      iintro ⟨⟨⟨HT0, HT1⟩, Hg, H11, HS⟩, Ho, ⟨%d0, H0⟩, ⟨%d1, H1⟩, ⟨%d2, H2⟩, ⟨%d3, H3⟩, ⟨%d4, H4⟩⟩
      iapply (run_FF fullShare c Set.univ (grid1.coords t) _ _ _ _ _ _ _ _ _ _ (iblk1 V c 0 t) (iblk1 V c 1 t) (iblk1 V c 2 t) (iblk1 V c 3 t) (accAfter V c (t.val - 1) (Nat.lt_of_le_of_lt (Nat.sub_le _ _) t.isLt)) ((dat1 V c).before 4 t d4) (tblC 0) (tblC 1) (fun h => hr (hw3.symm.trans ((cond1_iff _).mp h))) (fun h => hd (hw3.symm.trans (((cond2_iff _ _).mp h).trans hw1))) _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, HS, HT0, HT1⟩
      isplitl [HT0 HT1 Hg H11 HS]
      · isplitl [HT0 HT1]
        · isplitl [HT0]; · iexact HT0
          iexact HT1
        isplitl [Hg]; · iexact Hg
        isplitl [H11]; · iexact H11
        iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1
end
-- ==== Proof.K.Main.lean ====
/- The run of @main of the word-level kernel program, assembled: the contents the two regions leave
   are DEFINED from the regions' proof data — each region's arrays at what its write-backs leave,
   every other buffer as it was — so that the boundary contents of the run are those definitions by
   construction. From them: the run theorem whose post names the result buffer's final contents,
   the frame claim as its corollary, and the equations that say where each region's operands come
   from (the arguments as launched; the three projections where the first region left them). -/
import proofs.«162603_j30889404792899_1_alg».proof.Proof.K.Seg1
import proofs.«162603_j30889404792899_1_alg».proof.Proof.K.Obl1

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave, defined from the proof data -/

/-- The TensorCore's buffers after the first region: its seven arrays at what the pipeline's
    write-backs leave (an input's array as entered), every other buffer as entered. -/
def after0 (c : Dev nD) : Valuation τ sig (Elt F) :=
  Pipeline.withArrays spec0 c (V1 m c) fun w => (R0.dat0 (E1 m) c).arrAt w cfg0.N

/-- The same read at the TensorCore's references: the unknowns of the second boundary. -/
def outs2 : (r : Ref sig .tc) → (c : Dev nD) → Buf (Elt F) ((c : Thread nD τ).loc r) := fun r c => after0 m c r

/-- The second region's proof data, at the contents the first region leaves. -/
abbrev D1 (c : Dev nD) : Dat τ (Elt F) Unit ℕ (UR sig nD τ) ℕ (R1.cfgT (F := F)) c :=
  R1.dat1 (E2 m fun _ => outs2 m) c

/-- The TensorCore's buffers after the second region: its five arrays at what the pipeline's
    write-backs leave, every other buffer as the first region left it. -/
def after1 (c : Dev nD) : Valuation τ sig (Elt F) :=
  Pipeline.withArrays spec1 c (V2 m (fun _ => outs2 m) c) fun w => (D1 m c).arrAt w (R1.cfgT (F := F)).N

/-- The unknowns of the boundaries: at the last boundary what the second region leaves, before
    it what the first region leaves. The second boundary reads them at its own index only. -/
def outs : Outs (F := F)
  | 3 => fun r c => after1 m c r
  | _ => outs2 m

theorem outs_two : outs m 2 = outs2 m := rfl
theorem E2_outs : E2 m (outs m) = E2 m (fun _ => outs2 m) := rfl

/-- The first region's three output arrays at the second boundary. -/
theorem after0_arr (c : Dev nD) (w : Fin cfg0.W) :
    after0 m c (Proc.devRef .tc (Pipeline.arrRef spec0 w)) = (R0.dat0 (E1 m) c).arrAt w cfg0.N := by
  unfold after0; exact Pipeline.withArrays_arr spec0 (launch0 (F := F)).win.arr_inj c _ _ w
theorem outs_v0_0 (c : Dev nD) : outs m 2 main_v0_0 c = (R0.dat0 (E1 m) c).arrAt 4 cfg0.N := after0_arr m c 4
theorem outs_v0_1 (c : Dev nD) : outs m 2 main_v0_1 c = (R0.dat0 (E1 m) c).arrAt 5 cfg0.N := after0_arr m c 5
theorem outs_v0_2 (c : Dev nD) : outs m 2 main_v0_2 c = (R0.dat0 (E1 m) c).arrAt 6 cfg0.N := after0_arr m c 6

/-- The second region's output array at the last boundary. -/
theorem after1_arr (c : Dev nD) (w : Fin (R1.cfgT (F := F)).W) :
    after1 m c (Proc.devRef .tc (Pipeline.arrRef spec1 w)) = (D1 m c).arrAt w (R1.cfgT (F := F)).N := by
  unfold after1; exact Pipeline.withArrays_arr spec1 (launch1 (F := F)).win.arr_inj c _ _ w
theorem outs_v1 (c : Dev nD) : outs m 3 main_v1 c = (D1 m c).arrAt 4 (R1.cfgT (F := F)).N := after1_arr m c 4

/-- The second region's proof data meets what the run needs of it. -/
theorem facts1 : Facts1 m (outs m) (fun c => R1.dat1 (E2 m (outs m)) c) where
  hA _ _ := rfl
  hq _ _ := rfl
  howed _ _ := rfl
  hrec _ _ := rfl
  hbody c := R1.body_obligation1 _ c
  hin c := R1.phi_in _ c
  hout c := R1.phi_out _ c
  hres c := outs_v1 m c

/-! ## The run and the frame -/

/-- THE RUN OF @main. Every weakly fair execution from memory `m` terminates, and every final
    memory holds the result buffer at what the second region's write-backs leave in its output
    array, and each argument as launched. -/
theorem main_run (ρ : Dev nD → PrngReg) :
    θ_run defs (onTc (τ := τ) (main (F := F))) ⟨m, fun _ => 0, ρ⟩ (fun r => ∀ c : Dev nD,
      r.2.mem ((c.tc : Thread nD τ).loc main_v1) = (R1.dat1 (E2 m (outs m)) c).arrAt 4 (R1.cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (outs_v1 m c), (h c).2⟩)
    (run_of_data m (outs m) (fun c => R1.dat1 (E2 m (outs m)) c) ρ (outs_v0_0 m) (outs_v0_1 m) (outs_v0_2 m) (facts1 m))

/-- THE FRAME: every weakly fair execution of @main from memory `m` terminates, nothing faulting,
    and every final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (main_run m ρ)

/-! ## The second region's operands, for the value side -/

/-- The second region reads the three projections where the first region's write-backs left them, -/
theorem E2_main_v0_0 (c : Dev nD) : E2 m (outs m) c main_v0_0 = (R0.dat0 (E1 m) c).arrAt 4 cfg0.N :=
  (V2_main_v0_0 m (outs m) c).trans (outs_v0_0 m c)
theorem E2_main_v0_1 (c : Dev nD) : E2 m (outs m) c main_v0_1 = (R0.dat0 (E1 m) c).arrAt 5 cfg0.N :=
  (V2_main_v0_1 m (outs m) c).trans (outs_v0_1 m c)
theorem E2_main_v0_2 (c : Dev nD) : E2 m (outs m) c main_v0_2 = (R0.dat0 (E1 m) c).arrAt 6 cfg0.N :=
  (V2_main_v0_2 m (outs m) c).trans (outs_v0_2 m c)

/-- and the mask operand as launched: no host constant writes it and the first region does not
    touch it. -/
theorem E2_main_arg4 (c : Dev nD) : E2 m (outs m) c main_arg4 = m ((c.tc : Thread nD τ).loc main_arg4) :=
  (V2_of m (outs m) c main_arg4 (by decide)).trans ((V1_of m c main_arg4 (by decide)).trans rfl)

/-- The first region reads its four operands as launched: no host constant writes an argument. -/
theorem E1_main_arg0 (c : Dev nD) : E1 m c main_arg0 = m ((c.tc : Thread nD τ).loc main_arg0) := (V1_of m c main_arg0 (by decide)).trans rfl
theorem E1_main_arg1 (c : Dev nD) : E1 m c main_arg1 = m ((c.tc : Thread nD τ).loc main_arg1) := (V1_of m c main_arg1 (by decide)).trans rfl
theorem E1_main_arg2 (c : Dev nD) : E1 m c main_arg2 = m ((c.tc : Thread nD τ).loc main_arg2) := (V1_of m c main_arg2 (by decide)).trans rfl
theorem E1_main_arg3 (c : Dev nD) : E1 m c main_arg3 = m ((c.tc : Thread nD τ).loc main_arg3) := (V1_of m c main_arg3 (by decide)).trans rfl

end Cert.Kernel.Run

end
-- ==== Proof.KI.RunCond.lean ====
/- The run of @main of the idealized kernel program, conditional on one segment record per kernel
   region: the same run as the conditional frame, with the final contents of the result buffer
   `main_v1` read off the last valuation beside the five arguments. The result buffer is the last
   one updated in the chain of boundary valuations, so its final contents are the unknown
   `outs 3 main_v1` that the second region's record pins. -/
import proofs.«162603_j30889404792899_1_alg».proof.Proof.Gen.KernelIdeal.Regions

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

/-- The last boundary valuation holds, at the result buffer, what the second region leaves there:
    the result buffer is the outermost update of the chain. -/
theorem V3_main_v1 (m : (ℓ : Loc nD τ sig) → Buf (Elt F) ℓ) (outs : Outs (F := F)) (c : Dev nD) :
    V3 m outs c main_v1 = outs 3 main_v1 c := by
  simp only [V3, Function.update_self]

set_option backward.isDefEq.respectTransparency.types false in
/-- THE CONDITIONAL RUN. Under the hypotheses of the conditional frame — one segment record per
    region, entered from the boundary thread state before it and left at the one after it — every
    weakly fair execution of @main from memory `m` terminates, and every final memory holds the
    result buffer at `outs 3 main_v1` and each argument as launched. -/
theorem run_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v1) = outs 3 main_v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) a pdats ι (cellOf_inj a) EP defs₀ 𝒱₀ L lv m ρ main
    (segs m 𝒱₀ L lv E ι a pdats R0 R1)
    (fun c Q => by
      rewrite [main_chain c, Seg.run_eq_chain,
        show (segs m 𝒱₀ L lv E ι a pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v1) = outs 3 main_v1 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest makes the first
    -- rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v1) (Finset.mem_filter.mpr ⟨StableHlo.devRef_mem_tcRefs main_v1, by decide⟩)).trans (V3_main_v1 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c)⟩
    · iexact HSI

end Cert.KernelIdeal.Run

end
-- ==== Proof.KI.RunInst.lean ====
/- The conditional run of @main of the idealized kernel program, fixed at the plainest choice of
   proof algebra: one copy of the staging-cell algebra as the whole user component, no core owing
   another anything, no ghost state besides the staging cells'. Beside the buffers every boundary
   thread state carries the same rest: the core's generator register at some state, and the core
   owing nothing. What remains to be supplied is one segment record per kernel region and the two
   entailments tying each record to the boundary states around it. -/
import proofs.«162603_j30889404792899_1_alg».proof.Proof.KI.RunCond
import Idealize.ShloMosaic.Lib.Pipeline.Kit

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (UR sig nD τ) ℕ

/-- No pair of cores is assigned a level: no core ever owes another a unit. -/
abbrev L₀ : GSem nD τ sig → Finset Unit := fun _ => ∅
abbrev lv₀ : GSem nD τ sig → Unit → ℕ := fun _ _ => 0

/-- What rides beside the buffers through every boundary: the core's generator register at some
    state, and the core owing nothing. -/
abbrev R (c : Dev nD) : sProp 𝕄 :=
  iprop((∃ r, prngReg c r) ∗ ∃ W, owes (c : Thread nD τ) (0 : CellTallies nD τ sig Unit) W)

/-- The launch element: the staging cells' first ghost state, for the pipelines pinned at the
    tables' contents `a`. -/
abbrev u₀ (a : (p : Fin 2) → (pcfgs (F := F) p).Adm) : UR sig nD τ :=
  initOf (Pipeline.cells (Pipeline.pin (pcfgs (F := F)) a) (cellOf_inj a))
    (Pipeline.launchToks (Pipeline.pin (pcfgs (F := F)) a) (cellOf_inj a))

/-- The launch element is the staging cells' ghost state itself, and no core gets any further
    ghost resource: the user component is owned through its only embedding, and a conjunction of
    empty resources over the cores is empty. -/
theorem launch_ghost (a : (p : Fin 2) → (pcfgs (F := F) p).Adm) :
    (ownU (u₀ a) : sProp 𝕄) ⊢ |={Set.univ}=> iprop(BI.own (emb₁ (u₀ a)) ∗ bigSep Finset.univ fun _ : Dev nD => (BI.emp : sProp 𝕄)) := by
  rw [BI.bigSep_emp_const, ownU_emb₁]
  iintro Hu
  imodintro
  isplitl [Hu]
  · iexact Hu
  · iempintro

/-- At launch every core makes the rest state from what it is dealt: its generator register is at
    the launch state, and it owes nothing at the empty set of recorded pairs. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L₀ lv₀)
      ⊢ (|={Set.univ}=> bigSep Finset.univ (R (F := F)) : sProp 𝕄) := by
  refine Pipeline.initEach L₀ lv₀ fun c => ?_
  iintro ⟨⟨-, Howes, -, Hreg, -⟩, -⟩
  imodintro
  isplitl [Hreg]
  · iexists (ρ c); iexact Hreg
  · iexists ∅; iexact Howes

/-- The rest state ends with the core owing nothing. -/
theorem rest_owes (c : Dev nD) :
    R (F := F) c ⊢ (iprop(∃ W, owes (c : Thread nD τ) (0 : CellTallies nD τ sig Unit) W) : sProp 𝕄) := by
  iintro ⟨-, Howes⟩
  iexact Howes

/-- THE RUN FROM THE REGIONS' RECORDS. Given, for each kernel region, a segment record whose entry
    state follows from the boundary state before it and whose exit state gives the boundary state
    after it — every unscoped buffer held at the boundary's contents, beside the rest `R` —, every
    weakly fair execution of @main from memory `m` terminates, and every final memory holds the
    result buffer at what the second region leaves in it and each argument as launched. -/
theorem run_of_regions (m : (ℓ : Loc nD τ sig) → Buf (Elt F) ℓ) (ρ : Dev nD → PrngReg) (outs : Outs (F := F))
    (a : (p : Fin 2) → (pcfgs (F := F) p).Adm)
    (pdats : (p : Fin 2) → (c : Dev nD) → Dat τ (Elt F) Unit ℕ (UR sig nD τ) ℕ (Pipeline.pin (pcfgs (F := F)) a p) c)
    (R0 : RegionSeg (pcfgs (F := F)) a pdats () defs₀ Variants.none L₀ lv₀ 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : RegionSeg (pcfgs (F := F)) a pdats () defs₀ Variants.none L₀ lv₀ 1)
    (hpre1 : ∀ c : Dev nD, iprop(StableHlo.held (c : Thread nD τ) (Pipeline.ucRefs τ sig) (V2 m outs c) ∗ R c) ⊢ R1.pre c)
    (hpost1 : ∀ c : Dev nD, R1.post c ⊢ iprop(StableHlo.held (c : Thread nD τ) (Pipeline.ucRefs τ sig) (V3 m outs c) ∗ R c)) :
    θ_run defs (onTc (τ := τ) (main (F := F))) ⟨m, fun _ => 0, ρ⟩ (fun r => ∀ c : Dev nD,
      r.2.mem ((c.tc : Thread nD τ).loc main_v1) = outs 3 main_v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m emb₁ () Variants.none L₀ lv₀ (fun _ _ => rfl) ρ outs a pdats
    (0 : Dev nD → CellTallies nD τ sig Unit) (fun _ => (BI.emp : sProp 𝕄)) (u₀ a) (launch_ghost a)
    (fun _ => R) (launch_rest ρ) rest_owes R0 hpre0 hpost0 R1 hpre1 hpost1

end Cert.KernelIdeal.Run

end
-- ==== Proof.KI.Tables1.lean ====
import proofs.«162603_j30889404792899_1_alg».proof.Proof.Gen.KernelIdeal.Regions
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The tile-pair tables of the second region, and the pipeline pinned at them -/

/-- The two tables of tile pairs, as the host constants write them: entry `t` is the pair (row tile, column tile) of grid point `t`. -/
def tblC : pre1.Contents (Elt F) := fun
  | ⟨0, _⟩ => fun i => lit0 (S36.rowMajor i)
  | ⟨1, _⟩ => fun i => lit1 (S36.rowMajor i)

/-- The grid point as a table index. -/
def pt (i : grid1.Coords) : Fin 36 := ⟨(i 0).val, (i 0).isLt⟩

/-- Row tile and column tile of a table entry, as numbers. -/
def rowT (t : Fin 36) : ℕ := (lit0 t).toNat
def colT (t : Fin 36) : ℕ := (lit1 t).toNat

/-- Every pair is causal and inside the 8 × 8 tiling. -/
theorem tiles_facts : ∀ t : Fin 36, colT t ≤ rowT t ∧ rowT t < 8 := by decide

/-- The word a grid point's coordinate denotes is the coordinate: it is below 36. -/
theorem off_toNat (i : grid1.Coords) : (Scalar.indexCast (BitVec.ofNat 32 (i 0).val)).toNat = (i 0).val := by
  have h : (i 0).val < 36 := (i 0).isLt
  unfold Scalar.indexCast
  rw [BitVec.toNat_ofNat]
  omega

/-- The one element of the unit rectangle at a grid point's offset sits at that point's row-major position. -/
theorem unit_pos (i : grid1.Coords) (h1 : 0 < (Rect.unit (s := S36) (k1_off1 i) S1.size (k1_off1_inb i)).shape.numel) :
    (S36.rowMajor ((Rect.unit (s := S36) (k1_off1 i) S1.size (k1_off1_inb i)).emb (Shape.Idx.first h1))) = pt i := by
  apply Fin.ext
  refine (Shape.rowMajor_val_one (d := ![36]) _).trans ?_
  rw [Rect.emb_apply]
  show (Scalar.indexCast (BitVec.ofNat 32 (i 0).val)).toNat + 1 * 0 = (i 0).val
  rw [off_toNat]; omega

theorem word0 (i : grid1.Coords) :
    (tblC (F := F)).at 0 (Rect.unit (s := S36) (k1_off1 i) S1.size (k1_off1_inb i)) numel1_S1 = lit0 (pt i) :=
  congrArg lit0 (unit_pos i _)
theorem word1 (i : grid1.Coords) :
    (tblC (F := F)).at 1 (Rect.unit (s := S36) (k1_off1 i) S1.size (k1_off1_inb i)) numel1_S1 = lit1 (pt i) :=
  congrArg lit1 (unit_pos i _)

/-- The index maps at the tables: the q / l-row / output tile is the row tile, the k / v tile the column tile. -/
theorem tr0 (i : grid1.Coords) : cc1_transform_0 k1_off1_inb numel1_S1 (tblC (F := F)) i = ![rowT (pt i), 0] := by
  show ![((tblC (F := F)).at 0 (Rect.unit (s := S36) (k1_off1 i) S1.size (k1_off1_inb i)) numel1_S1).toNat, (0#32 : BitVec 32).toNat] = _
  rw [word0]; rfl
theorem tr1 (i : grid1.Coords) : cc1_transform_1 k1_off1_inb numel1_S1 (tblC (F := F)) i = ![colT (pt i), 0] := by
  show ![((tblC (F := F)).at 1 (Rect.unit (s := S36) (k1_off1 i) S1.size (k1_off1_inb i)) numel1_S1).toNat, (0#32 : BitVec 32).toNat] = _
  rw [word1]; rfl
theorem tr2 (i : grid1.Coords) : cc1_transform_2 k1_off1_inb numel1_S1 (tblC (F := F)) i = ![colT (pt i), 0] := by
  show ![((tblC (F := F)).at 1 (Rect.unit (s := S36) (k1_off1 i) S1.size (k1_off1_inb i)) numel1_S1).toNat, (0#32 : BitVec 32).toNat] = _
  rw [word1]; rfl
theorem tr3 (i : grid1.Coords) : cc1_transform_3 k1_off1_inb numel1_S1 (tblC (F := F)) i = ![rowT (pt i), colT (pt i)] := by
  show ![((tblC (F := F)).at 0 (Rect.unit (s := S36) (k1_off1 i) S1.size (k1_off1_inb i)) numel1_S1).toNat,
         ((tblC (F := F)).at 1 (Rect.unit (s := S36) (k1_off1 i) S1.size (k1_off1_inb i)) numel1_S1).toNat] = _
  rw [word0, word1]; rfl
theorem tr4 (i : grid1.Coords) : cc1_transform_4 k1_off1_inb numel1_S1 (tblC (F := F)) i = ![rowT (pt i), 0] := by
  show ![((tblC (F := F)).at 0 (Rect.unit (s := S36) (k1_off1 i) S1.size (k1_off1_inb i)) numel1_S1).toNat, (0#32 : BitVec 32).toNat] = _
  rw [word0]; rfl

/-- Every block the tables name lies inside its array: the tables are admissible contents. -/
theorem ok_tblC : ok1 (F := F) tblC := by
  unfold ok1
  refine ⟨fun i => ⟨?_, .inl rfl⟩, fun i => ⟨?_, .inl rfl⟩, fun i => ⟨?_, .inl rfl⟩, fun i => ⟨?_, .inl rfl⟩, fun i => ⟨?_, .inl rfl⟩⟩
  · intro a; rw [tr0]; have := tiles_facts (pt i)
    match a with
    | ⟨0, _⟩ => show (rowT (pt i) + 1) * 1024 ≤ 8192; omega
    | ⟨1, _⟩ => show (0 + 1) * 64 ≤ 64; omega
  · intro a; rw [tr1]; have := tiles_facts (pt i)
    match a with
    | ⟨0, _⟩ => show (colT (pt i) + 1) * 1024 ≤ 8192; omega
    | ⟨1, _⟩ => show (0 + 1) * 64 ≤ 64; omega
  · intro a; rw [tr2]; have := tiles_facts (pt i)
    match a with
    | ⟨0, _⟩ => show (colT (pt i) + 1) * 1024 ≤ 8192; omega
    | ⟨1, _⟩ => show (0 + 1) * 64 ≤ 64; omega
  · intro a; rw [tr3]; have := tiles_facts (pt i)
    match a with
    | ⟨0, _⟩ => show (rowT (pt i) + 1) * 1024 ≤ 8192; omega
    | ⟨1, _⟩ => show (colT (pt i) + 1) * 1024 ≤ 8192; omega
  · intro a; rw [tr4]; have := tiles_facts (pt i)
    match a with
    | ⟨0, _⟩ => show (rowT (pt i) + 1) * 1024 ≤ 8192; omega
    | ⟨1, _⟩ => show (0 + 1) * 64 ≤ 64; omega

/-- The tables as admissible contents, and the second pipeline at them. -/
abbrev a1 : (pcfg1 (F := F)).Adm := ⟨tblC, ok_tblC⟩
abbrev cfgT : Pipeline.Cfg sig Λ₀ := cfg1 (a1 (F := F))

end Cert.KernelIdeal.R1
end
-- ==== Proof.KI.Adm.lean ====
/- The admissible contents of the two pipelines' prefetched tables, fixed for the run: the
   projection region prefetches nothing; the attention region prefetches the two tables of tile
   pairs, and its index maps are read at the contents the host constants write. -/
import proofs.«162603_j30889404792899_1_alg».proof.Proof.KI.Tables1

noncomputable section

namespace Cert.KernelIdeal.Run

open Idealize.ShloMosaic
open Cert.KernelIdeal.Gen

variable {F : FTy → Type} [FloatOps F]

/-- The admissible contents of each pipeline's prefetched tables: the first region has none, the
    second region's are the two tables of tile pairs as the host constants write them. A literal
    match on the pipeline's index, so that each pipeline pinned at these contents reduces to its
    printed configuration. -/
def adm : (p : Fin 2) → (pcfgs (F := F) p).Adm
  | ⟨0, _⟩ => cfg0.toPCfg_adm
  | ⟨1, _⟩ => R1.a1

end Cert.KernelIdeal.Run

end
-- ==== Proof.KI.Region0.lean ====
/- REGION 0 of @main (the projection call, pipeline 0), generic in the float instance: what each output block
   is as a function of the input blocks, the body's Hoare triple, the pipeline's proof data at region-entry
   contents `V`, and the per-point body obligation the launch theorems ask for. -/
import proofs.«162603_j30889404792899_1_alg».proof.Proof.Gen.KernelIdeal.Launch
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the projection region is entered
variable (V : (c : Dev nD) → (b : Ref sig .tc) → Buf (Elt F) ((c : Thread nD τ).loc b))

/-! ## Blocks of the windows -/

/-- The block of window `w` at grid point `t`: the window's array, as the region finds it, read through the
    block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds that window's block at every point. Where the point fetches,
    the fetch puts it there; where it does not (the three weight windows after the first point) the block index has
    not moved and the body left the buffer alone. Stated for any proof data over `V`'s arrays whose body keeps the
    block in place. -/

theorem in0_holds {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem in1_holds {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem in2_holds {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem in3_holds {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each one a whole block -/

abbrev rX : Rect S1024x512 := Rect.unit (s := S1024x512) ![0, 0] S1024x512.size inb_S1024x512_S1024x512_0_0
abbrev rW : Rect S512x64 := Rect.unit (s := S512x64) ![0, 0] S512x64.size inb_S512x64_S512x64_0_0
abbrev rO : Rect S1024x64 := Rect.unit (s := S1024x64) ![0, 0] S1024x64.size inb_S1024x64_S1024x64_0_0

/-! ## The three output blocks as functions of the input blocks

Each output buffer receives one store of the whole block: the matrix product of the row block `x` (rounded to bf16)
with one weight matrix (rounded to bf16), accumulated onto zero. -/

/-- The query block from the row block and the query weights. -/
def out0_4 (x : Vec F S1024x512 .f32) (wq : Vec F S512x64 .f32) : Vec F S1024x64 .f32 :=
  View.canon [⟨rO, k0_pay2 (View.ld x rX) (View.ld wq rW)⟩]

/-- The key block from the row block and the key weights. -/
def out0_5 (x : Vec F S1024x512 .f32) (wk : Vec F S512x64 .f32) : Vec F S1024x64 .f32 :=
  View.canon [⟨rO, k0_pay3 (View.ld x rX) (View.ld wk rW)⟩]

/-- The value block from the row block and the value weights. -/
def out0_6 (x : Vec F S1024x512 .f32) (wv : Vec F S512x64 .f32) : Vec F S1024x64 .f32 :=
  View.canon [⟨rO, k0_pay4 (View.ld x rX) (View.ld wv rW)⟩]

/-- A single store through the whole-block rectangle covers the block. -/
theorem whole_store_covers (p : Vec F S1024x64 .f32) (y : S1024x64.Idx) :
    ∃ pc ∈ ([⟨rO, p⟩] : List (View.Piece (Elt F) S1024x64 .f32)), y ∈ pc.1.set :=
  View.cover_of_tiled [⟨rO, p⟩] S1024x64.size (by rfl) y

/-! ## The body's triple -/

set_option maxHeartbeats 1000000 in
/-- Run on whole staging buffers — the four inputs at known contents, the three outputs at arbitrary contents (the body
    reads each output buffer once before overwriting it, and never uses what it read) — the body returns with the
    inputs untouched and each output buffer holding its block. -/
theorem sound_kernel0 (c : Dev nD) (E : Set ℕ) (i : grid0.Coords)
    (a0 : Memref sig .tc .vmem S1024x512 .f32) (h0 : a0.IsWhole)
    (a1 : Memref sig .tc .vmem S512x64 .f32) (h1 : a1.IsWhole)
    (a2 : Memref sig .tc .vmem S512x64 .f32) (h2 : a2.IsWhole)
    (a3 : Memref sig .tc .vmem S512x64 .f32) (h3 : a3.IsWhole)
    (a4 : Memref sig .tc .vmem S1024x64 .f32) (h4 : a4.IsWhole)
    (a5 : Memref sig .tc .vmem S1024x64 .f32) (h5 : a5.IsWhole)
    (a6 : Memref sig .tc .vmem S1024x64 .f32) (h6 : a6.IsWhole)
    (x : Vec F S1024x512 .f32) (wq wk wv : Vec F S512x64 .f32) (K : PUnit → sProp 𝕄) :
    iprop(owns (c : Thread nD τ) a0 fullShare x ∗ owns (c : Thread nD τ) a1 fullShare wq
        ∗ owns (c : Thread nD τ) a2 fullShare wk ∗ owns (c : Thread nD τ) a3 fullShare wv
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a0 fullShare x ∗ owns (c : Thread nD τ) a1 fullShare wq
            ∗ owns (c : Thread nD τ) a2 fullShare wk ∗ owns (c : Thread nD τ) a3 fullShare wv
            ∗ owns (c : Thread nD τ) a4 fullShare (out0_4 x wq) ∗ owns (c : Thread nD τ) a5 fullShare (out0_5 x wk)
            ∗ owns (c : Thread nD τ) a6 fullShare (out0_6 x wv)) -∗ K ⟨⟩))
      ⊢ wp frame (wpE (defs₀ (F := F)) Variants.none c none) E (cc0__proj_kernel i a0 h0 a1 h1 a2 h2 a3 h3 a4 h4 a5 h5 a6 h6) K := by
  simp only [cc0__proj_kernel_eq_skeleton]; unfold cc0__proj_kernel_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, Hk⟩
  subst e0; subst e1; subst e2; subst e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (whole_store_covers _)
  isplitl [H5]
  · iexists _; isplitr
    swap; · iexact H5
    ipureintro
    exact View.read_writes_eq_canon _ _ _ (whole_store_covers _)
  iexists _; isplitr
  swap; · iexact H6
  ipureintro
  exact View.read_writes_eq_canon _ _ _ (whole_store_covers _)

/-! ## The proof data of pipeline 0 -/

/-- On core `c`: the arrays are the region-entry contents; after the body at point `t` an input buffer still holds
    its block and an output buffer holds its block computed from the input blocks; the invariant is the scoped rest and
    the generator register, both untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  in0_holds V (dat0 V c) (A_eq0 V c 0) (after0_0 V c) t d
theorem before0_1 (c : Dev nD) (t : Fin cfg0.N) (d) : (dat0 V c).before 1 t d = iblk0 V c 1 t :=
  in1_holds V (dat0 V c) (A_eq0 V c 1) (after0_1 V c) t d
theorem before0_2 (c : Dev nD) (t : Fin cfg0.N) (d) : (dat0 V c).before 2 t d = iblk0 V c 2 t :=
  in2_holds V (dat0 V c) (A_eq0 V c 2) (after0_2 V c) t d
theorem before0_3 (c : Dev nD) (t : Fin cfg0.N) (d) : (dat0 V c).before 3 t d = iblk0 V c 3 t :=
  in3_holds V (dat0 V c) (A_eq0 V c 3) (after0_3 V c) t d

/-! ## The body obligation -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- At any point the input buffers hold their blocks, so the body's triple applies; the invariant and the core's debt
    are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorems take, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.Seg0.lean ====
/- The projection region of @main as a segment of the run: entered from every unscoped buffer held
   at the contents the host constants leave, left at the same contents with the three projection
   buffers replaced by what the pipeline's write-backs leave in them. The region's seven windows
   are the row block of the input and the three weight matrices (inputs, never written back) and a
   row block of each of the three projections (outputs); its invariant is the class's plain one —
   the scoped buffers no window stages and the generator register —; it owes nothing and has no
   semaphore of its own. -/
import proofs.«162603_j30889404792899_1_alg».proof.Proof.KI.RunInst
import proofs.«162603_j30889404792899_1_alg».proof.Proof.KI.Adm
import proofs.«162603_j30889404792899_1_alg».proof.Proof.KI.Region0

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the first region finds in the TensorCore's buffers: the launch contents with the two
    tile tables written. -/
abbrev E1 : (c : Dev nD) → (b : Ref sig .tc) → Buf (Elt F) ((c : Thread nD τ).loc b) := fun c b => V1 m c b

/-- What the first region leaves there: the three projection buffers at the unknowns `outs 2`,
    every other buffer as found. -/
abbrev E2 (outs : Outs (F := F)) : (c : Dev nD) → (b : Ref sig .tc) → Buf (Elt F) ((c : Thread nD τ).loc b) :=
  fun c b => V2 m outs c b

/-- The proof data of both pipelines: the first region's at its entry contents, the second
    region's a parameter. A literal match on the pipeline's index, so that each pinned
    configuration reduces to the printed one. -/
def pdats (d1 : (c : Dev nD) → Dat τ (Elt F) Unit ℕ (UR sig nD τ) ℕ (R1.cfgT (F := F)) c) :
    (p : Fin 2) → (c : Dev nD) → Dat τ (Elt F) Unit ℕ (UR sig nD τ) ℕ (Pipeline.pin (pcfgs (F := F)) adm p) c
  | ⟨0, _⟩ => fun c => R0.dat0 (E1 m) c
  | ⟨1, _⟩ => d1

/-! ## The three projection buffers in the chain of updates -/

theorem V2_main_v0_0 (outs : Outs (F := F)) (c : Dev nD) : V2 m outs c main_v0_0 = outs 2 main_v0_0 c := by
  simp only [V2, Function.update_self,
    Function.update_of_ne (StableHlo.devRef_ne_of_ne (by decide) : (Proc.devRef .tc main_v0_0 : DevRef τ sig) ≠ Proc.devRef .tc main_v0_1),
    Function.update_of_ne (StableHlo.devRef_ne_of_ne (by decide) : (Proc.devRef .tc main_v0_0 : DevRef τ sig) ≠ Proc.devRef .tc main_v0_2)]
theorem V2_main_v0_1 (outs : Outs (F := F)) (c : Dev nD) : V2 m outs c main_v0_1 = outs 2 main_v0_1 c := by
  simp only [V2, Function.update_self,
    Function.update_of_ne (StableHlo.devRef_ne_of_ne (by decide) : (Proc.devRef .tc main_v0_1 : DevRef τ sig) ≠ Proc.devRef .tc main_v0_2)]
theorem V2_main_v0_2 (outs : Outs (F := F)) (c : Dev nD) : V2 m outs c main_v0_2 = outs 2 main_v0_2 c := by
  simp only [V2, Function.update_self]

variable (d1 : (c : Dev nD) → Dat τ (Elt F) Unit ℕ (UR sig nD τ) ℕ (R1.cfgT (F := F)) c)
  (outs : Outs (F := F))

/-- At the first region's exit each of its arrays holds what the write-backs leave: an input's
    array is never written and no update of the chain touches an argument; an output's array is
    the projection buffer the unknowns name. -/
theorem exit_arrays0
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N)
    (c : Dev nD) : ∀ w : Fin cfg0.W, (pdats m d1 0 c).arrAt w cfg0.N = E2 m outs c (Pipeline.arrRef spec0 w)
  | ⟨0, _⟩ => ((R0.dat0 (E1 m) c).arrAt_in 0 rfl _).trans (V2_of m outs c main_arg0 (by decide)).symm
  | ⟨1, _⟩ => ((R0.dat0 (E1 m) c).arrAt_in 1 rfl _).trans (V2_of m outs c main_arg1 (by decide)).symm
  | ⟨2, _⟩ => ((R0.dat0 (E1 m) c).arrAt_in 2 rfl _).trans (V2_of m outs c main_arg2 (by decide)).symm
  | ⟨3, _⟩ => ((R0.dat0 (E1 m) c).arrAt_in 3 rfl _).trans (V2_of m outs c main_arg3 (by decide)).symm
  | ⟨4, _⟩ => (h4 c).symm.trans (V2_main_v0_0 m outs c).symm
  | ⟨5, _⟩ => (h5 c).symm.trans (V2_main_v0_1 m outs c).symm
  | ⟨6, _⟩ => (h6 c).symm.trans (V2_main_v0_2 m outs c).symm

/-- Every buffer that is no array of the first region's windows leaves the region as it entered:
    the chain updates the three projection buffers only, and each is an output window's array. -/
theorem exit_rest0 (c : Dev nD) : ∀ b, b ∉ Finset.univ.image (Pipeline.arrRef spec0) → E2 m outs c b = E1 m c b := by
  intro b hb
  refine V2_of m outs c b fun h => hb ?_
  simp only [List.mem_cons, List.not_mem_nil, or_false] at h
  rcases h with rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩

/-- A core owing nothing, whatever pairs its waits recorded, owes the first region's first
    tallies within the region's bound: the tallies are zero and the bound is everything. -/
theorem owes_in0 (c : Dev nD) (t : Fin (cfg0.N + 1)) :
    (iprop(∃ W, owes (c : Thread nD τ) (0 : CellTallies nD τ sig Unit) W) : sProp 𝕄) ⊢ (pdats m d1 0 c).owesAt () t := by
  unfold Pipeline.Dat.owesAt Pipeline.owesWithin
  iintro ⟨%W, Howes⟩
  iexists W
  isplitr
  · ipureintro; exact fun _ _ => Set.mem_union_left _ (Set.mem_univ _)
  · iexact Howes

/-- and back: what the region owes at any point is nothing. -/
theorem owes_out0 (c : Dev nD) (t : Fin (cfg0.N + 1)) :
    (pdats m d1 0 c).owesAt () t ⊢ (iprop(∃ W, owes (c : Thread nD τ) (0 : CellTallies nD τ sig Unit) W) : sProp 𝕄) := by
  unfold Pipeline.Dat.owesAt Pipeline.owesWithin
  iintro ⟨%W, -, Howes⟩
  iexists W
  iexact Howes

set_option backward.isDefEq.respectTransparency.types false in
/-- ENTRY of the first region: the unscoped buffers held at the entry contents are the seven
    windows' arrays at the proof data's entry contents beside the unscoped rest; the region has no
    table; the core owes nothing; the generator register goes into the invariant. -/
theorem entry0 (c : Dev nD) :
    iprop(iprop(StableHlo.held (c : Thread nD τ) (Pipeline.ucRefs τ sig) (V1 m c) ∗ R c) ∗ Pipeline.ownSems0 (fun k : PEmpty => k.elim) c ∗ levAts L₀ lv₀)
      ⊢ (|={Set.univ}=> iprop((pdats m d1 0 c).arrays ((pdats m d1 0 c).arrAt · 0) ∗ Pipeline.prefHeld (pcfgs (F := F) 0).pre c (fun _ => fullShare) (adm (F := F) 0).1
          ∗ (pdats m d1 0 c).owesAt () 0 ∗ (iprop(∃ r, prngReg c r)) ∗ Pipeline.unscopedRest (Ix := Unit) (Name := ℕ) (U := UR sig nD τ) (Lvl := ℕ) spec0 c (E1 m c)) : sProp 𝕄) := by
  have hsplit := Pipeline.arrays_of_unscopedBufs (p := 0) (pcfgs (F := F)) adm (pdats m d1) (launch0 (F := F)).win (launch0 (F := F)).arr_whole c
    ((pdats m d1 0 c).share_full fun _ => rfl) (E1 m c) fun _ => rfl
  rw [Pipeline.unscopedBufs_held] at hsplit
  iintro ⟨⟨Hbufs, Hreg, Howes⟩, -, -⟩
  ihave Hparts := hsplit $$ Hbufs
  icases Hparts with ⟨Harr, Hrest⟩
  imodintro
  isplitl [Harr]
  · iexact Harr
  isplitr
  · unfold Pipeline.prefHeld
    rw [show (Finset.univ : Finset (Fin 0)) = ∅ from rfl, BI.bigSep_empty]
    iempintro
  isplitl [Howes]
  · iapply (owes_in0 m d1 c 0); iexact Howes
  isplitl [Hreg]
  · iexact Hreg
  · iexact Hrest

/-- The invariant at the first point: the scoped buffers no window stages and the generator
    register; the first region has no table to take in. -/
theorem inv_in0 (c : Dev nD) :
    (iprop((iprop(∃ r, prngReg c r)) ∗ Pipeline.prefHeld (pcfgs (F := F) 0).pre c (fun _ => fullShare) (adm (F := F) 0).1
        ∗ Pipeline.scopedRest (Pipeline.pin (pcfgs (F := F)) adm 0).spec c) : sProp 𝕄) ⊢ (pdats m d1 0 c).Φ 0 := by
  show _ ⊢ Pipeline.ΦA spec0 c
  unfold Pipeline.ΦA
  iintro ⟨Hreg, -, Hscoped⟩
  isplitl [Hscoped]
  · iexact Hscoped
  · iexact Hreg

/-- The invariant at the last point gives both back; the kernel has no semaphore of its own. -/
theorem inv_out0 (c : Dev nD) :
    (pdats m d1 0 c).Φ (Fin.last (Pipeline.pin (pcfgs (F := F)) adm 0).N)
      ⊢ (iprop((iprop(∃ r, prngReg c r)) ∗ Pipeline.ownSems0 (fun k : PEmpty => k.elim) c
          ∗ Pipeline.scopedRest (Pipeline.pin (pcfgs (F := F)) adm 0).spec c) : sProp 𝕄) := by
  rw [Pipeline.ownSems0_none]
  show Pipeline.ΦA spec0 c ⊢ _
  unfold Pipeline.ΦA
  iintro ⟨Hscoped, Hreg⟩
  isplitl [Hreg]
  · iexact Hreg
  isplitr
  · iempintro
  · iexact Hscoped

set_option backward.isDefEq.respectTransparency.types false in
/-- EXIT of the first region: the seven arrays at what the write-backs leave and the unscoped rest
    as entered are the unscoped buffers held at the exit contents; the core owes nothing; the
    generator register comes back. -/
theorem exit0
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N) (c : Dev nD) :
    iprop((pdats m d1 0 c).arrays ((pdats m d1 0 c).arrAt · (Pipeline.pin (pcfgs (F := F)) adm 0).N)
        ∗ (pdats m d1 0 c).owesAt () (Fin.last (Pipeline.pin (pcfgs (F := F)) adm 0).N)
        ∗ (iprop(∃ r, prngReg c r)) ∗ Pipeline.unscopedRest (Ix := Unit) (Name := ℕ) (U := UR sig nD τ) (Lvl := ℕ) spec0 c (E1 m c))
      ⊢ (|={Set.univ}=> iprop(StableHlo.held (c : Thread nD τ) (Pipeline.ucRefs τ sig) (V2 m outs c) ∗ R c) : sProp 𝕄) := by
  have hjoin := Pipeline.unscopedBufs_of_arrays (p := 0) (pcfgs (F := F)) adm (Ix := Unit) (Name := ℕ) (U := UR sig nD τ) (Lvl := ℕ)
    (launch0 (F := F)).win (launch0 (F := F)).arr_whole c (pdats m d1) ((pdats m d1 0 c).share_full fun _ => rfl)
    (E1 m c) (E2 m outs c) ((pdats m d1 0 c).arrAt · cfg0.N) (exit_arrays0 m d1 outs h4 h5 h6 c) (exit_rest0 m outs c)
  rw [Pipeline.unscopedBufs_held] at hjoin
  iintro ⟨Harr, Howes, Hreg, Hrest⟩
  imodintro
  isplitl [Harr Hrest]
  · iapply hjoin
    isplitl [Harr]
    · iexact Harr
    · iexact Hrest
  isplitl [Hreg]
  · iexact Hreg
  · iapply (owes_out0 m d1 c (Fin.last _)); iexact Howes

set_option backward.isDefEq.respectTransparency.types false in
/-- THE FIRST REGION AS A SEGMENT: entered from every unscoped buffer held at the contents after
    the host constants, left at the same with the three projection buffers at `outs 2` — provided
    those unknowns are what the pipeline's write-backs leave in the three output arrays. -/
def reg0
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N) :
    RegionSeg (pcfgs (F := F)) adm (pdats m d1) () defs₀ Variants.none L₀ lv₀ 0 where
  win := (launch0 (F := F)).win.to₀
  block_pos := (launch0 (F := F)).block_pos
  stage_whole := (launch0 (F := F)).stage_whole
  K := PEmpty
  osem k := k.elim
  ho := Pipeline.OwnSemFacts.none _
  hbody c := (R0.body_obligation0 (E1 m) c).loose
  hwaits := Pipeline.hwaits_of_owed_zero _ _ _ _ L₀ lv₀ 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := entry0 m d1 c
  hin c := inv_in0 m d1 c
  hout c := inv_out0 m d1 c
  hexit c := exit0 m d1 outs h4 h5 h6 c

theorem reg0_pre (h4 h5 h6) (c : Dev nD) : (reg0 m d1 outs h4 h5 h6).pre c = iprop(StableHlo.held (c : Thread nD τ) (Pipeline.ucRefs τ sig) (V1 m c) ∗ R c) := rfl
theorem reg0_post (h4 h5 h6) (c : Dev nD) : (reg0 m d1 outs h4 h5 h6).post c = iprop(StableHlo.held (c : Thread nD τ) (Pipeline.ucRefs τ sig) (V2 m outs c) ∗ R c) := rfl

end Cert.KernelIdeal.Run

end
-- ==== Proof.KI.Seg1.lean ====
/- The attention region of @main as a segment of the run: entered from every unscoped buffer held
   at the contents the projection region leaves, left at the same contents with the result buffer
   replaced by what the pipeline's write-backs leave in it. The region prefetches the two tables of
   tile pairs; at its entry they hold what the host constants wrote, they go into the body's
   invariant at the full share and come back out of it at the end. Its five windows are a row block
   of the queries, of the keys, of the values and a tile of the mask operand (inputs), and a row
   block of the result (output). The proof data of the region is a parameter here: what this module
   needs of it is listed once, as a record of facts. -/
import proofs.«162603_j30889404792899_1_alg».proof.Proof.KI.Seg0

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Idealize.ShloMosaic.StableHlo
open Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

/-- What the second region leaves in the TensorCore's buffers: the result buffer at the unknown
    `outs 3`, every other buffer as found. -/
abbrev E3 : (c : Dev nD) → (b : Ref sig .tc) → Buf (Elt F) ((c : Thread nD τ).loc b) := fun c b => V3 m outs c b

/-! ## The tables at the region's entry -/

/-- The first table's buffer is written by the first host constant and by nothing after it. -/
theorem V2_main_c (c : Dev nD) : V2 m outs c main_c = fun i => lit0 (S36.rowMajor i) := by
  refine (V2_of m outs c main_c (by decide)).trans ?_
  show StableHlo.after hostOps0 (V0 m c) (Proc.devRef .tc main_c) = _
  after_results
  rfl

/-- The second table's buffer is written by the second host constant and by nothing after it. -/
theorem V2_main_c_0 (c : Dev nD) : V2 m outs c main_c_0 = fun i => lit1 (S36.rowMajor i) := by
  refine (V2_of m outs c main_c_0 (by decide)).trans ?_
  show StableHlo.after hostOps0 (V0 m c) (Proc.devRef .tc main_c_0) = _
  after_results
  rfl

/-- At the second region's entry the prefetched tables hold the tile pairs the pipeline is pinned at. -/
theorem tables_entry1 (c : Dev nD) : (fun k => E2 m outs c (pre1.ref k)) = (R1.tblC (F := F)) := by
  funext k
  match k with
  | ⟨0, _⟩ => exact V2_main_c m outs c
  | ⟨1, _⟩ => exact V2_main_c_0 m outs c

/-! ## What the run needs of the second region's proof data -/

/-- The facts about the second region's proof data `d1` that make the region a segment between
    the boundary contents: its arrays are read off the entry contents, every share is full, nothing
    is owed and no bound is kept on the recorded pairs; the body obligation holds; the invariant at
    the first point is made from the generator register, the tables at the full share and the scoped
    buffers no window stages, and at the last point gives them back; and the unknown the last
    boundary names is what the write-backs leave in the result array. -/
structure Facts1 (d1 : (c : Dev nD) → Dat τ (Elt F) Unit ℕ (UR sig nD τ) ℕ (R1.cfgT (F := F)) c) : Prop where
  hA : ∀ c w, (d1 c).A w = E2 m outs c (Pipeline.arrRef spec1 w)
  hq : ∀ c w, (d1 c).q w = fullShare
  howed : ∀ c t, (d1 c).owed t = 0
  hrec : ∀ c t, (d1 c).recorded t = Set.univ
  hbody : ∀ c, Pipeline.BodyObligation (d1 c) (defs₀ (F := F)) Variants.none () Set.univ
  hin : ∀ c, (iprop((iprop(∃ r, prngReg c r)) ∗ Pipeline.prefHeld pre1 c (fun _ => fullShare) (R1.tblC (F := F))
      ∗ Pipeline.scopedRest spec1 c) : sProp 𝕄) ⊢ (d1 c).Φ 0
  hout : ∀ c, (d1 c).Φ (Fin.last (R1.cfgT (F := F)).N) ⊢ (iprop((iprop((iprop(∃ r, prngReg c r)) ∗ Pipeline.prefHeld pre1 c (fun _ => fullShare) (R1.tblC (F := F))))
      ∗ Pipeline.scopedRest spec1 c) : sProp 𝕄)
  hres : ∀ c, outs 3 main_v1 c = (d1 c).arrAt 4 (R1.cfgT (F := F)).N

variable (d1 : (c : Dev nD) → Dat τ (Elt F) Unit ℕ (UR sig nD τ) ℕ (R1.cfgT (F := F)) c)

/-- At the second region's exit each of its arrays holds what the write-backs leave: an input's
    array is never written and the last update touches the result buffer only; the output's array
    is the result buffer, at the unknown the last boundary names. -/
theorem exit_arrays1 (f1 : Facts1 m outs d1) (c : Dev nD) :
    ∀ w : Fin (R1.cfgT (F := F)).W, (pdats m d1 1 c).arrAt w (R1.cfgT (F := F)).N = E3 m outs c (Pipeline.arrRef spec1 w)
  | ⟨0, _⟩ => ((d1 c).arrAt_in 0 rfl _).trans ((f1.hA c 0).trans (V3_of m outs c main_v0_0 (by decide)).symm)
  | ⟨1, _⟩ => ((d1 c).arrAt_in 1 rfl _).trans ((f1.hA c 1).trans (V3_of m outs c main_v0_1 (by decide)).symm)
  | ⟨2, _⟩ => ((d1 c).arrAt_in 2 rfl _).trans ((f1.hA c 2).trans (V3_of m outs c main_v0_2 (by decide)).symm)
  | ⟨3, _⟩ => ((d1 c).arrAt_in 3 rfl _).trans ((f1.hA c 3).trans (V3_of m outs c main_arg4 (by decide)).symm)
  | ⟨4, _⟩ => (f1.hres c).symm.trans (V3_main_v1 m outs c).symm

/-- Every buffer that is no array of the second region's windows leaves the region as it entered:
    the last update touches the result buffer only, and that is the output window's array. -/
theorem exit_rest1 (c : Dev nD) : ∀ b, b ∉ Finset.univ.image (Pipeline.arrRef spec1) → E3 m outs c b = E2 m outs c b := by
  intro b hb
  refine V3_of m outs c b fun h => hb ?_
  simp only [List.mem_cons, List.not_mem_nil, or_false] at h
  subst h
  exact Finset.mem_image.mpr ⟨4, Finset.mem_univ _, rfl⟩

/-- A core owing nothing owes the second region's tallies within its bound at any point, -/
theorem owes_in1 (f1 : Facts1 m outs d1) (c : Dev nD) (t : Fin ((R1.cfgT (F := F)).N + 1)) :
    (iprop(∃ W, owes (c : Thread nD τ) (0 : CellTallies nD τ sig Unit) W) : sProp 𝕄) ⊢ (pdats m d1 1 c).owesAt () t := by
  show _ ⊢ (d1 c).owesAt () t
  unfold Pipeline.Dat.owesAt Pipeline.owesWithin Pipeline.Dat.bound
  rw [f1.howed c t, f1.hrec c t]
  iintro ⟨%W, Howes⟩
  iexists W
  isplitr
  · ipureintro; exact fun _ _ => Set.mem_union_left _ (Set.mem_univ _)
  · iexact Howes

/-- and what the region owes at any point is nothing. -/
theorem owes_out1 (f1 : Facts1 m outs d1) (c : Dev nD) (t : Fin ((R1.cfgT (F := F)).N + 1)) :
    (pdats m d1 1 c).owesAt () t ⊢ (iprop(∃ W, owes (c : Thread nD τ) (0 : CellTallies nD τ sig Unit) W) : sProp 𝕄) := by
  show (d1 c).owesAt () t ⊢ _
  unfold Pipeline.Dat.owesAt Pipeline.owesWithin
  rw [f1.howed c t]
  iintro ⟨%W, -, Howes⟩
  iexists W
  iexact Howes

set_option backward.isDefEq.respectTransparency.types false in
/-- ENTRY of the second region: the unscoped buffers held at the entry contents are the five
    windows' arrays at the proof data's entry contents, the two tables at the tile pairs, and the
    rest; the core owes nothing; the generator register goes into the invariant. -/
theorem entry1 (f1 : Facts1 m outs d1) (c : Dev nD) :
    iprop(iprop(StableHlo.held (c : Thread nD τ) (Pipeline.ucRefs τ sig) (V2 m outs c) ∗ R c) ∗ Pipeline.ownSems0 (fun k : PEmpty => k.elim) c ∗ levAts L₀ lv₀)
      ⊢ (|={Set.univ}=> iprop((pdats m d1 1 c).arrays ((pdats m d1 1 c).arrAt · 0) ∗ Pipeline.prefHeld (pcfgs (F := F) 1).pre c (fun _ => fullShare) (adm (F := F) 1).1
          ∗ (pdats m d1 1 c).owesAt () 0 ∗ (iprop(∃ r, prngReg c r))
          ∗ Pipeline.unscopedRestP (Ix := Unit) (Name := ℕ) (U := UR sig nD τ) (Lvl := ℕ) pre1 spec1 c (E2 m outs c)) : sProp 𝕄) := by
  have hsplit := Pipeline.arrays_of_unscopedBufs (p := 1) (pcfgs (F := F)) adm (pdats m d1) (launch1 (F := F)).win (launch1 (F := F)).arr_whole c
    ((pdats m d1 1 c).share_full (f1.hq c)) (E2 m outs c) (f1.hA c)
  rw [Pipeline.unscopedBufs_held] at hsplit
  have htab := Pipeline.unscopedRest_split (Ix := Unit) (Name := ℕ) (U := UR sig nD τ) (Lvl := ℕ) preFacts1 c (E2 m outs c)
  rw [tables_entry1 m outs c] at htab
  iintro ⟨⟨Hbufs, Hreg, Howes⟩, -, -⟩
  ihave Hparts := hsplit $$ Hbufs
  icases Hparts with ⟨Harr, Hrest⟩
  ihave Hrest' := (Entails.of_eq htab) $$ Hrest
  icases Hrest' with ⟨Htab, Hrest⟩
  imodintro
  isplitl [Harr]
  · iexact Harr
  isplitl [Htab]
  · iexact Htab
  isplitl [Howes]
  · iapply (owes_in1 m outs d1 f1 c 0); iexact Howes
  isplitl [Hreg]
  · iexact Hreg
  · iexact Hrest

/-- The invariant at the first point, from the generator register, the tables and the scoped
    buffers no window stages. -/
theorem inv_in1 (f1 : Facts1 m outs d1) (c : Dev nD) :
    (iprop((iprop(∃ r, prngReg c r)) ∗ Pipeline.prefHeld (pcfgs (F := F) 1).pre c (fun _ => fullShare) (adm (F := F) 1).1
        ∗ Pipeline.scopedRest (Pipeline.pin (pcfgs (F := F)) adm 1).spec c) : sProp 𝕄) ⊢ (pdats m d1 1 c).Φ 0 :=
  f1.hin c

/-- The invariant at the last point gives back the generator register and the tables (both leave
    the region through what it hands on) and the scoped buffers; the kernel has no semaphore of its
    own. -/
theorem inv_out1 (f1 : Facts1 m outs d1) (c : Dev nD) :
    (pdats m d1 1 c).Φ (Fin.last (Pipeline.pin (pcfgs (F := F)) adm 1).N)
      ⊢ (iprop((iprop((iprop(∃ r, prngReg c r)) ∗ Pipeline.prefHeld pre1 c (fun _ => fullShare) (R1.tblC (F := F))))
          ∗ Pipeline.ownSems0 (fun k : PEmpty => k.elim) c
          ∗ Pipeline.scopedRest (Pipeline.pin (pcfgs (F := F)) adm 1).spec c) : sProp 𝕄) := by
  rw [Pipeline.ownSems0_none]
  refine (f1.hout c).trans ?_
  iintro ⟨Hback, Hscoped⟩
  isplitl [Hback]
  · iexact Hback
  isplitr
  · iempintro
  · iexact Hscoped

set_option backward.isDefEq.respectTransparency.types false in
/-- EXIT of the second region: the tables, back at the tile pairs, and the rest make the unscoped
    buffers that are no window's array, as entered; with the five arrays at what the write-backs
    leave they are the unscoped buffers held at the last boundary's contents; the core owes
    nothing; the generator register comes back. -/
theorem exit1 (f1 : Facts1 m outs d1) (c : Dev nD) :
    iprop((pdats m d1 1 c).arrays ((pdats m d1 1 c).arrAt · (Pipeline.pin (pcfgs (F := F)) adm 1).N)
        ∗ (pdats m d1 1 c).owesAt () (Fin.last (Pipeline.pin (pcfgs (F := F)) adm 1).N)
        ∗ (iprop((iprop(∃ r, prngReg c r)) ∗ Pipeline.prefHeld pre1 c (fun _ => fullShare) (R1.tblC (F := F))))
        ∗ Pipeline.unscopedRestP (Ix := Unit) (Name := ℕ) (U := UR sig nD τ) (Lvl := ℕ) pre1 spec1 c (E2 m outs c))
      ⊢ (|={Set.univ}=> iprop(StableHlo.held (c : Thread nD τ) (Pipeline.ucRefs τ sig) (V3 m outs c) ∗ R c) : sProp 𝕄) := by
  have hjoin := Pipeline.unscopedBufs_of_arrays (p := 1) (pcfgs (F := F)) adm (Ix := Unit) (Name := ℕ) (U := UR sig nD τ) (Lvl := ℕ)
    (launch1 (F := F)).win (launch1 (F := F)).arr_whole c (pdats m d1) ((pdats m d1 1 c).share_full (f1.hq c))
    (E2 m outs c) (E3 m outs c) ((pdats m d1 1 c).arrAt · (R1.cfgT (F := F)).N) (exit_arrays1 m outs d1 f1 c) (exit_rest1 m outs c)
  rw [Pipeline.unscopedBufs_held] at hjoin
  have htab := Pipeline.unscopedRest_split (Ix := Unit) (Name := ℕ) (U := UR sig nD τ) (Lvl := ℕ) preFacts1 c (E2 m outs c)
  rw [tables_entry1 m outs c] at htab
  iintro ⟨Harr, Howes, ⟨Hreg, Htab⟩, Hrest⟩
  ihave Hrest' := (Entails.of_eq htab.symm) $$ [Htab Hrest]
  · isplitl [Htab]
    · iexact Htab
    · iexact Hrest
  imodintro
  isplitl [Harr Hrest']
  · iapply hjoin
    isplitl [Harr]
    · iexact Harr
    · iexact Hrest'
  isplitl [Hreg]
  · iexact Hreg
  · iapply (owes_out1 m outs d1 f1 c (Fin.last _)); iexact Howes

set_option backward.isDefEq.respectTransparency.types false in
/-- THE SECOND REGION AS A SEGMENT: entered from every unscoped buffer held at the contents the
    first region leaves, left at the same with the result buffer at `outs 3`. -/
def reg1 (f1 : Facts1 m outs d1) :
    RegionSeg (pcfgs (F := F)) adm (pdats m d1) () defs₀ Variants.none L₀ lv₀ 1 where
  win := (launch1 (F := F)).win.to₀
  block_pos := (launch1 (F := F)).block_pos
  stage_whole := (launch1 (F := F)).stage_whole
  K := PEmpty
  osem k := k.elim
  ho := Pipeline.OwnSemFacts.none _
  hbody c := (f1.hbody c).loose
  hwaits := Pipeline.hwaits_of_owed_zero _ _ _ _ L₀ lv₀ 1 fun c t => f1.howed c t
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop((iprop(∃ r, prngReg c r)) ∗ Pipeline.prefHeld pre1 c (fun _ => fullShare) (R1.tblC (F := F)))
  Z c := Pipeline.unscopedRestP (Ix := Unit) (Name := ℕ) (U := UR sig nD τ) (Lvl := ℕ) pre1 spec1 c (E2 m outs c)
  hentry c := entry1 m outs d1 f1 c
  hin c := inv_in1 m outs d1 f1 c
  hout c := inv_out1 m outs d1 f1 c
  hexit c := exit1 m outs d1 f1 c

/-! ## The run of @main from the two regions' proof data -/

/-- THE RUN. With the first region's proof data at its entry contents and any proof data of the
    second region meeting `Facts1`, and with the unknowns `outs 2` at what the first region's
    write-backs leave in the three projection arrays: every weakly fair execution of @main from
    memory `m` terminates, and every final memory holds the result buffer at `outs 3 main_v1` —
    by `Facts1.hres` what the second region's write-backs leave in the result array — and each
    argument as launched. -/
theorem run_of_data (ρ : Dev nD → PrngReg)
    (h4 : ∀ c, outs 2 main_v0_0 c = (R0.dat0 (E1 m) c).arrAt 4 cfg0.N)
    (h5 : ∀ c, outs 2 main_v0_1 c = (R0.dat0 (E1 m) c).arrAt 5 cfg0.N)
    (h6 : ∀ c, outs 2 main_v0_2 c = (R0.dat0 (E1 m) c).arrAt 6 cfg0.N)
    (f1 : Facts1 m outs d1) :
    θ_run defs (onTc (τ := τ) (main (F := F))) ⟨m, fun _ => 0, ρ⟩ (fun r => ∀ c : Dev nD,
      r.2.mem ((c.tc : Thread nD τ).loc main_v1) = outs 3 main_v1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_of_regions m ρ outs adm (pdats m d1) (reg0 m d1 outs h4 h5 h6) (fun _ => .rfl) (fun _ => .rfl)
    (reg1 m outs d1 f1) (fun _ => .rfl) (fun _ => .rfl)

end Cert.KernelIdeal.Run

end
-- ==== Proof.KI.Sched1.lean ====
import proofs.«162603_j30889404792899_1_alg».proof.Proof.Gen.KernelIdeal.Regions
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.KI.Tables1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region's schedule at the tile-pair tables -/

theorem N_T : (cfgT (F := F)).N = 36 := N_1

/-- A grid point as a table index: its position. -/
def ptT (t : Fin (cfgT (F := F)).N) : Fin 36 := ⟨t.val, lt_of_lt_of_eq t.isLt N_T⟩

/-- A grid point's coordinate is its position. -/
theorem pt_coords (t : Fin (cfgT (F := F)).N) : pt ((cfgT (F := F)).grid.coords t) = ptT t := by
  have h : t.val < 36 := lt_of_lt_of_eq t.isLt N_T
  apply Fin.ext
  show (((cfgT (F := F)).grid.coords t) 0).val = t.val
  unfold Pipeline.Grid.coords
  show t.val / 1 % 36 = t.val
  omega

/-- The reset condition holds exactly when the column tile is the first. -/
theorem cond1_iff (v3 : BitVec 32) : Scalar.cmpi .ne (Scalar.extui (Scalar.cmpi .eq v3 0#32)) 0#32 = 1#1 ↔ v3 = 0#32 := by
  by_cases h : v3 = 0#32
  · subst h; simp only [iff_true]; decide
  · simp only [h, iff_false]
    have e : Scalar.cmpi .eq v3 0#32 = 0#1 := by
      show BitVec.ofBool (v3 == 0#32) = 0#1
      rw [beq_eq_false_iff_ne.mpr h]; rfl
    rw [e]; decide

/-- The store condition holds exactly on the diagonal: column tile = row tile. -/
theorem cond2_iff (v1 v3 : BitVec 32) : k1_cond2 v1 v3 = 1#1 ↔ v3 = v1 := by
  unfold k1_cond2
  by_cases h : v3 = v1
  · subst h
    have e : Scalar.cmpi .eq v3 v3 = 1#1 := by
      show BitVec.ofBool (v3 == v3) = 1#1
      rw [beq_self_eq_true]; rfl
    simp only [e, iff_true]; decide
  · have e : Scalar.cmpi .eq v3 v1 = 0#1 := by
      show BitVec.ofBool (v3 == v1) = 0#1
      rw [beq_eq_false_iff_ne.mpr h]; rfl
    simp only [e, h, iff_false]; decide

/-- The table words the idle table is stated over are the pair at the point. -/
theorem atD0 (i : grid1.Coords) : (tblC (F := F)).atD 0 (k1_off1 i) = lit0 (pt i) := by
  unfold Pipeline.Prefetch.Contents.atD
  split
  · show lit0 (S36.rowMajor _) = lit0 (pt i)
    congr 1; apply Fin.ext
    refine (Shape.rowMajor_val_one (d := ![36]) _).trans ?_
    show (Scalar.indexCast (BitVec.ofNat 32 (i 0).val)).toNat = (i 0).val
    exact off_toNat i
  · next h =>
    refine absurd (fun a => ?_) h
    have := k1_off1_inb i
    match a with
    | ⟨0, _⟩ => exact this 0
theorem atD1 (i : grid1.Coords) : (tblC (F := F)).atD 1 (k1_off1 i) = lit1 (pt i) := by
  unfold Pipeline.Prefetch.Contents.atD
  split
  · show lit1 (S36.rowMajor _) = lit1 (pt i)
    congr 1; apply Fin.ext
    refine (Shape.rowMajor_val_one (d := ![36]) _).trans ?_
    show (Scalar.indexCast (BitVec.ofNat 32 (i 0).val)).toNat = (i 0).val
    exact off_toNat i
  · next h =>
    refine absurd (fun a => ?_) h
    have := k1_off1_inb i
    match a with
    | ⟨0, _⟩ => exact this 0

/-- The output window is idle exactly off the diagonal. -/
theorem idle4_eq (i : grid1.Coords) : (cfgT (F := F)).idle 4 i = !decide (lit1 (pt i) = lit0 (pt i)) := by
  show (!(k1_cond2 ((tblC (F := F)).atD 0 (k1_off1 i)) ((tblC (F := F)).atD 1 (k1_off1 i)) == 1#1)) = _
  rw [atD0, atD1]
  by_cases h : lit1 (pt i) = lit0 (pt i)
  · rw [decide_eq_true h, (cond2_iff _ _).mpr h]; try rfl
  · rw [decide_eq_false h]
    have : k1_cond2 (lit0 (pt i)) (lit1 (pt i)) ≠ 1#1 := fun e => h ((cond2_iff _ _).mp e)
    rw [beq_eq_false_iff_ne.mpr this]; try rfl

/-- In the tables the row tile changes after a point, or the point is the last, exactly on the diagonal. -/
theorem diag_facts : ∀ t : Fin 36, (t.val + 1 = 36 ∨ ∃ h : t.val + 1 < 36, rowT ⟨t.val + 1, h⟩ ≠ rowT t) ↔ lit1 t = lit0 t := by decide

/-- The output block is written back exactly at the diagonal points. -/
theorem flush4_iff (t : Fin (cfgT (F := F)).N) : ((cfgT (F := F)).win 4).flush t = true ↔ lit1 (ptT t) = lit0 (ptT t) := by
  rw [← diag_facts (ptT t)]
  unfold Pipeline.Window.flush
  rw [show ((cfgT (F := F)).win 4).isOut = true from rfl, Bool.true_and, Bool.or_eq_true, decide_eq_true_eq, decide_eq_true_eq]
  have hN : (cfgT (F := F)).grid.N = 36 := N_T
  have hix : ∀ s : Fin (cfgT (F := F)).N, ((cfgT (F := F)).win 4).index s = ![rowT (ptT s), 0] := fun s => by
    show cc1_transform_4 k1_off1_inb numel1_S1 (tblC (F := F)) ((cfgT (F := F)).grid.coords s) = _
    rw [tr4, pt_coords]
  have hv : (ptT t).val = t.val := rfl
  constructor
  · rintro (h | ⟨h, hne⟩)
    · left; omega
    · right; refine ⟨by omega, fun e => hne ?_⟩
      rw [hix, hix]; exact congrArg (fun x => ![x, 0]) e
  · rintro (h | ⟨h, hne⟩)
    · left; omega
    · right; refine ⟨by omega, fun e => hne ?_⟩
      rw [hix, hix] at e
      exact congrFun e 0

end Cert.KernelIdeal.R1
end
-- ==== Proof.KI.Dat1.lean ====
import proofs.«162603_j30889404792899_1_alg».proof.Proof.Gen.KernelIdeal.Regions
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.KI.Sched1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region's proof data: blocks, the accumulator's trajectory, the invariant -/

variable (V : (c : Dev nD) → (b : Ref sig .tc) → Buf (Elt F) ((c : Thread nD τ).loc b))

/-- Window `w`'s block at point `t`, read off its array as the region finds it. -/
def iblk1 (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V c (Pipeline.arrRef spec1 w))

/-- The pair of tile numbers at a grid point, as the words the body loads. -/
def wRow (t : Fin (cfgT (F := F)).N) : BitVec 32 := lit0 (ptT t)
def wCol (t : Fin (cfgT (F := F)).N) : BitVec 32 := lit1 (ptT t)

/-- One step of the accumulation: the scratch after a point, from the scratch the product is added to. -/
def accStep (c : Dev nD) (t : Fin (cfgT (F := F)).N) (acc : Vec F S1024x64 .f32) : Vec F S1024x64 .f32 :=
  k1_pay1 (k1_pay3 (wRow t) (wCol t) (iblk1 V c 0 t) (iblk1 V c 1 t) (iblk1 V c 3 t) acc (iblk1 V c 2 t))

/-- THE ACCUMULATION. What the scratch holds after the body at position `n`: the step from zeros where the column tile is
    the first of its row, else from what the point before left. -/
def accAfter (c : Dev nD) : (n : ℕ) → (hn : n < (cfgT (F := F)).N) → Vec F S1024x64 .f32
  | 0, hn => accStep V c ⟨0, hn⟩ k1_pay2
  | n + 1, hn => accStep V c ⟨n + 1, hn⟩ (if wCol (F := F) ⟨n + 1, hn⟩ = 0#32 then k1_pay2 else accAfter c n (Nat.lt_of_succ_lt hn))

theorem accAfter_reset (c : Dev nD) (t : Fin (cfgT (F := F)).N) (h : wCol t = 0#32) :
    accAfter V c t.val t.isLt = accStep V c t k1_pay2 := by
  obtain ⟨n, hn⟩ := t
  cases n with
  | zero => rfl
  | succ n => show accStep V c _ (if _ then _ else _) = _; rw [if_pos h]

theorem accAfter_step (c : Dev nD) (t : Fin (cfgT (F := F)).N) (h : wCol t ≠ 0#32) (h0 : t.val ≠ 0) :
    accAfter V c t.val t.isLt = accStep V c t (accAfter V c (t.val - 1) (Nat.lt_of_le_of_lt (Nat.sub_le _ _) t.isLt)) := by
  obtain ⟨n, hn⟩ := t
  cases n with
  | zero => exact absurd rfl h0
  | succ n => show accStep V c _ (if _ then _ else _) = _; rw [if_neg h]; rfl

/-- The first point resets: its column tile is the first. -/
theorem wCol_zero (t : Fin (cfgT (F := F)).N) (h : t.val = 0) : wCol t = 0#32 := by
  unfold wCol
  have : ptT t = 0 := Fin.ext h
  rw [this]; rfl

/-- The scratch accumulator as a memref. -/
abbrev scM : Memref sig .tc .vmem S1024x64 .f32 := Memref.whole cc1_scratch0

/-- The two tables, held whole at the tile pairs. -/
abbrev tabs (c : Dev nD) : sProp 𝕄 := Pipeline.prefHeld (Ix := Unit) (Name := ℕ) (U := UR sig nD τ) (Lvl := ℕ) pre1 c (fun _ => fullShare) (tblC (F := F))

/-- The scoped buffers of the core that the second region neither stages nor accumulates in (the first region's staging
    buffers), each at some contents. -/
def rest11 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped rest is those eleven and the scratch at some contents. -/
theorem scopedRest_split (c : Dev nD) :
    (Pipeline.scopedRest (Ix := Unit) (Name := ℕ) (U := UR sig nD τ) (Lvl := ℕ) (Val := Elt F) spec1 c : sProp 𝕄)
      ⊣⊢ iprop(rest11 (F := F) c ∗ ∃ d, owns (c : Thread nD τ) scM fullShare d) := by
  rw [scopedRest1_eq]; unfold rest11; simp only [scM, owns_whole]
  constructor
  · iintro ⟨H1, H2, H3, H4, H5, H6, H7, H8, H9, H10, H11, HS⟩
    isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexact HS
  · iintro ⟨⟨H1, H2, H3, H4, H5, H6, H7, H8, H9, H10, H11⟩, HS⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS

/-- The region invariant before position `n`: the tables, the generator register at some state, the buffers the region does
    not touch, and the scratch — at anything before the first point, afterwards at what the point before left. -/
def PhiS (c : Dev nD) : (n : ℕ) → n ≤ (cfgT (F := F)).N → sProp 𝕄
  | 0, _ => iprop(tabs (F := F) c ∗ (∃ r, prngReg c r) ∗ rest11 (F := F) c ∗ ∃ d, owns (c : Thread nD τ) scM fullShare d)
  | n + 1, hn => iprop(tabs (F := F) c ∗ (∃ r, prngReg c r) ∗ rest11 (F := F) c ∗ owns (c : Thread nD τ) scM fullShare (accAfter V c n hn))

theorem PhiS_zero (c : Dev nD) (n : ℕ) (h : n ≤ (cfgT (F := F)).N) (hz : n = 0) :
    PhiS V c n h = iprop(tabs (F := F) c ∗ (∃ r, prngReg c r) ∗ rest11 (F := F) c ∗ ∃ d, owns (c : Thread nD τ) scM fullShare d) := by
  subst hz; rfl
theorem PhiS_succ (c : Dev nD) (n : ℕ) (hn : n < (cfgT (F := F)).N) :
    PhiS V c (n + 1) hn = iprop(tabs (F := F) c ∗ (∃ r, prngReg c r) ∗ rest11 (F := F) c ∗ owns (c : Thread nD τ) scM fullShare (accAfter V c n hn)) := rfl
theorem PhiS_pos (c : Dev nD) (n : ℕ) (h : n ≤ (cfgT (F := F)).N) (hz : n ≠ 0) :
    PhiS V c n h = iprop(tabs (F := F) c ∗ (∃ r, prngReg c r) ∗ rest11 (F := F) c ∗ owns (c : Thread nD τ) scM fullShare (accAfter V c (n - 1) (by omega))) := by
  cases n with
  | zero => exact absurd rfl hz
  | succ n => rfl

/-- The proof data of the second pipeline on core `c`: the arrays as the region finds them; after the body each input's buffer
    at its block and the output's at the accumulator (stored on the diagonal; elsewhere the point is idle for it and the
    statement unused); the invariant `PhiS`; nothing owed; full shares. -/
def dat1 (c : Dev nD) : Dat τ (Elt F) Unit ℕ (UR sig nD τ) ℕ (cfgT (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAfter V c t.val t.isLt
  Φ t := PhiS V c t.val (Nat.le_of_lt_succ t.isLt)
  q _ := fullShare
  owed _ := 0

theorem A_eq1 (c : Dev nD) (w : Fin (cfgT (F := F)).W) : (dat1 V c).A w = V c (Pipeline.arrRef spec1 w) := by
  dsimp only [dat1]
theorem after1_0 (c : Dev nD) (t : Fin (cfgT (F := F)).N) : (dat1 V c).after 0 t = iblk1 V c 0 t := by dsimp only [dat1]; rfl
theorem after1_1 (c : Dev nD) (t : Fin (cfgT (F := F)).N) : (dat1 V c).after 1 t = iblk1 V c 1 t := by dsimp only [dat1]; rfl
theorem after1_2 (c : Dev nD) (t : Fin (cfgT (F := F)).N) : (dat1 V c).after 2 t = iblk1 V c 2 t := by dsimp only [dat1]; rfl
theorem after1_3 (c : Dev nD) (t : Fin (cfgT (F := F)).N) : (dat1 V c).after 3 t = iblk1 V c 3 t := by dsimp only [dat1]; rfl
theorem after1_4 (c : Dev nD) (t : Fin (cfgT (F := F)).N) : (dat1 V c).after 4 t = accAfter V c t.val t.isLt := by dsimp only [dat1]; rfl

theorem PhiS_castSucc (c : Dev nD) (t : Fin (cfgT (F := F)).N) :
    (dat1 V c).Φ t.castSucc = PhiS V c t.val (Nat.le_of_lt t.isLt) := by
  dsimp only [dat1]; simp only [Fin.coe_castSucc]

/-- Each input's current staging buffer holds its block at every point, fetched there or not: unfetched, the tile number
    has not changed. -/
theorem before1_0 (c : Dev nD) (t : Fin (cfgT (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgT (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgT (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfgT (F := F)).N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Cert.KernelIdeal.R1
end
-- ==== Proof.KI.Phi1.lean ====
import proofs.«162603_j30889404792899_1_alg».proof.Proof.Gen.KernelIdeal.Regions
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.KI.Dat1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region's invariant at its two ends -/

variable (V : (c : Dev nD) → (b : Ref sig .tc) → Buf (Elt F) ((c : Thread nD τ).loc b))

/-- What the launch hands the region — the generator register, the two tables at the tile pairs, the scoped buffers no window
    stages — is the invariant before the first point: the scratch is among those buffers, at anything. -/
theorem phi_in (c : Dev nD) :
    iprop((∃ r, prngReg c r) ∗ tabs (F := F) c ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = PhiS V c 0 (Nat.zero_le _) from rfl, PhiS_zero V c 0 _ rfl]
  iintro ⟨Hp, Ht, Hr⟩
  ihave Hr' := (scopedRest_split (F := F) c).1 $$ Hr
  icases Hr' with ⟨H11, HS⟩
  isplitl [Ht]; · iexact Ht
  isplitl [Hp]; · iexact Hp
  isplitl [H11]; · iexact H11
  iexact HS

/-- After any point but the first the invariant gives all of that back: the scratch's named contents are forgotten. -/
theorem phi_out_of_pos (c : Dev nD) (t : Fin ((cfgT (F := F)).N + 1)) (ht : t.val ≠ 0) :
    ((dat1 V c).Φ t : sProp 𝕄)
      ⊢ iprop(((∃ r, prngReg c r) ∗ tabs (F := F) c) ∗ Pipeline.scopedRest (Ix := Unit) (Name := ℕ) (U := UR sig nD τ) (Lvl := ℕ) (Val := Elt F) spec1 c) := by
  rw [show (dat1 V c).Φ t = PhiS V c t.val (Nat.le_of_lt_succ t.isLt) from rfl, PhiS_pos V c _ _ ht]
  iintro ⟨Ht, Hp, H11, HS⟩
  isplitl [Hp Ht]
  · isplitl [Hp]; · iexact Hp
    iexact Ht
  iapply (scopedRest_split (F := F) c).2
  isplitl [H11]; · iexact H11
  iexists _; iexact HS

/-- The same after the last point. -/
theorem phi_out (c : Dev nD) :
    ((dat1 V c).Φ (Fin.last (cfgT (F := F)).N) : sProp 𝕄)
      ⊢ iprop(((∃ r, prngReg c r) ∗ tabs (F := F) c) ∗ Pipeline.scopedRest (Ix := Unit) (Name := ℕ) (U := UR sig nD τ) (Lvl := ℕ) (Val := Elt F) spec1 c) :=
  phi_out_of_pos V c _ (by rw [Fin.val_last]; have : (cfgT (F := F)).N = 36 := N_T; omega)

end Cert.KernelIdeal.R1
end
-- ==== Proof.KI.Body1.lean ====
/- The body of the second kernel, run once per control case on arbitrary whole staging memrefs at arbitrary contents.
   The body reads the point's tile pair `(i, j)` off the two tables, resets its accumulator when `j = 0`, adds the
   masked product `(select(row ≥ col, (q kᵀ) * l, 0)) v` to it, and copies it to the output's buffer when `j = i`.
   Four cases: the reset is made or not, the output is stored or not. Each theorem says: from these buffers at these
   contents the body runs to the continuation with the buffers at those contents; nothing about the grid's order. -/
import proofs.«162603_j30889404792899_1_alg».proof.Proof.Gen.KernelIdeal.Launch
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two prefetched tables as the body is handed them: each table's whole buffer as a memref. -/
abbrev tbM0 : Memref sig .tc .smem S36 .i32 := Memref.whole main_c
abbrev htbM0 : tbM0.IsWhole := Memref.isWhole_whole _
abbrev tbM1 : Memref sig .tc .smem S36 .i32 := Memref.whole main_c_0
abbrev htbM1 : tbM1.IsWhole := Memref.isWhole_whole _

/-- A table memref's buffer on core `c`: the type of its contents, and the buffer held read-only at share `q`
    at contents `f`. -/
abbrev TbBuf (c : Dev nD) {S : Shape} {e : EltTy} (M : Memref sig .tc .smem S e) : Type := Buf (Elt F) (M.view.loc (c : Thread nD τ))
abbrev tbPt (q : PosShare TreeShare) (c : Dev nD) {S : Shape} {e : EltTy} (M : Memref sig .tc .smem S e) (f : TbBuf (F := F) c M) : sProp 𝕄 :=
  M.view.loc (c : Thread nD τ) ↦{q} f

/-- The word of the first table at the point's offset, and of the second: the row tile `i` and the column tile `j`
    of the pair the point works on. -/
def w1 (i : grid1.Coords) (c : Dev nD) (xt0 : TbBuf (F := F) c tbM0) : BitVec 32 :=
  tbM0.view.readAt (Elt F) (Rect.unit (s := S36) (k1_off1 i) S1.size (k1_off1_inb i)).toLoadRect xt0 (Shape.Idx.first (numel1_S1.symm ▸ Nat.one_pos))
def w3 (i : grid1.Coords) (c : Dev nD) (xt1 : TbBuf (F := F) c tbM1) : BitVec 32 :=
  tbM1.view.readAt (Elt F) (Rect.unit (s := S36) (k1_off1 i) S1.size (k1_off1_inb i)).toLoadRect xt1 (Shape.Idx.first (numel1_S1.symm ▸ Nat.one_pos))

/-- The first condition: the column tile is the first of its row (`j = 0`), as the body computes it. -/
def cond1 (v3 : BitVec 32) : Prop := Scalar.cmpi .ne (Scalar.extui (Scalar.cmpi .eq v3 0#32)) 0#32 = 1#1

/-- What the accumulator holds after the point's store, from what it held when the point's product was added. -/
def accOut (v1 v3 : BitVec 32) (q k : Vec F S1024x64 .f32) (l : Vec F S1024x1024 .f32) (acc' v : Vec F S1024x64 .f32) : Vec F S1024x64 .f32 :=
  k1_pay1 (k1_pay3 v1 v3 q k l acc' v)

/-- The zero offsets of a rank-two whole-buffer rectangle are the zero function. -/
theorem zero2 : (![0, 0] : Fin 2 → Nat) = fun _ => 0 := by funext a; fin_cases a <;> rfl

/-- After a store through the whole-buffer rectangle, made last, the buffer reads the stored value, whatever it held
    before and whatever the earlier stores were: the rectangle holds every index, so the last piece alone covers. -/
theorem read_store_whole {S : Shape} {e : EltTy} (M : Memref sig .tc .vmem S e) (f : M.view.ty.Contents (Elt F))
    {off : Fin S.rank → Nat} (hz : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩)]
  exact View.canon_cons_unit_zero hz inb w L

set_option maxHeartbeats 1000000 in
/-- Neither branch taken: the column tile is not the first of its row and not the diagonal one. The accumulator goes
    from `acc` to `accOut … acc …`; the output's buffer is not touched. -/
theorem runG_FF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32) (acc o : Vec F S1024x64 .f32)
    (xt0 : TbBuf (F := F) c tbM0) (xt1 : TbBuf (F := F) c tbM1)
    (h1 : ¬ cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) arg8 fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) arg8 fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, HT0, HT1, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_store_whole arg8 _ zero2 inb_S1024x64_S1024x64_0_0 _ []).trans ?_
    unfold accOut w1 w3
    sl_unfold_run_names
    simp only [View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_FF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32) (acc o : Vec F S1024x64 .f32)
    (xt0 : TbBuf (F := F) c tbM0) (xt1 : TbBuf (F := F) c tbM1)
    (h1 : ¬ cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) (Memref.whole cc1_scratch0) fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) (Memref.whole cc1_scratch0) fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_FF sh c E i arg3 harg3 arg4 harg4 arg5 harg5 arg6 harg6 arg7 harg7 (Memref.whole cc1_scratch0) (Memref.isWhole_whole _) q k v l acc o xt0 xt1 h1 h2 K

set_option maxHeartbeats 1000000 in
/-- The diagonal tile of a row that is not its first: no reset; the accumulator goes from `acc` to `accOut … acc …`
    and that value is stored whole into the output's buffer, whatever it held. -/
theorem runG_FT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32) (acc : Vec F S1024x64 .f32)
    (xt0 : TbBuf (F := F) c tbM0) (xt1 : TbBuf (F := F) c tbM1)
    (h1 : ¬ cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ owns (c : Thread nD τ) arg8 fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l acc v) ∗ owns (c : Thread nD τ) arg8 fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, HT0, HT1, Hk⟩
  obtain rfl := harg3.eq_unread hf3; obtain rfl := harg4.eq_unread hf4; obtain rfl := harg5.eq_unread hf5
  obtain rfl := harg6.eq_unread hf6; obtain rfl := harg8.eq_unread hf8
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole arg7 _ zero2 inb_S1024x64_S1024x64_0_0 _ _).trans ?_
    unfold accOut w1 w3
    sl_unfold_run_names
    simp only [View.readCov_unit_zero (S := S1024x64) _ zero2, View.readAt_eq_ld, harg3.read_unread, harg4.read_unread, harg5.read_unread, harg6.read_unread, harg8.read_unread,
      View.ld_unit_zero (S := S1024x64) zero2, View.ld_unit_zero (S := S1024x1024) zero2] <;> rfl
  isplitl [H8]
  · iexists _; isplitr
    swap; · iexact H8
    ipureintro
    refine (read_store_whole arg8 _ zero2 inb_S1024x64_S1024x64_0_0 _ _).trans ?_
    unfold accOut w1 w3
    sl_unfold_run_names
    simp only [View.readCov_unit_zero (S := S1024x64) _ zero2, View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_FT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32) (acc : Vec F S1024x64 .f32)
    (xt0 : TbBuf (F := F) c tbM0) (xt1 : TbBuf (F := F) c tbM1)
    (h1 : ¬ cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ owns (c : Thread nD τ) (Memref.whole cc1_scratch0) fullShare acc
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l acc v) ∗ owns (c : Thread nD τ) (Memref.whole cc1_scratch0) fullShare (accOut (w1 i c xt0) (w3 i c xt1) q k l acc v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_FT sh c E i arg3 harg3 arg4 harg4 arg5 harg5 arg6 harg6 arg7 harg7 (Memref.whole cc1_scratch0) (Memref.isWhole_whole _) q k v l acc xt0 xt1 h1 h2 K

set_option maxHeartbeats 1000000 in
/-- The first tile of a row that is not the diagonal one: the accumulator, whatever it held, is reset to zeros and
    goes to `accOut … k1_pay2 …`; the output's buffer is not touched. -/
theorem runG_TF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32) (o : Vec F S1024x64 .f32)
    (xt0 : TbBuf (F := F) c tbM0) (xt1 : TbBuf (F := F) c tbM1)
    (h1 : cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ (∃ d, owns (c : Thread nD τ) arg8 fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) arg8 fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, HT0, HT1, Hk⟩
  obtain rfl := harg3.eq_unread hf3; obtain rfl := harg4.eq_unread hf4; obtain rfl := harg5.eq_unread hf5
  obtain rfl := harg6.eq_unread hf6; obtain rfl := harg7.eq_unread hf7
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (read_store_whole arg8 _ zero2 inb_S1024x64_S1024x64_0_0 _ _).trans ?_
    unfold accOut w1 w3
    sl_unfold_run_names
    simp only [View.readCov_cons_toLoadRect, View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_TF (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32) (o : Vec F S1024x64 .f32)
    (xt0 : TbBuf (F := F) c tbM0) (xt1 : TbBuf (F := F) c tbM1)
    (h1 : cond1 (w3 i c xt1)) (h2 : ¬ (k1_cond2 (w1 i c xt0) (w3 i c xt1) = 1#1)) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ (∃ d, owns (c : Thread nD τ) (Memref.whole cc1_scratch0) fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare o ∗ owns (c : Thread nD τ) (Memref.whole cc1_scratch0) fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_TF sh c E i arg3 harg3 arg4 harg4 arg5 harg5 arg6 harg6 arg7 harg7 (Memref.whole cc1_scratch0) (Memref.isWhole_whole _) q k v l o xt0 xt1 h1 h2 K

set_option maxHeartbeats 1000000 in
/-- The first tile of a row that is also its diagonal one (the first row): the accumulator, whatever it held, is reset
    to zeros and goes to `accOut … k1_pay2 …`, and that value is stored whole into the output's buffer, whatever it held. -/
theorem runG_TT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole) (arg8 : Memref sig .tc .vmem S1024x64 .f32) (harg8 : arg8.IsWhole)
    (q k v : Vec F S1024x64 .f32) (l : Vec F S1024x1024 .f32)
    (xt0 : TbBuf (F := F) c tbM0) (xt1 : TbBuf (F := F) c tbM1)
    (h1 : cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ (∃ d, owns (c : Thread nD τ) arg8 fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l (k1_pay2 (F := F)) v) ∗ owns (c : Thread nD τ) arg8 fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, HT0, HT1, Hk⟩
  obtain rfl := harg3.eq_unread hf3; obtain rfl := harg4.eq_unread hf4; obtain rfl := harg5.eq_unread hf5
  obtain rfl := harg6.eq_unread hf6
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_store_whole arg7 _ zero2 inb_S1024x64_S1024x64_0_0 _ _).trans ?_
    unfold accOut w1 w3
    sl_unfold_run_names
    simp only [View.readCov_cons_toLoadRect, View.readAt_eq_ld, harg3.read_unread, harg4.read_unread, harg5.read_unread, harg6.read_unread, harg8.read_unread,
      View.ld_unit_zero (S := S1024x64) zero2, View.ld_unit_zero (S := S1024x1024) zero2] <;> rfl
  isplitl [H8]
  · iexists _; isplitr
    swap; · iexact H8
    ipureintro
    refine (read_store_whole arg8 _ zero2 inb_S1024x64_S1024x64_0_0 _ _).trans ?_
    unfold accOut w1 w3
    sl_unfold_run_names
    simp only [View.readCov_cons_toLoadRect, View.readAt_eq_ld, harg3.read_unread, harg4.read_unread, harg5.read_unread, harg6.read_unread, harg8.read_unread,
      View.ld_unit_zero (S := S1024x64) zero2, View.ld_unit_zero (S := S1024x1024) zero2] <;> rfl
  isplitl [HT0]; · iexact HT0
  iexact HT1

/-- The same at the kernel's own scratch buffer. -/
theorem run_TT (sh : PosShare TreeShare) (c : Dev nD) (E : Set ℕ) (i : grid1.Coords)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1024x64 .f32) (harg7 : arg7.IsWhole)
    (q k v : Vec F S1024x64 .f32) (l : Vec F S1024x1024 .f32)
    (xt0 : TbBuf (F := F) c tbM0) (xt1 : TbBuf (F := F) c tbM1)
    (h1 : cond1 (w3 i c xt1)) (h2 : k1_cond2 (w1 i c xt0) (w3 i c xt1) = 1#1) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare l ∗ (∃ d, owns (c : Thread nD τ) arg7 fullShare d) ∗ (∃ d, owns (c : Thread nD τ) (Memref.whole cc1_scratch0) fullShare d)
        ∗ tbPt sh c tbM0 xt0 ∗ tbPt sh c tbM1 xt1
        ∗ (iprop(owns (c : Thread nD τ) arg3 fullShare q ∗ owns (c : Thread nD τ) arg4 fullShare k ∗ owns (c : Thread nD τ) arg5 fullShare v
        ∗ owns (c : Thread nD τ) arg6 fullShare l ∗ owns (c : Thread nD τ) arg7 fullShare (accOut (w1 i c xt0) (w3 i c xt1) q k l (k1_pay2 (F := F)) v) ∗ owns (c : Thread nD τ) (Memref.whole cc1_scratch0) fullShare (accOut (w1 i c xt0) (w3 i c xt1) q k l (k1_pay2 (F := F)) v)
        ∗ tbPt sh c tbM0 xt0 ∗ tbPt sh c tbM1 xt1) -∗ K ⟨⟩))
      ⊢ wp frame (wpE (defs₀ (F := F)) Variants.none c none) E (cc1__attn_kernel i tbM0 htbM0 tbM1 htbM1 arg3 harg3 arg4 harg4 arg5 harg5 arg6 harg6 arg7 harg7 (Memref.whole cc1_scratch0) (Memref.isWhole_whole _)) K :=
  runG_TT sh c E i arg3 harg3 arg4 harg4 arg5 harg5 arg6 harg6 arg7 harg7 (Memref.whole cc1_scratch0) (Memref.isWhole_whole _) q k v l xt0 xt1 h1 h2 K

end Cert.KernelIdeal.R1

end
-- ==== Proof.KI.Obl1.lean ====
import proofs.«162603_j30889404792899_1_alg».proof.Proof.Gen.KernelIdeal.Regions
import proofs.«162603_j30889404792899_1_alg».proof.Proof.Gen.KernelIdeal.Skeleton
import proofs.«162603_j30889404792899_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«162603_j30889404792899_1_alg».proof.Proof.KI.Phi1
import proofs.«162603_j30889404792899_1_alg».proof.Proof.KI.Body1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region's body obligation -/

variable (V : (c : Dev nD) → (b : Ref sig .tc) → Buf (Elt F) ((c : Thread nD τ).loc b))

/-- Each window's current staging memref at point `t`, spelled as the pipeline passes it, and its wholeness. -/
abbrev ms1_0 (t : Fin (cfgT (F := F)).N) : Memref sig .tc .vmem S1024x64 .f32 := spec1_0.stage ((cfgT (F := F)).slots t 0)
abbrev hs1_0 (t : Fin (cfgT (F := F)).N) : (ms1_0 (F := F) t).IsWhole := hstage1_0 (((cfgT (F := F)).slots t 0).cast nbuf1_0)
abbrev ms1_1 (t : Fin (cfgT (F := F)).N) : Memref sig .tc .vmem S1024x64 .f32 := spec1_1.stage ((cfgT (F := F)).slots t 1)
abbrev hs1_1 (t : Fin (cfgT (F := F)).N) : (ms1_1 (F := F) t).IsWhole := hstage1_1 (((cfgT (F := F)).slots t 1).cast nbuf1_1)
abbrev ms1_2 (t : Fin (cfgT (F := F)).N) : Memref sig .tc .vmem S1024x64 .f32 := spec1_2.stage ((cfgT (F := F)).slots t 2)
abbrev hs1_2 (t : Fin (cfgT (F := F)).N) : (ms1_2 (F := F) t).IsWhole := hstage1_2 (((cfgT (F := F)).slots t 2).cast nbuf1_2)
abbrev ms1_3 (t : Fin (cfgT (F := F)).N) : Memref sig .tc .vmem S1024x1024 .f32 := spec1_3.stage ((cfgT (F := F)).slots t 3)
abbrev hs1_3 (t : Fin (cfgT (F := F)).N) : (ms1_3 (F := F) t).IsWhole := hstage1_3 (((cfgT (F := F)).slots t 3).cast nbuf1_3)
abbrev ms1_4 (t : Fin (cfgT (F := F)).N) : Memref sig .tc .vmem S1024x64 .f32 := spec1_4.stage ((cfgT (F := F)).slots t 4)
abbrev hs1_4 (t : Fin (cfgT (F := F)).N) : (ms1_4 (F := F) t).IsWhole := hstage1_4 (((cfgT (F := F)).slots t 4).cast nbuf1_4)

/-- The kernel body at point `t`, on what the pipeline calls it with. -/
abbrev bodyAt1 (t : Fin (cfgT (F := F)).N) : Prog (TpuEff nD τ sig (Elt F) Λ₀ .tc) PUnit :=
  cc1__attn_kernel (grid1.coords t) tbM0 htbM0 tbM1 htbM1 (ms1_0 t) (hs1_0 t) (ms1_1 t) (hs1_1 t) (ms1_2 t) (hs1_2 t) (ms1_3 t) (hs1_3 t) (ms1_4 t) (hs1_4 t) scM (Memref.isWhole_whole _)

/-- The tables, one by one. -/
theorem tabs_eq (c : Dev nD) : (tabs (F := F) c : sProp 𝕄) = iprop(tbPt fullShare c tbM0 (tblC (F := F) 0) ∗ tbPt fullShare c tbM1 (tblC (F := F) 1)) := by
  unfold tabs Pipeline.prefHeld
  rw [show (Finset.univ : Finset (Fin 2)) = insert (0 : Fin 2) {(1 : Fin 2)} from by decide,
    bigSep_insert (by decide), bigSep_singleton]
  rfl

/-- The words the body loads from the tables at a point are the point's tile pair. -/
theorem w1_tbl (i : grid1.Coords) (c : Dev nD) : w1 (F := F) i c (tblC (F := F) 0) = lit0 (pt i) := by
  unfold w1
  show lit0 (S36.rowMajor ((Rect.unit (s := S36) (k1_off1 i) S1.size (k1_off1_inb i)).emb _)) = _
  exact congrArg lit0 (unit_pos i _)
theorem w3_tbl (i : grid1.Coords) (c : Dev nD) : w3 (F := F) i c (tblC (F := F) 1) = lit1 (pt i) := by
  unfold w3
  show lit1 (S36.rowMajor ((Rect.unit (s := S36) (k1_off1 i) S1.size (k1_off1_inb i)).emb _)) = _
  exact congrArg lit1 (unit_pos i _)

/-- What the body is called with at point `t`, the windows one by one, -/
def bodyPre1 (c : Dev nD) (t : Fin (cfgT (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin (cfgT (F := F)).N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any point. The inputs' memrefs hold their blocks; the tables' words are the point's tile pair, which says which
    of the four cases the point is in (first column tile or not: the accumulator restarts from zeros or continues; diagonal
    or not: the output is stored or left as found, and there the pipeline does not write it back); the invariant hands the
    body the scratch at what the point before left and takes it back at this point's accumulation. -/
theorem sound_body1 (c : Dev nD) (t : Fin (cfgT (F := F)).N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ, tabs_eq]
  rw [show (dat1 V c).leavesExact 0 t = owns (c : Thread nD τ) (ms1_0 t) fullShare ((dat1 V c).after 0 t) from rfl, after1_0,
    show (dat1 V c).leavesExact 1 t = owns (c : Thread nD τ) (ms1_1 t) fullShare ((dat1 V c).after 1 t) from rfl, after1_1,
    show (dat1 V c).leavesExact 2 t = owns (c : Thread nD τ) (ms1_2 t) fullShare ((dat1 V c).after 2 t) from rfl, after1_2,
    show (dat1 V c).leavesExact 3 t = owns (c : Thread nD τ) (ms1_3 t) fullShare ((dat1 V c).after 3 t) from rfl, after1_3]
  have hpt : pt (grid1.coords t) = ptT t := pt_coords t
  have hw1 : w1 (F := F) (grid1.coords t) c (tblC (F := F) 0) = wRow t := by rw [w1_tbl, hpt]; rfl
  have hw3 : w3 (F := F) (grid1.coords t) c (tblC (F := F) 1) = wCol t := by rw [w3_tbl, hpt]; rfl
  have hlive : wCol t = wRow t → (cfgT (F := F)).idle 4 ((cfgT (F := F)).grid.coords t) = false := fun hd => by
    rw [idle4_eq, pt_coords, decide_eq_true (show lit1 (ptT t) = lit0 (ptT t) from hd)]; rfl
  have hidle : ¬ wCol t = wRow t → (cfgT (F := F)).idle 4 ((cfgT (F := F)).grid.coords t) = true := fun hd => by
    rw [idle4_eq, pt_coords, decide_eq_false (show ¬ lit1 (ptT t) = lit0 (ptT t) from hd)]; rfl
  have hnoflush : ¬ wCol t = wRow t → ((cfgT (F := F)).win 4).flush t = false := fun hd => by
    cases hf : ((cfgT (F := F)).win 4).flush t with
    | false => rfl
    | true => exact absurd ((flush4_iff t).mp hf) hd
  by_cases hr : wCol t = 0#32
  · by_cases hd : wCol t = wRow t
    ·
      have hacc : accAfter V c t.val t.isLt = accOut (w1 (grid1.coords t) c (tblC (F := F) 0)) (w3 (grid1.coords t) c (tblC (F := F) 1)) (iblk1 V c 0 t) (iblk1 V c 1 t) (iblk1 V c 3 t) (k1_pay2 (F := F)) (iblk1 V c 2 t) := by
        rw [accAfter_reset V c t hr]; unfold accStep accOut; rw [hw1, hw3]
      rw [show (dat1 V c).leavesExact 4 t = owns (c : Thread nD τ) (ms1_4 t) fullShare ((dat1 V c).after 4 t) from by
        unfold Dat.leavesExact; rw [hlive hd]; rfl, after1_4, hacc]
      by_cases hz : t.val = 0
      · rw [PhiS_castSucc V c t, PhiS_zero V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TT fullShare c Set.univ (grid1.coords t) _ _ _ _ _ _ _ _ _ _ (iblk1 V c 0 t) (iblk1 V c 1 t) (iblk1 V c 2 t) (iblk1 V c 3 t) (tblC 0) (tblC 1) ((cond1_iff _).mpr (hw3.trans hr)) ((cond2_iff _ _).mpr (hw3.trans (hd.trans hw1.symm))) _)
        isplitl [H0]; · iexact H0
        isplitl [H1]; · iexact H1
        isplitl [H2]; · iexact H2
        isplitl [H3]; · iexact H3
        isplitl [H4]; · iexists _; iexact H4
        isplitl [HS]; · iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexact H4
      · rw [PhiS_castSucc V c t, PhiS_pos V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TT fullShare c Set.univ (grid1.coords t) _ _ _ _ _ _ _ _ _ _ (iblk1 V c 0 t) (iblk1 V c 1 t) (iblk1 V c 2 t) (iblk1 V c 3 t) (tblC 0) (tblC 1) ((cond1_iff _).mpr (hw3.trans hr)) ((cond2_iff _ _).mpr (hw3.trans (hd.trans hw1.symm))) _)
        isplitl [H0]; · iexact H0
        isplitl [H1]; · iexact H1
        isplitl [H2]; · iexact H2
        isplitl [H3]; · iexact H3
        isplitl [H4]; · iexists _; iexact H4
        isplitl [HS]; · iexists _; iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexact H4
    ·
      have hacc : accAfter V c t.val t.isLt = accOut (w1 (grid1.coords t) c (tblC (F := F) 0)) (w3 (grid1.coords t) c (tblC (F := F) 1)) (iblk1 V c 0 t) (iblk1 V c 1 t) (iblk1 V c 3 t) (k1_pay2 (F := F)) (iblk1 V c 2 t) := by
        rw [accAfter_reset V c t hr]; unfold accStep accOut; rw [hw1, hw3]
      rw [Dat.leavesExact_idle (dat1 V c) 4 t (hidle hd) (hnoflush hd)]
      rw [hacc]
      by_cases hz : t.val = 0
      · rw [PhiS_castSucc V c t, PhiS_zero V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TF fullShare c Set.univ (grid1.coords t) _ _ _ _ _ _ _ _ _ _ (iblk1 V c 0 t) (iblk1 V c 1 t) (iblk1 V c 2 t) (iblk1 V c 3 t) ((dat1 V c).before 4 t d4) (tblC 0) (tblC 1) ((cond1_iff _).mpr (hw3.trans hr)) (fun h => hd (hw3.symm.trans (((cond2_iff _ _).mp h).trans hw1))) _)
        isplitl [H0]; · iexact H0
        isplitl [H1]; · iexact H1
        isplitl [H2]; · iexact H2
        isplitl [H3]; · iexact H3
        isplitl [H4]; · iexact H4
        isplitl [HS]; · iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz, tabs_eq]
        iintro ⟨⟨⟨HT0, HT1⟩, Hg, H11, HS⟩, Ho, ⟨%d0, H0⟩, ⟨%d1, H1⟩, ⟨%d2, H2⟩, ⟨%d3, H3⟩, ⟨%d4, H4⟩⟩
        iapply (run_TF fullShare c Set.univ (grid1.coords t) _ _ _ _ _ _ _ _ _ _ (iblk1 V c 0 t) (iblk1 V c 1 t) (iblk1 V c 2 t) (iblk1 V c 3 t) ((dat1 V c).before 4 t d4) (tblC 0) (tblC 1) ((cond1_iff _).mpr (hw3.trans hr)) (fun h => hd (hw3.symm.trans (((cond2_iff _ _).mp h).trans hw1))) _)
        isplitl [H0]; · iexact H0
        isplitl [H1]; · iexact H1
        isplitl [H2]; · iexact H2
        isplitl [H3]; · iexact H3
        isplitl [H4]; · iexact H4
        isplitl [HS]; · iexists _; iexact HS
        isplitl [HT0]; · iexact HT0
        isplitl [HT1]; · iexact HT1
        iintro ⟨H0, H1, H2, H3, H4, HS, HT0, HT1⟩
        isplitl [HT0 HT1 Hg H11 HS]
        · isplitl [HT0 HT1]
          · isplitl [HT0]; · iexact HT0
            iexact HT1
          isplitl [Hg]; · iexact Hg
          isplitl [H11]; · iexact H11
          iexact HS
        isplitl [Ho]; · iexact Ho
        isplitl [H0]; · iexact H0
        isplitl [H1]; · iexact H1
        isplitl [H2]; · iexact H2
        isplitl [H3]; · iexact H3
        iexists _; iexact H4
  · by_cases hd : wCol t = wRow t
    ·
      have hz : t.val ≠ 0 := fun h => hr (wCol_zero t h)
      have hacc : accAfter V c t.val t.isLt = accOut (w1 (grid1.coords t) c (tblC (F := F) 0)) (w3 (grid1.coords t) c (tblC (F := F) 1)) (iblk1 V c 0 t) (iblk1 V c 1 t) (iblk1 V c 3 t) (accAfter V c (t.val - 1) (Nat.lt_of_le_of_lt (Nat.sub_le _ _) t.isLt)) (iblk1 V c 2 t) := by
        rw [accAfter_step V c t hr hz]; unfold accStep accOut; rw [hw1, hw3]
      rw [show (dat1 V c).leavesExact 4 t = owns (c : Thread nD τ) (ms1_4 t) fullShare ((dat1 V c).after 4 t) from by
        unfold Dat.leavesExact; rw [hlive hd]; rfl, after1_4, hacc]
      rw [PhiS_castSucc V c t, PhiS_pos V c _ _ hz, tabs_eq]
      iintro ⟨⟨⟨HT0, HT1⟩, Hg, H11, HS⟩, Ho, ⟨%d0, H0⟩, ⟨%d1, H1⟩, ⟨%d2, H2⟩, ⟨%d3, H3⟩, ⟨%d4, H4⟩⟩
      iapply (run_FT fullShare c Set.univ (grid1.coords t) _ _ _ _ _ _ _ _ _ _ (iblk1 V c 0 t) (iblk1 V c 1 t) (iblk1 V c 2 t) (iblk1 V c 3 t) (accAfter V c (t.val - 1) (Nat.lt_of_le_of_lt (Nat.sub_le _ _) t.isLt)) (tblC 0) (tblC 1) (fun h => hr (hw3.symm.trans ((cond1_iff _).mp h))) ((cond2_iff _ _).mpr (hw3.trans (hd.trans hw1.symm))) _)
      isplitl [H0]; · iexact H0
      isplitl [H1]; · iexact H1
      isplitl [H2]; · iexact H2
      isplitl [H3]; · iexact H3
      isplitl [H4]; · iexists _; iexact H4
      isplitl [HS]; · iexact HS
      isplitl [HT0]; · iexact HT0
      isplitl [HT1]; · iexact HT1
      iintro ⟨H0, H1, H2, H3, H4, HS, HT0, HT1⟩
      isplitl [HT0 HT1 Hg H11 HS]
      · isplitl [HT0 HT1]
        · isplitl [HT0]; · iexact HT0
          iexact HT1
        isplitl [Hg]; · iexact Hg
        isplitl [H11]; · iexact H11
        iexact HS
      isplitl [Ho]; · iexact Ho
      isplitl [H0]; · iexact H0
      isplitl [H1]; · iexact H1
      isplitl [H2]; · iexact H2
      isplitl [H3]; · iexact H3
      iexact H4
    ·
      have hz : t.val ≠ 0 := fun h => hr (wCol_zero t h)
      have hacc : accAfter V c t.val t.isLt = accOut (w1 (grid1.coords t) c (tblC (F := F) 0)) (w3 (grid1.coords t) c (tblC (F := F) 1)) (iblk1 V c 0 t) (iblk1 V c 1 t) (iblk1 V c 3 t) (accAfter V c (t.val - 1) (Nat.lt_of_le_of_lt (Nat.sub_le _ _) t.isLt)) (iblk1 V c 2 t) := by
        rw [accAfter_step V c t hr hz]; unfold accStep accOut; rw [hw1, hw3]
      rw [Dat.leavesExact_idle (dat1 V c) 4 t (hidle hd) (hnoflush hd)]
      rw [hacc]
      rw [PhiS_castSucc V c t, PhiS_pos V c _ _ hz, tabs_eq]
      iintro ⟨⟨⟨HT0, HT1⟩, Hg, H11, HS⟩, Ho, ⟨%d0, H0⟩, ⟨%d1, H1⟩, ⟨%d2, H2⟩, ⟨%d3, H3⟩, ⟨%d4, H4⟩⟩
      iapply (run_FF fullShare c Set.univ (grid1.coords t) _ _ _ _ _ _ _ _ _ _ (iblk1 V c 0 t) (iblk1 V c 1 t) (iblk1 V c 2 t) (iblk1 V c 3 t) (accAfter V c (t.val - 1) (Nat.lt_of_le_of_lt (Nat.sub_le _ _) t.isLt)) ((dat1 V c).before 4 t d4) (tblC 0) (tblC 1) (fun h => hr (hw3.symm.trans ((cond1_iff _).mp h))) (fun h => hd (hw3.symm.trans (((cond2_iff _ _).mp h).trans hw1))) _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, HS, HT0, HT1⟩
      isplitl [HT0 HT1 Hg H11 HS]
      · isplitl [HT0 HT1]
        · isplitl [HT0]; · iexact HT0
          iexact HT1
        isplitl [Hg]; · iexact Hg
        isplitl [H11]; · iexact H11
        iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1
end
-- ==== Proof.KI.Main.lean ====
/- The run of @main of the idealized kernel program, assembled: the contents the two regions leave
   are DEFINED from the regions' proof data — each region's arrays at what its write-backs leave,
   every other buffer as it was — so that the boundary contents of the run are those definitions by
   construction. From them: the run theorem whose post names the result buffer's final contents,
   the frame claim as its corollary, and the equations that say where each region's operands come
   from (the arguments as launched; the three projections where the first region left them). -/
import proofs.«162603_j30889404792899_1_alg».proof.Proof.KI.Seg1
import proofs.«162603_j30889404792899_1_alg».proof.Proof.KI.Obl1

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave, defined from the proof data -/

/-- The TensorCore's buffers after the first region: its seven arrays at what the pipeline's
    write-backs leave (an input's array as entered), every other buffer as entered. -/
def after0 (c : Dev nD) : Valuation τ sig (Elt F) :=
  Pipeline.withArrays spec0 c (V1 m c) fun w => (R0.dat0 (E1 m) c).arrAt w cfg0.N

/-- The same read at the TensorCore's references: the unknowns of the second boundary. -/
def outs2 : (r : Ref sig .tc) → (c : Dev nD) → Buf (Elt F) ((c : Thread nD τ).loc r) := fun r c => after0 m c r

/-- The second region's proof data, at the contents the first region leaves. -/
abbrev D1 (c : Dev nD) : Dat τ (Elt F) Unit ℕ (UR sig nD τ) ℕ (R1.cfgT (F := F)) c :=
  R1.dat1 (E2 m fun _ => outs2 m) c

/-- The TensorCore's buffers after the second region: its five arrays at what the pipeline's
    write-backs leave, every other buffer as the first region left it. -/
def after1 (c : Dev nD) : Valuation τ sig (Elt F) :=
  Pipeline.withArrays spec1 c (V2 m (fun _ => outs2 m) c) fun w => (D1 m c).arrAt w (R1.cfgT (F := F)).N

/-- The unknowns of the boundaries: at the last boundary what the second region leaves, before
    it what the first region leaves. The second boundary reads them at its own index only. -/
def outs : Outs (F := F)
  | 3 => fun r c => after1 m c r
  | _ => outs2 m

theorem outs_two : outs m 2 = outs2 m := rfl
theorem E2_outs : E2 m (outs m) = E2 m (fun _ => outs2 m) := rfl

/-- The first region's three output arrays at the second boundary. -/
theorem after0_arr (c : Dev nD) (w : Fin cfg0.W) :
    after0 m c (Proc.devRef .tc (Pipeline.arrRef spec0 w)) = (R0.dat0 (E1 m) c).arrAt w cfg0.N := by
  unfold after0; exact Pipeline.withArrays_arr spec0 (launch0 (F := F)).win.arr_inj c _ _ w
theorem outs_v0_0 (c : Dev nD) : outs m 2 main_v0_0 c = (R0.dat0 (E1 m) c).arrAt 4 cfg0.N := after0_arr m c 4
theorem outs_v0_1 (c : Dev nD) : outs m 2 main_v0_1 c = (R0.dat0 (E1 m) c).arrAt 5 cfg0.N := after0_arr m c 5
theorem outs_v0_2 (c : Dev nD) : outs m 2 main_v0_2 c = (R0.dat0 (E1 m) c).arrAt 6 cfg0.N := after0_arr m c 6

/-- The second region's output array at the last boundary. -/
theorem after1_arr (c : Dev nD) (w : Fin (R1.cfgT (F := F)).W) :
    after1 m c (Proc.devRef .tc (Pipeline.arrRef spec1 w)) = (D1 m c).arrAt w (R1.cfgT (F := F)).N := by
  unfold after1; exact Pipeline.withArrays_arr spec1 (launch1 (F := F)).win.arr_inj c _ _ w
theorem outs_v1 (c : Dev nD) : outs m 3 main_v1 c = (D1 m c).arrAt 4 (R1.cfgT (F := F)).N := after1_arr m c 4

/-- The second region's proof data meets what the run needs of it. -/
theorem facts1 : Facts1 m (outs m) (fun c => R1.dat1 (E2 m (outs m)) c) where
  hA _ _ := rfl
  hq _ _ := rfl
  howed _ _ := rfl
  hrec _ _ := rfl
  hbody c := R1.body_obligation1 _ c
  hin c := R1.phi_in _ c
  hout c := R1.phi_out _ c
  hres c := outs_v1 m c

/-! ## The run and the frame -/

/-- THE RUN OF @main. Every weakly fair execution from memory `m` terminates, and every final
    memory holds the result buffer at what the second region's write-backs leave in its output
    array, and each argument as launched. -/
theorem main_run (ρ : Dev nD → PrngReg) :
    θ_run defs (onTc (τ := τ) (main (F := F))) ⟨m, fun _ => 0, ρ⟩ (fun r => ∀ c : Dev nD,
      r.2.mem ((c.tc : Thread nD τ).loc main_v1) = (R1.dat1 (E2 m (outs m)) c).arrAt 4 (R1.cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (outs_v1 m c), (h c).2⟩)
    (run_of_data m (outs m) (fun c => R1.dat1 (E2 m (outs m)) c) ρ (outs_v0_0 m) (outs_v0_1 m) (outs_v0_2 m) (facts1 m))

/-- THE FRAME: every weakly fair execution of @main from memory `m` terminates, nothing faulting,
    and every final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (main_run m ρ)

/-! ## The second region's operands, for the value side -/

/-- The second region reads the three projections where the first region's write-backs left them, -/
theorem E2_main_v0_0 (c : Dev nD) : E2 m (outs m) c main_v0_0 = (R0.dat0 (E1 m) c).arrAt 4 cfg0.N :=
  (V2_main_v0_0 m (outs m) c).trans (outs_v0_0 m c)
theorem E2_main_v0_1 (c : Dev nD) : E2 m (outs m) c main_v0_1 = (R0.dat0 (E1 m) c).arrAt 5 cfg0.N :=
  (V2_main_v0_1 m (outs m) c).trans (outs_v0_1 m c)
theorem E2_main_v0_2 (c : Dev nD) : E2 m (outs m) c main_v0_2 = (R0.dat0 (E1 m) c).arrAt 6 cfg0.N :=
  (V2_main_v0_2 m (outs m) c).trans (outs_v0_2 m c)

/-- and the mask operand as launched: no host constant writes it and the first region does not
    touch it. -/
theorem E2_main_arg4 (c : Dev nD) : E2 m (outs m) c main_arg4 = m ((c.tc : Thread nD τ).loc main_arg4) :=
  (V2_of m (outs m) c main_arg4 (by decide)).trans ((V1_of m c main_arg4 (by decide)).trans rfl)

/-- The first region reads its four operands as launched: no host constant writes an argument. -/
theorem E1_main_arg0 (c : Dev nD) : E1 m c main_arg0 = m ((c.tc : Thread nD τ).loc main_arg0) := (V1_of m c main_arg0 (by decide)).trans rfl
theorem E1_main_arg1 (c : Dev nD) : E1 m c main_arg1 = m ((c.tc : Thread nD τ).loc main_arg1) := (V1_of m c main_arg1 (by decide)).trans rfl
theorem E1_main_arg2 (c : Dev nD) : E1 m c main_arg2 = m ((c.tc : Thread nD τ).loc main_arg2) := (V1_of m c main_arg2 (by decide)).trans rfl
theorem E1_main_arg3 (c : Dev nD) : E1 m c main_arg3 = m ((c.tc : Thread nD τ).loc main_arg3) := (V1_of m c main_arg3 (by decide)).trans rfl

end Cert.KernelIdeal.Run

end
-- ==== Proof.KI.Value0.lean ====
/- REGION 0 at exact arithmetic: what the projection region leaves in each of its three output arrays, as one
   function of the arrays it was entered with — the row array times a weight array, element by element — and that
   its four input arrays are as it found them. -/
import proofs.«162603_j30889404792899_1_alg».proof.Proof.KI.Region0
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix product, index by index -/

/-- Rows of `X` against columns of `W`: entry (r, n) is the sum over `d` of `X r d * W d n`. -/
def proj (X : S8192x512.Idx → EReal) (W : S512x64.Idx → EReal) : S8192x64.Idx → EReal :=
  fun i => ∑ d : Fin 512, X (ix2 ⟨(i 0).val, (i 0).isLt⟩ d) * W (ix2 d ⟨(i 1).val, (i 1).isLt⟩)

/-- Entry (r, n) of the product, spelt out. -/
theorem proj_apply (X : S8192x512.Idx → EReal) (W : S512x64.Idx → EReal) (r : Fin 8192) (n : Fin 64) :
    proj X W (ix2 r n) = ∑ d : Fin 512, X (ix2 r d) * W (ix2 d n) := rfl

theorem zeros2 : (![0, 0] : Fin 2 → Nat) = fun _ => 0 := funext fun a => by fin_cases a <;> rfl

/-! The contraction of a [1024,512] block with a [512,64] block over the shared axis: where each operand is read. -/

theorem lhs_row (i : S1024x64.Idx) (k : dot_S1024x512_S512x64_S1024x64_1_0_0_1_n_n.contr.Idx) :
    (dot_S1024x512_S512x64_S1024x64_1_0_0_1_n_n.lhsIdx i k 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem lhs_contr (i : S1024x64.Idx) (k : dot_S1024x512_S512x64_S1024x64_1_0_0_1_n_n.contr.Idx) :
    (dot_S1024x512_S512x64_S1024x64_1_0_0_1_n_n.lhsIdx i k 1).val = (k ⟨0, by decide⟩).val :=
  dot_S1024x512_S512x64_S1024x64_1_0_0_1_n_n.lhsIdx_val_of_single rfl i k
theorem rhs_contr (i : S1024x64.Idx) (k : dot_S1024x512_S512x64_S1024x64_1_0_0_1_n_n.contr.Idx) :
    (dot_S1024x512_S512x64_S1024x64_1_0_0_1_n_n.rhsIdx i k 0).val = (k ⟨0, by decide⟩).val :=
  dot_S1024x512_S512x64_S1024x64_1_0_0_1_n_n.rhsIdx_val_of_single rfl i k
theorem rhs_col (i : S1024x64.Idx) (k : dot_S1024x512_S512x64_S1024x64_1_0_0_1_n_n.contr.Idx) :
    (dot_S1024x512_S512x64_S1024x64_1_0_0_1_n_n.rhsIdx i k 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The block product accumulated onto zero, at row `p` and column `q`: the sum over the shared axis. -/
theorem blockProduct_apply (x : FVec Ideal S1024x512 .bf16) (w : FVec Ideal S512x64 .bf16) (p : Fin 1024) (q : Fin 64) :
    matmul (F := Ideal) dot_S1024x512_S512x64_S1024x64_1_0_0_1_n_n none x w (constant (F := Ideal) S1024x64 .f32 0x00000000#32) (ix2 p q)
      = ∑ d : Fin 512, x (ix2 p d) * w (ix2 d q) := by
  simp only [matmul]
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 p q) ((contrEquiv1 dot_S1024x512_S512x64_S1024x64_1_0_0_1_n_n 512 rfl rfl).symm k) = ix2 p k := funext fun a => Fin.ext (by
    match a with
    | ⟨0, _⟩ => exact lhs_row _ _
    | ⟨1, _⟩ => exact (lhs_contr _ _).trans hk)
  have er : dot_S1024x512_S512x64_S1024x64_1_0_0_1_n_n.rhsIdx (ix2 p q) ((contrEquiv1 dot_S1024x512_S512x64_S1024x64_1_0_0_1_n_n 512 rfl rfl).symm k) = ix2 k q := funext fun a => Fin.ext (by
    match a with
    | ⟨0, _⟩ => exact (rhs_contr _ _).trans hk
    | ⟨1, _⟩ => exact rhs_col _ _)
  rw [el, er]

/-! ## Where the windows' blocks sit, decided once over the eight points -/

/-- The row window and the three output windows move down one block of 1024 rows per point; the weight windows stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-! ## The input windows' blocks as reads of the whole arrays -/

/-- The row window's block at point `t` is rows `1024 t … 1024 t + 1023` of the row array. -/
theorem rowBlock_apply (c : Dev nD) (t : Fin cfg0.N) (p : Fin 1024) (d : Fin 512) (r : Fin 8192) (hr : r.val = t.val * 1024 + p.val) :
    (iblk0 V c 0 t : Vec Ideal S1024x512 .f32) (ix2 p d) = (V c main_arg0 : S8192x512.Idx → EReal) (ix2 r d) := by
  obtain ⟨ex0, ex1, eq0, eq1, ek0, ek1, ev0, ev1, e40, e41, e50, e51, e60, e61⟩ := index_facts t
  unfold iblk0
  rw [View.read_apply]
  show V c main_arg0 (((cfg0.win 0).blk t).view.emb (ix2 p d)) = V c main_arg0 (ix2 r d)
  congr 1
  funext a
  apply Fin.ext
  match a with
  | ⟨0, _⟩ => show win0_0.index t (0 : Fin 2) * 1024 + 1 * p.val = r.val; rw [ex0, hr]; omega
  | ⟨1, _⟩ => show win0_0.index t (1 : Fin 2) * 512 + 1 * d.val = d.val; rw [ex1]; omega

/-- The query weight window's block at any point is the whole weight array. -/
theorem weight1_apply (c : Dev nD) (t : Fin cfg0.N) (d : Fin 512) (q : Fin 64) (n : Fin 64) (hn : n.val = q.val) :
    (iblk0 V c 1 t : Vec Ideal S512x64 .f32) (ix2 d q) = (V c main_arg1 : S512x64.Idx → EReal) (ix2 d n) := by
  obtain ⟨ex0, ex1, eq0, eq1, ek0, ek1, ev0, ev1, e40, e41, e50, e51, e60, e61⟩ := index_facts t
  unfold iblk0
  rw [View.read_apply]
  show V c main_arg1 (((cfg0.win 1).blk t).view.emb (ix2 d q)) = V c main_arg1 (ix2 d n)
  congr 1
  funext a
  apply Fin.ext
  match a with
  | ⟨0, _⟩ => show win0_1.index t (0 : Fin 2) * 512 + 1 * d.val = d.val; rw [eq0]; omega
  | ⟨1, _⟩ => show win0_1.index t (1 : Fin 2) * 64 + 1 * q.val = n.val; rw [eq1, hn]; omega

/-- The key weight window's block at any point is the whole weight array. -/
theorem weight2_apply (c : Dev nD) (t : Fin cfg0.N) (d : Fin 512) (q : Fin 64) (n : Fin 64) (hn : n.val = q.val) :
    (iblk0 V c 2 t : Vec Ideal S512x64 .f32) (ix2 d q) = (V c main_arg2 : S512x64.Idx → EReal) (ix2 d n) := by
  obtain ⟨ex0, ex1, eq0, eq1, ek0, ek1, ev0, ev1, e40, e41, e50, e51, e60, e61⟩ := index_facts t
  unfold iblk0
  rw [View.read_apply]
  show V c main_arg2 (((cfg0.win 2).blk t).view.emb (ix2 d q)) = V c main_arg2 (ix2 d n)
  congr 1
  funext a
  apply Fin.ext
  match a with
  | ⟨0, _⟩ => show win0_2.index t (0 : Fin 2) * 512 + 1 * d.val = d.val; rw [ek0]; omega
  | ⟨1, _⟩ => show win0_2.index t (1 : Fin 2) * 64 + 1 * q.val = n.val; rw [ek1, hn]; omega

/-- The value weight window's block at any point is the whole weight array. -/
theorem weight3_apply (c : Dev nD) (t : Fin cfg0.N) (d : Fin 512) (q : Fin 64) (n : Fin 64) (hn : n.val = q.val) :
    (iblk0 V c 3 t : Vec Ideal S512x64 .f32) (ix2 d q) = (V c main_arg3 : S512x64.Idx → EReal) (ix2 d n) := by
  obtain ⟨ex0, ex1, eq0, eq1, ek0, ek1, ev0, ev1, e40, e41, e50, e51, e60, e61⟩ := index_facts t
  unfold iblk0
  rw [View.read_apply]
  show V c main_arg3 (((cfg0.win 3).blk t).view.emb (ix2 d q)) = V c main_arg3 (ix2 d n)
  congr 1
  funext a
  apply Fin.ext
  match a with
  | ⟨0, _⟩ => show win0_3.index t (0 : Fin 2) * 512 + 1 * d.val = d.val; rw [ev0]; omega
  | ⟨1, _⟩ => show win0_3.index t (1 : Fin 2) * 64 + 1 * q.val = n.val; rw [ev1, hn]; omega

/-! ## Output window 4: the query array -/

/-- The body's single whole-block store leaves its payload. -/
theorem out0_4_eq {F : FTy → Type} [FloatOps F] (x : Vec F S1024x512 .f32) (w : Vec F S512x64 .f32) : out0_4 x w = k0_pay2 x w := by
  unfold out0_4 rO rX rW
  rw [View.canon_unit_zero zeros2]
  simp only [View.ld_unit_zero (S := S1024x512) zeros2, View.ld_unit_zero (S := S512x64) zeros2]

/-- The payload at row `p`, column `q` of the block: the row of `x` against the column of `w`. -/
theorem k0_pay2_apply (x : Vec Ideal S1024x512 .f32) (w : Vec Ideal S512x64 .f32) (p : Fin 1024) (q : Fin 64) :
    k0_pay2 (F := Ideal) x w (ix2 p q) = ∑ d : Fin 512, x (ix2 p d) * w (ix2 d q) := by
  unfold k0_pay2 k0_pay1
  exact (blockProduct_apply _ _ p q).trans (Finset.sum_congr rfl fun d _ => rfl)

/-- An index of the query array lies in point `t`'s block iff each coordinate lies in the block's range. -/
theorem mem_blk4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v0_0).slice (win0_4.rect t)).set ↔ _
  rw [View.set_slice_whole, Rect.mem_set_unit]
  exact Iff.rfl

/-- What point `t` writes back is block `t` of the product of the whole arrays. -/
theorem flushed4_eq (c : Dev nD) (t : Fin cfg0.N) :
    (dat0 V c).flushed 4 t = ((cfg0.win 4).blk t).view.read (Elt Ideal) (proj (V c main_arg0) (V c main_arg1)) := by
  show (cfg0.win 4).cut (grid0.coords t) ((dat0 V c).after 4 t) = _
  rw [after0_4, out0_4_eq]
  funext j
  obtain ⟨p, q, rfl⟩ : ∃ (p : Fin 1024) (q : Fin 64), j = ix2 p q := ⟨j 0, j 1, eq_ix2 j⟩
  show k0_pay2 (F := Ideal) (iblk0 V c 0 t) (iblk0 V c 1 t) (ix2 p q) = proj (V c main_arg0) (V c main_arg1) (((cfg0.win 4).blk t).view.emb (ix2 p q))
  refine (k0_pay2_apply _ _ p q).trans ?_
  obtain ⟨ex0, ex1, eq0, eq1, ek0, ek1, ev0, ev1, e40, e41, e50, e51, e60, e61⟩ := index_facts t
  have hrow : ((((cfg0.win 4).blk t).view.emb (ix2 p q)) 0).val = t.val * 1024 + p.val := by
    show win0_4.index t (0 : Fin 2) * 1024 + 1 * p.val = _; rw [e40]; omega
  have hcol : ((((cfg0.win 4).blk t).view.emb (ix2 p q)) 1).val = q.val := by
    show win0_4.index t (1 : Fin 2) * 64 + 1 * q.val = _; rw [e41]; omega
  unfold proj
  refine Finset.sum_congr rfl fun d _ => ?_
  rw [rowBlock_apply V c t p d ⟨_, (((cfg0.win 4).blk t).view.emb (ix2 p q) 0).isLt⟩ hrow,
    weight1_apply V c t d q ⟨_, (((cfg0.win 4).blk t).view.emb (ix2 p q) 1).isLt⟩ hcol]

/-- Every index of the query array is in the block of the point its row falls in. -/
theorem cover4 (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have hN : grid0.N = 8 := N_0
  have hlt : (i 0).val / 1024 < grid0.N := by omega
  obtain ⟨ex0, ex1, eq0, eq1, ek0, ek1, ev0, ev1, e40, e41, e50, e51, e60, e61⟩ := index_facts ⟨(i 0).val / 1024, hlt⟩
  refine ⟨⟨(i 0).val / 1024, hlt⟩, flush0_4 _, ?_⟩
  rw [mem_blk4]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win0_4.index ⟨(i 0).val / 1024, hlt⟩ (1 : Fin 2) * 64 ≤ (i 1).val ∧ (i 1).val < win0_4.index ⟨(i 0).val / 1024, hlt⟩ (1 : Fin 2) * 64 + 64
    rw [e41]; omega

/-- After the region the query array is the product of the row array with the query weights. -/
theorem final4 (c : Dev nD) : (dat0 V c).arrAt 4 cfg0.N = proj (V c main_arg0) (V c main_arg1) :=
  (dat0 V c).arrAt_eq_of_cover 4 (proj (V c main_arg0) (V c main_arg1)) (fun t _ => flushed4_eq V c t) cover4

/-- The same, element by element. -/
theorem final4_apply (c : Dev nD) (r : Fin 8192) (n : Fin 64) :
    ((dat0 (F := Ideal) V c).arrAt 4 cfg0.N) (ix2 r n) = proj (V c main_arg0) (V c main_arg1) (ix2 r n) :=
  congrFun (final4 V c) (ix2 r n)

/-! ## Output window 5: the key array -/

/-- The body's single whole-block store leaves its payload. -/
theorem out0_5_eq {F : FTy → Type} [FloatOps F] (x : Vec F S1024x512 .f32) (w : Vec F S512x64 .f32) : out0_5 x w = k0_pay3 x w := by
  unfold out0_5 rO rX rW
  rw [View.canon_unit_zero zeros2]
  simp only [View.ld_unit_zero (S := S1024x512) zeros2, View.ld_unit_zero (S := S512x64) zeros2]

/-- The payload at row `p`, column `q` of the block: the row of `x` against the column of `w`. -/
theorem k0_pay3_apply (x : Vec Ideal S1024x512 .f32) (w : Vec Ideal S512x64 .f32) (p : Fin 1024) (q : Fin 64) :
    k0_pay3 (F := Ideal) x w (ix2 p q) = ∑ d : Fin 512, x (ix2 p d) * w (ix2 d q) := by
  unfold k0_pay3 k0_pay1
  exact (blockProduct_apply _ _ p q).trans (Finset.sum_congr rfl fun d _ => rfl)

/-- An index of the key array lies in point `t`'s block iff each coordinate lies in the block's range. -/
theorem mem_blk5 (t : Fin cfg0.N) (i : S8192x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v0_1).slice (win0_5.rect t)).set ↔ _
  rw [View.set_slice_whole, Rect.mem_set_unit]
  exact Iff.rfl

/-- What point `t` writes back is block `t` of the product of the whole arrays. -/
theorem flushed5_eq (c : Dev nD) (t : Fin cfg0.N) :
    (dat0 V c).flushed 5 t = ((cfg0.win 5).blk t).view.read (Elt Ideal) (proj (V c main_arg0) (V c main_arg2)) := by
  show (cfg0.win 5).cut (grid0.coords t) ((dat0 V c).after 5 t) = _
  rw [after0_5, out0_5_eq]
  funext j
  obtain ⟨p, q, rfl⟩ : ∃ (p : Fin 1024) (q : Fin 64), j = ix2 p q := ⟨j 0, j 1, eq_ix2 j⟩
  show k0_pay3 (F := Ideal) (iblk0 V c 0 t) (iblk0 V c 2 t) (ix2 p q) = proj (V c main_arg0) (V c main_arg2) (((cfg0.win 5).blk t).view.emb (ix2 p q))
  refine (k0_pay3_apply _ _ p q).trans ?_
  obtain ⟨ex0, ex1, eq0, eq1, ek0, ek1, ev0, ev1, e40, e41, e50, e51, e60, e61⟩ := index_facts t
  have hrow : ((((cfg0.win 5).blk t).view.emb (ix2 p q)) 0).val = t.val * 1024 + p.val := by
    show win0_5.index t (0 : Fin 2) * 1024 + 1 * p.val = _; rw [e50]; omega
  have hcol : ((((cfg0.win 5).blk t).view.emb (ix2 p q)) 1).val = q.val := by
    show win0_5.index t (1 : Fin 2) * 64 + 1 * q.val = _; rw [e51]; omega
  unfold proj
  refine Finset.sum_congr rfl fun d _ => ?_
  rw [rowBlock_apply V c t p d ⟨_, (((cfg0.win 5).blk t).view.emb (ix2 p q) 0).isLt⟩ hrow,
    weight2_apply V c t d q ⟨_, (((cfg0.win 5).blk t).view.emb (ix2 p q) 1).isLt⟩ hcol]

/-- Every index of the key array is in the block of the point its row falls in. -/
theorem cover5 (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  have hN : grid0.N = 8 := N_0
  have hlt : (i 0).val / 1024 < grid0.N := by omega
  obtain ⟨ex0, ex1, eq0, eq1, ek0, ek1, ev0, ev1, e40, e41, e50, e51, e60, e61⟩ := index_facts ⟨(i 0).val / 1024, hlt⟩
  refine ⟨⟨(i 0).val / 1024, hlt⟩, flush0_5 _, ?_⟩
  rw [mem_blk5]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win0_5.index ⟨(i 0).val / 1024, hlt⟩ (1 : Fin 2) * 64 ≤ (i 1).val ∧ (i 1).val < win0_5.index ⟨(i 0).val / 1024, hlt⟩ (1 : Fin 2) * 64 + 64
    rw [e51]; omega

/-- After the region the key array is the product of the row array with the key weights. -/
theorem final5 (c : Dev nD) : (dat0 V c).arrAt 5 cfg0.N = proj (V c main_arg0) (V c main_arg2) :=
  (dat0 V c).arrAt_eq_of_cover 5 (proj (V c main_arg0) (V c main_arg2)) (fun t _ => flushed5_eq V c t) cover5

/-- The same, element by element. -/
theorem final5_apply (c : Dev nD) (r : Fin 8192) (n : Fin 64) :
    ((dat0 (F := Ideal) V c).arrAt 5 cfg0.N) (ix2 r n) = proj (V c main_arg0) (V c main_arg2) (ix2 r n) :=
  congrFun (final5 V c) (ix2 r n)

/-! ## Output window 6: the value array -/

/-- The body's single whole-block store leaves its payload. -/
theorem out0_6_eq {F : FTy → Type} [FloatOps F] (x : Vec F S1024x512 .f32) (w : Vec F S512x64 .f32) : out0_6 x w = k0_pay4 x w := by
  unfold out0_6 rO rX rW
  rw [View.canon_unit_zero zeros2]
  simp only [View.ld_unit_zero (S := S1024x512) zeros2, View.ld_unit_zero (S := S512x64) zeros2]

/-- The payload at row `p`, column `q` of the block: the row of `x` against the column of `w`. -/
theorem k0_pay4_apply (x : Vec Ideal S1024x512 .f32) (w : Vec Ideal S512x64 .f32) (p : Fin 1024) (q : Fin 64) :
    k0_pay4 (F := Ideal) x w (ix2 p q) = ∑ d : Fin 512, x (ix2 p d) * w (ix2 d q) := by
  unfold k0_pay4 k0_pay1
  exact (blockProduct_apply _ _ p q).trans (Finset.sum_congr rfl fun d _ => rfl)

/-- An index of the value array lies in point `t`'s block iff each coordinate lies in the block's range. -/
theorem mem_blk6 (t : Fin cfg0.N) (i : S8192x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v0_2).slice (win0_6.rect t)).set ↔ _
  rw [View.set_slice_whole, Rect.mem_set_unit]
  exact Iff.rfl

/-- What point `t` writes back is block `t` of the product of the whole arrays. -/
theorem flushed6_eq (c : Dev nD) (t : Fin cfg0.N) :
    (dat0 V c).flushed 6 t = ((cfg0.win 6).blk t).view.read (Elt Ideal) (proj (V c main_arg0) (V c main_arg3)) := by
  show (cfg0.win 6).cut (grid0.coords t) ((dat0 V c).after 6 t) = _
  rw [after0_6, out0_6_eq]
  funext j
  obtain ⟨p, q, rfl⟩ : ∃ (p : Fin 1024) (q : Fin 64), j = ix2 p q := ⟨j 0, j 1, eq_ix2 j⟩
  show k0_pay4 (F := Ideal) (iblk0 V c 0 t) (iblk0 V c 3 t) (ix2 p q) = proj (V c main_arg0) (V c main_arg3) (((cfg0.win 6).blk t).view.emb (ix2 p q))
  refine (k0_pay4_apply _ _ p q).trans ?_
  obtain ⟨ex0, ex1, eq0, eq1, ek0, ek1, ev0, ev1, e40, e41, e50, e51, e60, e61⟩ := index_facts t
  have hrow : ((((cfg0.win 6).blk t).view.emb (ix2 p q)) 0).val = t.val * 1024 + p.val := by
    show win0_6.index t (0 : Fin 2) * 1024 + 1 * p.val = _; rw [e60]; omega
  have hcol : ((((cfg0.win 6).blk t).view.emb (ix2 p q)) 1).val = q.val := by
    show win0_6.index t (1 : Fin 2) * 64 + 1 * q.val = _; rw [e61]; omega
  unfold proj
  refine Finset.sum_congr rfl fun d _ => ?_
  rw [rowBlock_apply V c t p d ⟨_, (((cfg0.win 6).blk t).view.emb (ix2 p q) 0).isLt⟩ hrow,
    weight3_apply V c t d q ⟨_, (((cfg0.win 6).blk t).view.emb (ix2 p q) 1).isLt⟩ hcol]

/-- Every index of the value array is in the block of the point its row falls in. -/
theorem cover6 (i : S8192x64.Idx) :
    ∃ t : Fin cfg0.N, (cfg0.win 6).flush t = true ∧ i ∈ ((cfg0.win 6).blk t).view.set := by
  have hi0 : (i 0).val < 8192 := (i 0).isLt
  have hi1 : (i 1).val < 64 := (i 1).isLt
  have hN : grid0.N = 8 := N_0
  have hlt : (i 0).val / 1024 < grid0.N := by omega
  obtain ⟨ex0, ex1, eq0, eq1, ek0, ek1, ev0, ev1, e40, e41, e50, e51, e60, e61⟩ := index_facts ⟨(i 0).val / 1024, hlt⟩
  refine ⟨⟨(i 0).val / 1024, hlt⟩, flush0_6 _, ?_⟩
  rw [mem_blk6]
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    rw [e60]; show (i 0).val / 1024 * 1024 ≤ (i 0).val ∧ (i 0).val < (i 0).val / 1024 * 1024 + 1024; omega
  | ⟨1, _⟩ =>
    show win0_6.index ⟨(i 0).val / 1024, hlt⟩ (1 : Fin 2) * 64 ≤ (i 1).val ∧ (i 1).val < win0_6.index ⟨(i 0).val / 1024, hlt⟩ (1 : Fin 2) * 64 + 64
    rw [e61]; omega

/-- After the region the value array is the product of the row array with the value weights. -/
theorem final6 (c : Dev nD) : (dat0 V c).arrAt 6 cfg0.N = proj (V c main_arg0) (V c main_arg3) :=
  (dat0 V c).arrAt_eq_of_cover 6 (proj (V c main_arg0) (V c main_arg3)) (fun t _ => flushed6_eq V c t) cover6

/-- The same, element by element. -/
theorem final6_apply (c : Dev nD) (r : Fin 8192) (n : Fin 64) :
    ((dat0 (F := Ideal) V c).arrAt 6 cfg0.N) (ix2 r n) = proj (V c main_arg0) (V c main_arg3) (ix2 r n) :=
  congrFun (final6 V c) (ix2 r n)

/-! ## The input arrays are as the region found them -/

theorem kept0 (c : Dev nD) : (dat0 V c).arrAt 0 cfg0.N = V c (Pipeline.arrRef spec0 0) :=
  ((dat0 V c).arrAt_in 0 rfl _).trans (A_eq0 V c 0)
theorem kept1 (c : Dev nD) : (dat0 V c).arrAt 1 cfg0.N = V c (Pipeline.arrRef spec0 1) :=
  ((dat0 V c).arrAt_in 1 rfl _).trans (A_eq0 V c 1)
theorem kept2 (c : Dev nD) : (dat0 V c).arrAt 2 cfg0.N = V c (Pipeline.arrRef spec0 2) :=
  ((dat0 V c).arrAt_in 2 rfl _).trans (A_eq0 V c 2)
theorem kept3 (c : Dev nD) : (dat0 V c).arrAt 3 cfg0.N = V c (Pipeline.arrRef spec0 3) :=
  ((dat0 V c).arrAt_in 3 rfl _).trans (A_eq0 V c 3)

end Cert.KernelIdeal.R0

end
-- ==== Proof.KI.Blocks1.lean ====
/-
  Where the second region's input blocks sit in their arrays.

  At the point with tile pair (i, j) the query window holds rows 1024 i … 1024 i + 1023 of the projected queries,
  the key and value windows rows 1024 j … 1024 j + 1023 of the projected keys and values, and the weight window the
  (i, j) block of the weight matrix: entry (a, b) of a block is entry (1024 · tile + a, 1024 · tile + b) of its array.
-/
import proofs.«162603_j30889404792899_1_alg».proof.Proof.KI.Dat1
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R1

open Cert.KernelIdeal Cert.KernelIdeal.Gen
open Idealize.ShloMosaic Idealize.ShloMosaic.TcCoe Idealize.SL.Sem
open Idealize.ShloMosaic.Pipeline (Dat)
open Idealize.ShloMosaic.ValueIdx

/-! ## Where the windows' blocks sit -/

/-- The query window's block index at a point: the point's row tile. -/
theorem index0 (t : Fin (cfgT (F := Ideal)).N) : ((cfgT (F := Ideal)).win 0).index t = ![rowT (ptT t), 0] := by
  show cc1_transform_0 k1_off1_inb numel1_S1 (tblC (F := Ideal)) ((cfgT (F := Ideal)).grid.coords t) = _
  rw [tr0, pt_coords]
/-- The key window's: the column tile. -/
theorem index1 (t : Fin (cfgT (F := Ideal)).N) : ((cfgT (F := Ideal)).win 1).index t = ![colT (ptT t), 0] := by
  show cc1_transform_1 k1_off1_inb numel1_S1 (tblC (F := Ideal)) ((cfgT (F := Ideal)).grid.coords t) = _
  rw [tr1, pt_coords]
/-- The value window's: the column tile. -/
theorem index2 (t : Fin (cfgT (F := Ideal)).N) : ((cfgT (F := Ideal)).win 2).index t = ![colT (ptT t), 0] := by
  show cc1_transform_2 k1_off1_inb numel1_S1 (tblC (F := Ideal)) ((cfgT (F := Ideal)).grid.coords t) = _
  rw [tr2, pt_coords]
/-- The weight window's: the pair (row tile, column tile). -/
theorem index3 (t : Fin (cfgT (F := Ideal)).N) : ((cfgT (F := Ideal)).win 3).index t = ![rowT (ptT t), colT (ptT t)] := by
  show cc1_transform_3 k1_off1_inb numel1_S1 (tblC (F := Ideal)) ((cfgT (F := Ideal)).grid.coords t) = _
  rw [tr3, pt_coords]

variable (V : (c : Dev nD) → (b : Ref sig .tc) → Buf (Elt Ideal) ((c : Thread nD τ).loc b))

/-! ## The input windows' blocks as reads of the whole arrays -/

/-- The query block at a point is rows `1024 · (row tile) + a` of the query array. -/
theorem qBlock_apply (c : Dev nD) (t : Fin (cfgT (F := Ideal)).N) (a : Fin 1024) (n : Fin 64) (r : Fin 8192)
    (hr : r.val = 1024 * rowT (ptT t) + a.val) :
    (iblk1 V c 0 t : Vec Ideal S1024x64 .f32) (ix2 a n) = (V c main_v0_0 : S8192x64.Idx → EReal) (ix2 r n) := by
  unfold iblk1
  rw [View.read_apply]
  show V c main_v0_0 ((((cfgT (F := Ideal)).win 0).blk t).view.emb (ix2 a n)) = V c main_v0_0 (ix2 r n)
  congr 1
  funext x
  apply Fin.ext
  match x with
  | ⟨0, _⟩ =>
    show ((cfgT (F := Ideal)).win 0).index t (0 : Fin 2) * 1024 + 1 * a.val = r.val
    rw [index0]; show rowT (ptT t) * 1024 + 1 * a.val = r.val; omega
  | ⟨1, _⟩ =>
    show ((cfgT (F := Ideal)).win 0).index t (1 : Fin 2) * 64 + 1 * n.val = n.val
    rw [index0]; show 0 * 64 + 1 * n.val = n.val; omega

/-- The key block at a point is rows `1024 · (column tile) + b` of the key array. -/
theorem kBlock_apply (c : Dev nD) (t : Fin (cfgT (F := Ideal)).N) (b : Fin 1024) (n : Fin 64) (cc : Fin 8192)
    (hc : cc.val = 1024 * colT (ptT t) + b.val) :
    (iblk1 V c 1 t : Vec Ideal S1024x64 .f32) (ix2 b n) = (V c main_v0_1 : S8192x64.Idx → EReal) (ix2 cc n) := by
  unfold iblk1
  rw [View.read_apply]
  show V c main_v0_1 ((((cfgT (F := Ideal)).win 1).blk t).view.emb (ix2 b n)) = V c main_v0_1 (ix2 cc n)
  congr 1
  funext x
  apply Fin.ext
  match x with
  | ⟨0, _⟩ =>
    show ((cfgT (F := Ideal)).win 1).index t (0 : Fin 2) * 1024 + 1 * b.val = cc.val
    rw [index1]; show colT (ptT t) * 1024 + 1 * b.val = cc.val; omega
  | ⟨1, _⟩ =>
    show ((cfgT (F := Ideal)).win 1).index t (1 : Fin 2) * 64 + 1 * n.val = n.val
    rw [index1]; show 0 * 64 + 1 * n.val = n.val; omega

/-- The value block at a point is rows `1024 · (column tile) + b` of the value array. -/
theorem vBlock_apply (c : Dev nD) (t : Fin (cfgT (F := Ideal)).N) (b : Fin 1024) (e : Fin 64) (cc : Fin 8192)
    (hc : cc.val = 1024 * colT (ptT t) + b.val) :
    (iblk1 V c 2 t : Vec Ideal S1024x64 .f32) (ix2 b e) = (V c main_v0_2 : S8192x64.Idx → EReal) (ix2 cc e) := by
  unfold iblk1
  rw [View.read_apply]
  show V c main_v0_2 ((((cfgT (F := Ideal)).win 2).blk t).view.emb (ix2 b e)) = V c main_v0_2 (ix2 cc e)
  congr 1
  funext x
  apply Fin.ext
  match x with
  | ⟨0, _⟩ =>
    show ((cfgT (F := Ideal)).win 2).index t (0 : Fin 2) * 1024 + 1 * b.val = cc.val
    rw [index2]; show colT (ptT t) * 1024 + 1 * b.val = cc.val; omega
  | ⟨1, _⟩ =>
    show ((cfgT (F := Ideal)).win 2).index t (1 : Fin 2) * 64 + 1 * e.val = e.val
    rw [index2]; show 0 * 64 + 1 * e.val = e.val; omega

/-- The weight block at a point is the (row tile, column tile) block of the weight array. -/
theorem lBlock_apply (c : Dev nD) (t : Fin (cfgT (F := Ideal)).N) (a b : Fin 1024) (r cc : Fin 8192)
    (hr : r.val = 1024 * rowT (ptT t) + a.val) (hc : cc.val = 1024 * colT (ptT t) + b.val) :
    (iblk1 V c 3 t : Vec Ideal S1024x1024 .f32) (ix2 a b) = (V c main_arg4 : S8192x8192.Idx → EReal) (ix2 r cc) := by
  unfold iblk1
  rw [View.read_apply]
  show V c main_arg4 ((((cfgT (F := Ideal)).win 3).blk t).view.emb (ix2 a b)) = V c main_arg4 (ix2 r cc)
  congr 1
  funext x
  apply Fin.ext
  match x with
  | ⟨0, _⟩ =>
    show ((cfgT (F := Ideal)).win 3).index t (0 : Fin 2) * 1024 + 1 * a.val = r.val
    rw [index3]; show rowT (ptT t) * 1024 + 1 * a.val = r.val; omega
  | ⟨1, _⟩ =>
    show ((cfgT (F := Ideal)).win 3).index t (1 : Fin 2) * 1024 + 1 * b.val = cc.val
    rw [index3]; show colT (ptT t) * 1024 + 1 * b.val = cc.val; omega

end Cert.KernelIdeal.R1

end
-- ==== Proof.KI.Pay1.lean ====
/-
  Region 1's accumulation step read at an index, at the ideal values. One grid point of the attention
  region takes the tile pair (i, j) from two words v1 = i and v3 = j, forms the 1024 x 1024 block of
  scores q_i k_j^T, multiplies it elementwise by the block l_ij, keeps the entries on or below the
  diagonal of the whole 8192 x 8192 matrix (global row 1024 i + a against global column 1024 j + b),
  and adds the product of that masked block with v_j to the accumulator. Here each step is read at one
  index: the two block products as finite sums, the mask as a comparison of natural numbers (the words
  stay below 8192, so the 32-bit signed comparison is the comparison of the numbers), and the whole
  step as the accumulator plus a sum over the 1024 columns of the block.
-/
import proofs.«162603_j30889404792899_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R1

open Cert.KernelIdeal Cert.KernelIdeal.Gen Idealize.ShloMosaic Idealize.ShloMosaic.ValueIdx

/-! ## The two block products read at an index -/

/-- The left operand index of the score product at output `(a, b)` and contraction position `q`: row `a`. -/
theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The score product into the zero accumulator, at `(a, b)`: the sum over the 64 shared columns. -/
theorem matmul_qk_apply (L : FVec Ideal S1024x64 .bf16) (R : FVec Ideal S64x1024 .bf16) (a b : Fin 1024) :
    matmul dot_S1024x64_S64x1024_S1024x1024_1_0_0_1_n_n none L R (constant (F := Ideal) S1024x1024 .f32 0x00000000#32) (ix2 a b)
      = ∑ n : Fin 64, L (ix2 a n) * R (ix2 n b) := by
  simp only [matmul]
  rw [Ideal.matmul_constant_zero_apply, ← Equiv.sum_comp (contrEquiv1 dot_S1024x64_S64x1024_S1024x1024_1_0_0_1_n_n 64 rfl rfl).symm]
  refine Finset.sum_congr rfl fun n _ => ?_
  have hk := contrEquiv1_symm_val dot_S1024x64_S64x1024_S1024x1024_1_0_0_1_n_n 64 rfl rfl n
  have el : dot_S1024x64_S64x1024_S1024x1024_1_0_0_1_n_n.lhsIdx (ix2 a b) ((contrEquiv1 dot_S1024x64_S64x1024_S1024x1024_1_0_0_1_n_n 64 rfl rfl).symm n) = ix2 a n := funext fun c => Fin.ext (by
    match c with
    | ⟨0, _⟩ => exact lhs_qk_0 _ _
    | ⟨1, _⟩ => exact (lhs_qk_1 _ _).trans hk)
  have er : dot_S1024x64_S64x1024_S1024x1024_1_0_0_1_n_n.rhsIdx (ix2 a b) ((contrEquiv1 dot_S1024x64_S64x1024_S1024x1024_1_0_0_1_n_n 64 rfl rfl).symm n) = ix2 n b := funext fun c => Fin.ext (by
    match c with
    | ⟨0, _⟩ => exact (rhs_qk_0 _ _).trans hk
    | ⟨1, _⟩ => exact rhs_qk_1 _ _)
  rw [el, er]

theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The value product into the zero accumulator, at `(a, e)`: the sum over the 1024 shared positions. -/
theorem matmul_pv_apply (L : FVec Ideal S1024x1024 .bf16) (R : FVec Ideal S1024x64 .bf16) (a : Fin 1024) (e : Fin 64) :
    matmul dot_S1024x1024_S1024x64_S1024x64_1_0_0_1_n_n none L R (constant (F := Ideal) S1024x64 .f32 0x00000000#32) (ix2 a e)
      = ∑ b : Fin 1024, L (ix2 a b) * R (ix2 b e) := by
  simp only [matmul]
  rw [Ideal.matmul_constant_zero_apply, ← Equiv.sum_comp (contrEquiv1 dot_S1024x1024_S1024x64_S1024x64_1_0_0_1_n_n 1024 rfl rfl).symm]
  refine Finset.sum_congr rfl fun b _ => ?_
  have hk := contrEquiv1_symm_val dot_S1024x1024_S1024x64_S1024x64_1_0_0_1_n_n 1024 rfl rfl b
  have el : dot_S1024x1024_S1024x64_S1024x64_1_0_0_1_n_n.lhsIdx (ix2 a e) ((contrEquiv1 dot_S1024x1024_S1024x64_S1024x64_1_0_0_1_n_n 1024 rfl rfl).symm b) = ix2 a b := funext fun c => Fin.ext (by
    match c with
    | ⟨0, _⟩ => exact lhs_pv_0 _ _
    | ⟨1, _⟩ => exact (lhs_pv_1 _ _).trans hk)
  have er : dot_S1024x1024_S1024x64_S1024x64_1_0_0_1_n_n.rhsIdx (ix2 a e) ((contrEquiv1 dot_S1024x1024_S1024x64_S1024x64_1_0_0_1_n_n 1024 rfl rfl).symm b) = ix2 b e := funext fun c => Fin.ext (by
    match c with
    | ⟨0, _⟩ => exact (rhs_pv_0 _ _).trans hk
    | ⟨1, _⟩ => exact rhs_pv_1 _ _)
  rw [el, er]

/-! ## The mask -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A tile number below 8, times 1024, plus an offset below 1024 stays below 8192: the 32-bit word is that number. -/
theorem tileWord_toNat (v : BitVec 32) (hv : v.toNat < 8) (a : Nat) (ha : a < 1024) :
    (v * 1024#32 + BitVec.ofNat 32 a).toNat = 1024 * v.toNat + a := by
  simp only [BitVec.toNat_add, BitVec.toNat_mul, BitVec.toNat_ofNat]
  omega

/-- Read as a signed integer it is the same number: the sign bit is clear. -/
theorem tileWord_toInt (v : BitVec 32) (hv : v.toNat < 8) (a : Nat) (ha : a < 1024) :
    (v * 1024#32 + BitVec.ofNat 32 a).toInt = ((1024 * v.toNat + a : Nat) : Int) := by
  rw [BitVec.toInt_eq_toNat_of_lt (by rw [tileWord_toNat v hv a ha]; omega), tileWord_toNat v hv a ha]

/-- So the signed comparison of two such words is the comparison of the numbers. -/
theorem tileWord_sle (v w : BitVec 32) (hv : v.toNat < 8) (hw : w.toNat < 8) (a b : Nat) (ha : a < 1024) (hb : b < 1024) :
    (w * 1024#32 + BitVec.ofNat 32 b).sle (v * 1024#32 + BitVec.ofNat 32 a)
      = decide (1024 * w.toNat + b ≤ 1024 * v.toNat + a) := by
  rw [BitVec.sle_eq_decide, tileWord_toInt v hv a ha, tileWord_toInt w hw b hb]
  exact decide_eq_decide.mpr Int.ofNat_le

/-- The global row numbers of a block, as a column of words: tile number times 1024 plus the row inside the block. -/
def rowWords (v1 : BitVec 32) : IVec S1024x1 32 :=
  addi (broadcast S1024x1 (Scalar.muli v1 1024#32)) (iota .tc S1024x1 32 [0] iota_S1024x1_d0_w32)

/-- The global column numbers of a block, as a row of words. -/
def colWords (v3 : BitVec 32) : IVec S1x1024 32 :=
  addi (broadcast S1x1024 (Scalar.muli v3 1024#32)) (iota .tc S1x1024 32 [1] iota_S1x1024_d1_w32)

theorem rowWords_apply (v1 : BitVec 32) (a : Fin 1024) (u : Fin 1) :
    rowWords v1 (ix2 a u) = v1 * 1024#32 + BitVec.ofNat 32 a.val := by
  show v1 * 1024#32 + iota .tc S1024x1 32 [0] iota_S1024x1_d0_w32 (ix2 a u) = _
  rw [iota_single_apply]

theorem colWords_apply (v3 : BitVec 32) (u : Fin 1) (b : Fin 1024) :
    colWords v3 (ix2 u b) = v3 * 1024#32 + BitVec.ofNat 32 b.val := by
  show v3 * 1024#32 + iota .tc S1x1024 32 [1] iota_S1x1024_d1_w32 (ix2 u b) = _
  rw [iota_single_apply]

/-- The block's mask: global row at or after global column, compared as signed 32-bit words. -/
def maskWords (v1 v3 : BitVec 32) : IVec S1024x1024 1 :=
  cmpi .sge (broadcastTo S1024x1024 (rowWords v1) broadcasts_S1024x1_S1024x1024)
    (broadcastTo S1024x1024 (colWords v3) broadcasts_S1x1024_S1024x1024)

/-- The mask at `(a, b)` is set exactly when `1024 v3 + b ≤ 1024 v1 + a`, as natural numbers. -/
theorem maskWords_apply (v1 v3 : BitVec 32) (h1 : v1.toNat < 8) (h3 : v3.toNat < 8) (a b : Fin 1024) :
    maskWords v1 v3 (ix2 a b) = BitVec.ofBool (decide (1024 * v3.toNat + b.val ≤ 1024 * v1.toNat + a.val)) := by
  show BitVec.ofBool ((broadcastTo S1024x1024 (colWords v3) broadcasts_S1x1024_S1024x1024 (ix2 a b)).sle
      (broadcastTo S1024x1024 (rowWords v1) broadcasts_S1024x1_S1024x1024 (ix2 a b))) = _
  rw [broadcastTo_a1_ab_apply, broadcastTo_1b_ab_apply, rowWords_apply, colWords_apply,
    tileWord_sle v1 v3 h1 h3 a.val b.val a.isLt b.isLt]

/-! ## The accumulation step -/

/-- The block of scores: row `a` of the q block against row `b` of the k block. -/
def scores (q k : Vec Ideal S1024x64 .f32) : FVec Ideal S1024x1024 .f32 :=
  matmul dot_S1024x64_S64x1024_S1024x1024_1_0_0_1_n_n none
    (truncf .bf16 (shapeCast S1024x64 q shapeCasts_S1024x64_S1024x64) bitsLt_bf16_f32)
    (transpose S64x1024 [1, 0] (truncf .bf16 (shapeCast S1024x64 k shapeCasts_S1024x64_S1024x64) bitsLt_bf16_f32)
      transposes_S1024x64_p1_0_S64x1024)
    (constant S1024x1024 .f32 0x00000000#32)

theorem scores_apply (q k : Vec Ideal S1024x64 .f32) (a b : Fin 1024) :
    scores q k (ix2 a b) = ∑ n : Fin 64, q (ix2 a n) * k (ix2 b n) := by
  unfold scores
  refine (matmul_qk_apply _ _ a b).trans (Finset.sum_congr rfl fun n _ => ?_)
  have hq : truncf (F := Ideal) .bf16 (shapeCast S1024x64 q shapeCasts_S1024x64_S1024x64) bitsLt_bf16_f32 (ix2 a n) = q (ix2 a n) :=
    congrFun (shapeCast_self q shapeCasts_S1024x64_S1024x64) (ix2 a n)
  have hk : transpose S64x1024 [1, 0] (truncf (F := Ideal) .bf16 (shapeCast S1024x64 k shapeCasts_S1024x64_S1024x64) bitsLt_bf16_f32)
      transposes_S1024x64_p1_0_S64x1024 (ix2 n b) = k (ix2 b n) :=
    (transpose_ix2_apply _ _ n b).trans (congrFun (shapeCast_self k shapeCasts_S1024x64_S1024x64) (ix2 b n))
  rw [hq, hk]

/-- The scores times the block of `l`, kept where the mask is set and zero elsewhere. -/
def maskedScores (v1 v3 : BitVec 32) (q k : Vec Ideal S1024x64 .f32) (l : Vec Ideal S1024x1024 .f32) :
    FVec Ideal S1024x1024 .f32 :=
  select (maskWords v1 v3) (mulf (scores q k) l) (broadcast S1024x1024 (Scalar.ofBits (F := Ideal) .f32 0x00000000#32))

theorem maskedScores_apply (v1 v3 : BitVec 32) (h1 : v1.toNat < 8) (h3 : v3.toNat < 8) (q k : Vec Ideal S1024x64 .f32)
    (l : Vec Ideal S1024x1024 .f32) (a b : Fin 1024) :
    maskedScores v1 v3 q k l (ix2 a b)
      = if 1024 * v3.toNat + b.val ≤ 1024 * v1.toNat + a.val then (∑ n : Fin 64, q (ix2 a n) * k (ix2 b n)) * l (ix2 a b) else 0 := by
  show Scalar.select (maskWords v1 v3 (ix2 a b)) (scores q k (ix2 a b) * l (ix2 a b)) (Ideal.ofBits .f32 0x00000000#32) = _
  rw [maskWords_apply v1 v3 h1 h3, scores_apply, Ideal.ofBits_zero_f32]
  by_cases h : 1024 * v3.toNat + b.val ≤ 1024 * v1.toNat + a.val
  · rw [if_pos h, decide_eq_true h, BitVec.ofBool_true]; exact select_one _ _
  · rw [if_neg h, decide_eq_false h, BitVec.ofBool_false]; exact select_zero _ _

/-- The step's payload is the accumulator plus the product of the masked scores with the v block. -/
theorem pay3_eq (v1 v3 : BitVec 32) (q k : Vec Ideal S1024x64 .f32) (l : Vec Ideal S1024x1024 .f32) (acc v : Vec Ideal S1024x64 .f32) :
    k1_pay3 (F := Ideal) v1 v3 q k l acc v
      = addf acc (matmul dot_S1024x1024_S1024x64_S1024x64_1_0_0_1_n_n none
          (truncf .bf16 (maskedScores v1 v3 q k l) bitsLt_bf16_f32)
          (truncf .bf16 (shapeCast S1024x64 v shapeCasts_S1024x64_S1024x64) bitsLt_bf16_f32)
          (constant S1024x64 .f32 0x00000000#32)) := rfl

/-- The reset value of the accumulator is zero everywhere. -/
theorem pay2_apply (i : S1024x64.Idx) : k1_pay2 (F := Ideal) i = 0 := by
  show shapeCast S1024x64 (broadcast S1024x64 (Scalar.ofBits (F := Ideal) .f32 0x00000000#32)) shapeCasts_S1024x64_S1024x64 i = 0
  rw [shapeCast_self]
  exact Ideal.ofBits_zero_f32

/-- THE STEP AT AN INDEX: the accumulator at `(a, e)` plus, over the block's 1024 columns `b`, the masked score at
    `(a, b)` times the v block at `(b, e)`. -/
theorem pay3_apply (v1 v3 : BitVec 32) (h1 : v1.toNat < 8) (h3 : v3.toNat < 8) (q k : Vec Ideal S1024x64 .f32)
    (l : Vec Ideal S1024x1024 .f32) (acc v : Vec Ideal S1024x64 .f32) (a : Fin 1024) (e : Fin 64) :
    k1_pay1 (k1_pay3 (F := Ideal) v1 v3 q k l acc v) (ix2 a e)
      = acc (ix2 a e) + ∑ b : Fin 1024, (if 1024 * v3.toNat + b.val ≤ 1024 * v1.toNat + a.val then (∑ n : Fin 64, q (ix2 a n) * k (ix2 b n)) * l (ix2 a b) else 0) * v (ix2 b e) := by
  show shapeCast S1024x64 (k1_pay3 (F := Ideal) v1 v3 q k l acc v) shapeCasts_S1024x64_S1024x64 (ix2 a e) = _
  rw [shapeCast_self, pay3_eq]
  show acc (ix2 a e) + matmul dot_S1024x1024_S1024x64_S1024x64_1_0_0_1_n_n none
      (truncf .bf16 (maskedScores v1 v3 q k l) bitsLt_bf16_f32)
      (truncf .bf16 (shapeCast S1024x64 v shapeCasts_S1024x64_S1024x64) bitsLt_bf16_f32)
      (constant S1024x64 .f32 0x00000000#32) (ix2 a e) = _
  refine congrArg (acc (ix2 a e) + ·) ?_
  refine (matmul_pv_apply _ _ a e).trans (Finset.sum_congr rfl fun b _ => ?_)
  have hm : truncf (F := Ideal) .bf16 (maskedScores v1 v3 q k l) bitsLt_bf16_f32 (ix2 a b)
      = if 1024 * v3.toNat + b.val ≤ 1024 * v1.toNat + a.val then (∑ n : Fin 64, q (ix2 a n) * k (ix2 b n)) * l (ix2 a b) else 0 :=
    maskedScores_apply v1 v3 h1 h3 q k l a b
  have hv : truncf (F := Ideal) .bf16 (shapeCast S1024x64 v shapeCasts_S1024x64_S1024x64) bitsLt_bf16_f32 (ix2 b e) = v (ix2 b e) :=
    congrFun (shapeCast_self v shapeCasts_S1024x64_S1024x64) (ix2 b e)
  rw [hm, hv]

end Cert.KernelIdeal.R1

end
-- ==== Proof.Spec.lean ====
/-
  The specification of causal linear attention with a learned lower-triangular weight, over plain
  coordinate-indexed extended-real functions.

  With X : 8192 × 512, the three projections W : 512 × 64 and the weight L : 8192 × 8192,

      proj X W r n   = ∑_d X r d · W d n                                   (a projection's entry)
      score r c      = ∑_n (X Wq) r n · (X Wk) c n                         (query row r against key row c)
      wgt r c        = score r c · L r c  when c ≤ r,  0 otherwise         (the causal, weighted score)
      out r e        = ∑_c wgt r c · (X Wv) c e                            (the result's entry)

  and the law that lets a sum over the 8192 columns be taken tile by tile: the columns are cut in
  8 tiles of 1024, a sum over all columns is the sum over the tiles of the tiles' sums, and when the
  summand vanishes from some tile on, only the tiles before it are summed. Both facts use only that the
  extended reals are a commutative additive monoid (a sum may be regrouped and zero terms dropped),
  so no entry has to be finite.
-/
import Idealize.ShloMosaic.Lib.ValueIdx

noncomputable section

open scoped BigOperators

namespace Cert.Spec

/-- A projection's entry: row `r` of `X` against column `n` of `W`. -/
def proj (X : Fin 8192 → Fin 512 → EReal) (W : Fin 512 → Fin 64 → EReal) (r : Fin 8192) (n : Fin 64) : EReal :=
  ∑ d : Fin 512, X r d * W d n

/-- The score of query row `r` against key row `c`: the inner product of the two projected rows. -/
def score (X : Fin 8192 → Fin 512 → EReal) (Wq Wk : Fin 512 → Fin 64 → EReal) (r c : Fin 8192) : EReal :=
  ∑ n : Fin 64, proj X Wq r n * proj X Wk c n

/-- The causal weighted score: the score times the learned weight on and below the diagonal, zero above it. -/
def wgt (X : Fin 8192 → Fin 512 → EReal) (Wq Wk : Fin 512 → Fin 64 → EReal) (L : Fin 8192 → Fin 8192 → EReal)
    (r c : Fin 8192) : EReal :=
  if c ≤ r then score X Wq Wk r c * L r c else 0

/-- The result's entry: the weighted scores of row `r` against the projected values' column `e`. -/
def out (X : Fin 8192 → Fin 512 → EReal) (Wq Wk Wv : Fin 512 → Fin 64 → EReal) (L : Fin 8192 → Fin 8192 → EReal)
    (r : Fin 8192) (e : Fin 64) : EReal :=
  ∑ c : Fin 8192, wgt X Wq Wk L r c * proj X Wv c e

/-- Above the diagonal the weighted score is zero. -/
theorem wgt_eq_zero_of_lt {X : Fin 8192 → Fin 512 → EReal} {Wq Wk : Fin 512 → Fin 64 → EReal}
    {L : Fin 8192 → Fin 8192 → EReal} {r c : Fin 8192} (h : r < c) : wgt X Wq Wk L r c = 0 :=
  if_neg (not_le.mpr h)

/-- On and below the diagonal the weighted score is the score times the weight. -/
theorem wgt_of_le {X : Fin 8192 → Fin 512 → EReal} {Wq Wk : Fin 512 → Fin 64 → EReal}
    {L : Fin 8192 → Fin 8192 → EReal} {r c : Fin 8192} (h : c ≤ r) :
    wgt X Wq Wk L r c = score X Wq Wk r c * L r c :=
  if_pos h

/-- The sum of `f` over column tile `j`: the 1024 columns `1024 j, …, 1024 j + 1023`. -/
def tileSum (f : Fin 8192 → EReal) (j : ℕ) (hj : j < 8) : EReal :=
  ∑ b : Fin 1024, f ⟨1024 * j + b.val, by have := b.isLt; omega⟩

/-! ## Sums over the columns, tile by tile -/

/-- A sum over `m * n` consecutive numbers, taken block by block. -/
theorem sum_fin_mul {M : Type*} [AddCommMonoid M] (m n : ℕ) (f : Fin (m * n) → M) :
    ∑ c, f c = ∑ j : Fin m, ∑ b : Fin n, f (finProdFinEquiv (j, b)) := by
  rw [← Equiv.sum_comp finProdFinEquiv f, Fintype.sum_prod_type]

/-- A sum over all 8192 columns is the sum over the 8 tiles of the tiles' sums. -/
theorem sum_eq_sum_tiles (f : Fin 8192 → EReal) :
    ∑ c : Fin 8192, f c = ∑ j : Fin 8, tileSum f j.val j.isLt := by
  refine (sum_fin_mul 8 1024 f).trans (Finset.sum_congr rfl fun j _ => ?_)
  unfold tileSum
  refine Finset.sum_congr rfl fun b _ => congrArg f (Fin.ext ?_)
  show b.val + 1024 * j.val = 1024 * j.val + b.val
  omega

/-- The tile sums as a function of the tile's number alone (zero past the last tile). -/
def tileSumN (f : Fin 8192 → EReal) (j : ℕ) : EReal := if h : j < 8 then tileSum f j h else 0

theorem tileSumN_of_lt (f : Fin 8192 → EReal) {j : ℕ} (h : j < 8) : tileSumN f j = tileSum f j h := dif_pos h

/-- The same over a range of tile numbers. -/
theorem sum_eq_sum_tiles_range (f : Fin 8192 → EReal) :
    ∑ c : Fin 8192, f c = ∑ j ∈ Finset.range 8, tileSumN f j := by
  rw [sum_eq_sum_tiles, ← Fin.sum_univ_eq_sum_range]
  exact Finset.sum_congr rfl fun j _ => (tileSumN_of_lt f j.isLt).symm

/-- A tile on which the summand vanishes sums to zero. -/
theorem tileSum_eq_zero (f : Fin 8192 → EReal) (j : ℕ) (hj : j < 8)
    (hf : ∀ c : Fin 8192, 1024 * j ≤ c.val → c.val < 1024 * (j + 1) → f c = 0) : tileSum f j hj = 0 :=
  Finset.sum_eq_zero fun b _ => hf _ (by show 1024 * j ≤ 1024 * j + b.val; omega)
    (by show 1024 * j + b.val < 1024 * (j + 1); have := b.isLt; omega)

/-- When the summand vanishes from column `1024 (i + 1)` on, only tiles `0, …, i` are summed
    (over a range of tile numbers). -/
theorem sum_eq_sum_tiles_upto_range (f : Fin 8192 → EReal) (i : Fin 8)
    (hf : ∀ c : Fin 8192, 1024 * (i.val + 1) ≤ c.val → f c = 0) :
    ∑ c : Fin 8192, f c = ∑ j ∈ Finset.range (i.val + 1), tileSumN f j := by
  rw [sum_eq_sum_tiles_range]
  refine (Finset.sum_subset (Finset.range_subset_range.2 (by have := i.isLt; omega)) fun j hj hj' => ?_).symm
  have h8 : j < 8 := Finset.mem_range.1 hj
  have hi : i.val + 1 ≤ j := Nat.le_of_not_lt fun h => hj' (Finset.mem_range.2 h)
  rw [tileSumN_of_lt f h8]
  exact tileSum_eq_zero f j h8 fun c hc _ => hf c (le_trans (Nat.mul_le_mul_left 1024 hi) hc)

/-- When the summand vanishes from column `1024 (i + 1)` on, only tiles `0, …, i` are summed. -/
theorem sum_eq_sum_tiles_upto (f : Fin 8192 → EReal) (i : Fin 8)
    (hf : ∀ c : Fin 8192, 1024 * (i.val + 1) ≤ c.val → f c = 0) :
    ∑ c : Fin 8192, f c
      = ∑ j : Fin (i.val + 1), tileSum f j.val (by have := i.isLt; have := j.isLt; omega) := by
  rw [sum_eq_sum_tiles_upto_range f i hf, ← Fin.sum_univ_eq_sum_range]
  exact Finset.sum_congr rfl fun j _ => tileSumN_of_lt f _

/-- A result entry of a row in row tile `i`, tile by tile: the columns past row tile `i` are all above
    the diagonal, where the weighted score is zero. -/
theorem out_eq_sum_tiles (X : Fin 8192 → Fin 512 → EReal) (Wq Wk Wv : Fin 512 → Fin 64 → EReal)
    (L : Fin 8192 → Fin 8192 → EReal) (i : Fin 8) (r : Fin 8192) (hr : r.val < 1024 * (i.val + 1)) (e : Fin 64) :
    out X Wq Wk Wv L r e
      = ∑ j : Fin (i.val + 1), tileSum (fun c => wgt X Wq Wk L r c * proj X Wv c e) j.val
          (by have := i.isLt; have := j.isLt; omega) :=
  sum_eq_sum_tiles_upto (fun c => wgt X Wq Wk L r c * proj X Wv c e) i fun c hc => by
    show wgt X Wq Wk L r c * proj X Wv c e = 0
    rw [wgt_eq_zero_of_lt (Fin.lt_def.2 (lt_of_lt_of_le hr hc)), zero_mul]

end Cert.Spec

end
-- ==== Proof.KI.Value1.lean ====
/-
  The second region's accumulator, entry by entry, at exact arithmetic.

  The region visits the 36 tile pairs (i, j), j ≤ i, row tile by row tile. At a pair it adds to the scratch, for
  every row a of row tile i and every column e, the sum over the 1024 columns b of column tile j of

      (the inner product of query row 1024 i + a and key row 1024 j + b, times the weight there, when that column is not
       right of the diagonal; zero otherwise) · (value entry (1024 j + b, e)),

  starting from zeros at j = 0. So after the pair (i, j) the scratch's entry (a, e) is the sum of those terms over
  column tiles 0 … j, and at the diagonal pair (i, i), where the block is written back, it is the sum over ALL columns:
  the columns of the later tiles lie right of the diagonal and contribute zero.
-/
import proofs.«162603_j30889404792899_1_alg».proof.Proof.KI.Blocks1
import proofs.«162603_j30889404792899_1_alg».proof.Proof.KI.Pay1
import proofs.«162603_j30889404792899_1_alg».proof.Proof.Spec

set_option maxRecDepth 16384

noncomputable section

open scoped BigOperators

namespace Cert.KernelIdeal.R1

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The accumulation as tile sums -/

/-- An array as a function of its two coordinates. -/
abbrev mat {n0 n1 : ℕ} (x : (⟨2, ![n0, n1]⟩ : Shape).Idx → EReal) : Fin n0 → Fin n1 → EReal := fun a b => x (ix2 a b)

/-- The causal weighted score of query row `r` against key row `cc`, over the projected queries and keys as arrays:
    their inner product times the weight on and below the diagonal, zero above it. -/
def wgtK (Q K : Fin 8192 → Fin 64 → EReal) (L : Fin 8192 → Fin 8192 → EReal) (r cc : Fin 8192) : EReal :=
  if cc ≤ r then (∑ n : Fin 64, Q r n * K cc n) * L r cc else 0

/-- At the projections it is the specification's weighted score. -/
theorem wgtK_proj (X : Fin 8192 → Fin 512 → EReal) (Wq Wk : Fin 512 → Fin 64 → EReal) (L : Fin 8192 → Fin 8192 → EReal)
    (r cc : Fin 8192) : wgtK (Cert.Spec.proj X Wq) (Cert.Spec.proj X Wk) L r cc = Cert.Spec.wgt X Wq Wk L r cc := rfl

/-- Above the diagonal it is zero. -/
theorem wgtK_eq_zero_of_lt {Q K : Fin 8192 → Fin 64 → EReal} {L : Fin 8192 → Fin 8192 → EReal} {r cc : Fin 8192}
    (h : r < cc) : wgtK Q K L r cc = 0 := if_neg (not_le.mpr h)

/-- One column's contribution to a step, from the blocks' entries to the arrays' entries. -/
theorem step_term (q k : S1024x64.Idx → EReal) (l : S1024x1024.Idx → EReal) (v : S1024x64.Idx → EReal)
    (Q K Vv : Fin 8192 → Fin 64 → EReal) (L : Fin 8192 → Fin 8192 → EReal) (a b : Fin 1024) (e : Fin 64) (r cc : Fin 8192)
    (P : Prop) [Decidable P] (hP : P ↔ cc ≤ r)
    (hq : ∀ n, q (ix2 a n) = Q r n) (hk : ∀ n, k (ix2 b n) = K cc n) (hl : l (ix2 a b) = L r cc) (hv : v (ix2 b e) = Vv cc e) :
    (if P then (∑ n : Fin 64, q (ix2 a n) * k (ix2 b n)) * l (ix2 a b) else 0) * v (ix2 b e) = wgtK Q K L r cc * Vv cc e := by
  unfold wgtK
  rw [hl, hv, Finset.sum_congr rfl fun n _ => by rw [hq n, hk n]]
  by_cases h : P
  · rw [if_pos h, if_pos (hP.mp h)]
  · rw [if_neg h, if_neg (mt hP.mpr h)]

/-- ONE STEP of the accumulation at an entry: the point adds, to what the scratch held, the sum over its column tile of
    the weighted scores of the entry's row against the tile's columns times the value entries. -/
theorem accStep_apply (c : Dev nD) (t : Fin (cfgT (F := Ideal)).N) (acc : Vec Ideal S1024x64 .f32) (a : Fin 1024) (e : Fin 64)
    (r : Fin 8192) (hr : r.val = 1024 * rowT (ptT t) + a.val) :
    accStep V c t acc (ix2 a e) = acc (ix2 a e) + Cert.Spec.tileSumN (fun cc =>
      wgtK (mat (V c main_v0_0)) (mat (V c main_v0_1)) (mat (V c main_arg4)) r cc * mat (V c main_v0_2) cc e) (colT (ptT t)) := by
  have hT := tiles_facts (ptT t)
  have hcol : colT (ptT t) < 8 := by omega
  unfold accStep
  refine (pay3_apply (wRow t) (wCol t) (show (lit0 (ptT t)).toNat < 8 from hT.2) (show (lit1 (ptT t)).toNat < 8 from hcol)
    (iblk1 V c 0 t) (iblk1 V c 1 t) (iblk1 V c 3 t) acc (iblk1 V c 2 t) a e).trans ?_
  rw [Cert.Spec.tileSumN_of_lt _ hcol]
  unfold Cert.Spec.tileSum
  refine congrArg (acc (ix2 a e) + ·) (Finset.sum_congr rfl fun b _ => ?_)
  have hb := b.isLt
  exact step_term (iblk1 V c 0 t) (iblk1 V c 1 t) (iblk1 V c 3 t) (iblk1 V c 2 t) _ _ _ _ a b e r
    ⟨1024 * colT (ptT t) + b.val, by omega⟩ _
    (by rw [Fin.le_def, hr]; exact Iff.rfl)
    (fun n => qBlock_apply V c t a n r hr) (fun n => kBlock_apply V c t b n _ rfl)
    (lBlock_apply V c t a b r _ hr rfl) (vBlock_apply V c t b e _ rfl)

/-! ## The trajectory -/

/-- In the tables a point whose column tile is not the first follows the point of the same row tile and the column tile
    before. -/
theorem step_facts : ∀ s : Fin 35, lit1 s.succ ≠ 0#32 → rowT s.castSucc = rowT s.succ ∧ colT s.castSucc + 1 = colT s.succ := by
  decide

/-- A point that resets: the scratch after it is its own tile's sum. -/
theorem accAfter_reset_apply (c : Dev nD) (t : Fin (cfgT (F := Ideal)).N) (h : wCol (F := Ideal) t = 0#32) (a : Fin 1024) (e : Fin 64)
    (r : Fin 8192) (hr : r.val = 1024 * rowT (ptT t) + a.val) :
    accAfter V c t.val t.isLt (ix2 a e) = ∑ j ∈ Finset.range (colT (ptT t) + 1), Cert.Spec.tileSumN (fun cc =>
      wgtK (mat (V c main_v0_0)) (mat (V c main_v0_1)) (mat (V c main_arg4)) r cc * mat (V c main_v0_2) cc e) j := by
  have hc : colT (ptT t) = 0 := by
    show (lit1 (ptT t)).toNat = 0
    rw [show lit1 (ptT t) = 0#32 from h]; rfl
  rw [accAfter_reset V c t h, accStep_apply V c t _ a e r hr, pay2_apply, zero_add, hc, Finset.sum_range_one]

/-- THE TRAJECTORY: after the point with tile pair (i, j) the scratch's entry of row `1024 i + a` is the sum over column
    tiles `0, …, j` of the weighted scores against the tile's columns times the value entries. -/
theorem accAfter_apply_aux (c : Dev nD) : ∀ (n : ℕ) (hn : n < (cfgT (F := Ideal)).N) (a : Fin 1024) (e : Fin 64) (r : Fin 8192),
    r.val = 1024 * rowT (ptT (F := Ideal) ⟨n, hn⟩) + a.val →
    accAfter V c n hn (ix2 a e) = ∑ j ∈ Finset.range (colT (ptT (F := Ideal) ⟨n, hn⟩) + 1), Cert.Spec.tileSumN (fun cc =>
      wgtK (mat (V c main_v0_0)) (mat (V c main_v0_1)) (mat (V c main_arg4)) r cc * mat (V c main_v0_2) cc e) j := by
  intro n
  induction n with
  | zero =>
    intro hn a e r hr
    exact accAfter_reset_apply V c ⟨0, hn⟩ (wCol_zero _ rfl) a e r hr
  | succ n ih =>
    intro hn a e r hr
    by_cases h : wCol (F := Ideal) ⟨n + 1, hn⟩ = 0#32
    · exact accAfter_reset_apply V c ⟨n + 1, hn⟩ h a e r hr
    · have hn' : n < (cfgT (F := Ideal)).N := Nat.lt_of_succ_lt hn
      have h35 : n < 35 := by have := N_T (F := Ideal); omega
      have hp1 : ptT (F := Ideal) ⟨n + 1, hn⟩ = (⟨n, h35⟩ : Fin 35).succ := rfl
      have hp0 : ptT (F := Ideal) ⟨n, hn'⟩ = (⟨n, h35⟩ : Fin 35).castSucc := rfl
      obtain ⟨hrow, hcolS⟩ := step_facts ⟨n, h35⟩ (by rw [← hp1]; exact h)
      have hs : accAfter V c (n + 1) hn = accStep V c ⟨n + 1, hn⟩ (accAfter V c n hn') := by
        show accStep V c _ (if _ then _ else _) = _
        rw [if_neg h]
      rw [hs, accStep_apply V c ⟨n + 1, hn⟩ _ a e r hr, ih hn' a e r (by rw [hp0, hrow, ← hp1]; exact hr),
        hp0, hp1, ← hcolS, ← Finset.sum_range_succ]

theorem accAfter_apply (c : Dev nD) (t : Fin (cfgT (F := Ideal)).N) (a : Fin 1024) (e : Fin 64) (r : Fin 8192)
    (hr : r.val = 1024 * rowT (ptT t) + a.val) :
    accAfter V c t.val t.isLt (ix2 a e) = ∑ j ∈ Finset.range (colT (ptT t) + 1), Cert.Spec.tileSumN (fun cc =>
      wgtK (mat (V c main_v0_0)) (mat (V c main_v0_1)) (mat (V c main_arg4)) r cc * mat (V c main_v0_2) cc e) j :=
  accAfter_apply_aux V c t.val t.isLt a e r hr

/-- ON THE DIAGONAL, where the block is written back, the scratch's entry is the whole row's sum: the columns past the
    row's own tile are above the diagonal, where the weighted score is zero. -/
theorem accAfter_diag_apply (c : Dev nD) (t : Fin (cfgT (F := Ideal)).N) (hd : lit1 (ptT t) = lit0 (ptT t)) (a : Fin 1024) (e : Fin 64)
    (r : Fin 8192) (hr : r.val = 1024 * rowT (ptT t) + a.val) :
    accAfter V c t.val t.isLt (ix2 a e) = ∑ cc : Fin 8192,
      wgtK (mat (V c main_v0_0)) (mat (V c main_v0_1)) (mat (V c main_arg4)) r cc * mat (V c main_v0_2) cc e := by
  have hT := tiles_facts (ptT t)
  have hrc : colT (ptT t) = rowT (ptT t) := congrArg BitVec.toNat hd
  have ha := a.isLt
  rw [accAfter_apply V c t a e r hr, hrc]
  exact (Cert.Spec.sum_eq_sum_tiles_upto_range _ ⟨rowT (ptT t), hT.2⟩ fun cc hcc => by
    show wgtK _ _ _ r cc * _ = 0
    rw [wgtK_eq_zero_of_lt (Fin.lt_def.2 (by have : 1024 * (rowT (ptT t) + 1) ≤ cc.val := hcc; omega)), zero_mul]).symm

end Cert.KernelIdeal.R1

end
-- ==== Proof.KI.Final1.lean ====
/- REGION 1, from blocks to the array: the output array after the attention region is any whole-array function that
   the accumulator agrees with, block by block, at the diagonal points (the only points that write the output back);
   and the region's four input arrays are as it found them. -/
import proofs.«162603_j30889404792899_1_alg».proof.Proof.KI.Dat1
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## Where the output window's block sits -/

/-- At point `t` the output window is on the row tile of the point's pair, in the only column block. -/
theorem index4 (t : Fin (cfgT (F := F)).N) : ((cfgT (F := F)).win 4).index t = ![rowT (ptT t), 0] := by
  show cc1_transform_4 k1_off1_inb numel1_S1 (tblC (F := F)) ((cfgT (F := F)).grid.coords t) = _
  rw [tr4, pt_coords]

theorem index4_row (t : Fin (cfgT (F := F)).N) : ((cfgT (F := F)).win 4).index t (0 : Fin 2) = rowT (ptT t) :=
  congrFun (index4 t) (0 : Fin 2)
theorem index4_col (t : Fin (cfgT (F := F)).N) : ((cfgT (F := F)).win 4).index t (1 : Fin 2) = 0 :=
  congrFun (index4 t) (1 : Fin 2)

set_option backward.isDefEq.respectTransparency.types false in
/-- An index of the output array lies in point `t`'s block iff each coordinate lies in the block's range. -/
theorem mem_blk4 (t : Fin (cfgT (F := F)).N) (i : S8192x64.Idx) :
    i ∈ (((cfgT (F := F)).win 4).blk t).view.set ↔ ∀ a : Fin 2, ((cfgT (F := F)).win 4).index t a * S1024x64.size a ≤ (i a).val ∧ (i a).val < ((cfgT (F := F)).win 4).index t a * S1024x64.size a + S1024x64.size a := by
  show i ∈ ((View.whole main_v1).slice (((cfgT (F := F)).win 4).rect t)).set ↔ _
  rw [View.set_slice_whole]
  exact Rect.mem_set_unit

/-- Every row tile has its diagonal pair in the tables. -/
theorem diag_point : ∀ k : Fin 8, ∃ t : Fin 36, rowT t = k.val ∧ lit1 t = lit0 t := by decide

/-- Every index of the output array is in the block of the diagonal point of its row tile, and that point writes back. -/
theorem cover4 (i : S8192x64.Idx) :
    ∃ t : Fin (cfgT (F := F)).N, ((cfgT (F := F)).win 4).flush t = true ∧ i ∈ (((cfgT (F := F)).win 4).blk t).view.set := by
  have hi0 : (i 0).val < 8192 := (i 0).isLt
  have hi1 : (i 1).val < 64 := (i 1).isLt
  obtain ⟨s, hs, hd⟩ := diag_point ⟨(i 0).val / 1024, by omega⟩
  have hs' : rowT s = (i 0).val / 1024 := hs
  have hlt : s.val < (cfgT (F := F)).N := lt_of_lt_of_eq s.isLt (N_T (F := F)).symm
  have hpt : ptT (F := F) ⟨s.val, hlt⟩ = s := Fin.ext rfl
  refine ⟨⟨s.val, hlt⟩, (flush4_iff _).mpr (by rw [hpt]; exact hd), ?_⟩
  rw [mem_blk4]
  have h0 := index4_row (F := F) ⟨s.val, hlt⟩
  have h1 := index4_col (F := F) ⟨s.val, hlt⟩
  rw [hpt] at h0
  intro a
  match a with
  | ⟨0, _⟩ =>
    show ((cfgT (F := F)).win 4).index ⟨s.val, hlt⟩ (0 : Fin 2) * 1024 ≤ (i 0).val ∧ (i 0).val < ((cfgT (F := F)).win 4).index ⟨s.val, hlt⟩ (0 : Fin 2) * 1024 + 1024
    rw [h0, hs']; omega
  | ⟨1, _⟩ =>
    show ((cfgT (F := F)).win 4).index ⟨s.val, hlt⟩ (1 : Fin 2) * 64 ≤ (i 1).val ∧ (i 1).val < ((cfgT (F := F)).win 4).index ⟨s.val, hlt⟩ (1 : Fin 2) * 64 + 64
    rw [h1]; omega

/-! ## The input arrays are as the region found them -/

section Kept
variable (V : (c : Dev nD) → (b : Ref sig .tc) → Buf (Elt F) ((c : Thread nD τ).loc b))

theorem kept1_0 (c : Dev nD) : (dat1 V c).arrAt 0 (cfgT (F := F)).N = V c (Pipeline.arrRef spec1 0) :=
  ((dat1 V c).arrAt_in 0 rfl _).trans (A_eq1 V c 0)
theorem kept1_1 (c : Dev nD) : (dat1 V c).arrAt 1 (cfgT (F := F)).N = V c (Pipeline.arrRef spec1 1) :=
  ((dat1 V c).arrAt_in 1 rfl _).trans (A_eq1 V c 1)
theorem kept1_2 (c : Dev nD) : (dat1 V c).arrAt 2 (cfgT (F := F)).N = V c (Pipeline.arrRef spec1 2) :=
  ((dat1 V c).arrAt_in 2 rfl _).trans (A_eq1 V c 2)
theorem kept1_3 (c : Dev nD) : (dat1 V c).arrAt 3 (cfgT (F := F)).N = V c (Pipeline.arrRef spec1 3) :=
  ((dat1 V c).arrAt_in 3 rfl _).trans (A_eq1 V c 3)

end Kept

/-! ## The output array -/

variable (V : (c : Dev nD) → (b : Ref sig .tc) → Buf (Elt Ideal) ((c : Thread nD τ).loc b))

/-- What a diagonal point writes back is its block of `G`, when the accumulator there agrees with `G` on the block's rows. -/
theorem flushed4_of (c : Dev nD) (G : S8192x64.Idx → EReal) (t : Fin (cfgT (F := Ideal)).N)
    (h : ∀ (a : Fin 1024) (e : Fin 64), accAfter (F := Ideal) V c t.val t.isLt (ix2 a e) = G (ix2 ⟨1024 * rowT (ptT t) + a.val, by have := (tiles_facts (ptT t)).2; have := a.isLt; omega⟩ e)) :
    (dat1 (F := Ideal) V c).flushed 4 t = (((cfgT (F := Ideal)).win 4).blk t).view.read (Elt Ideal) G := by
  show ((cfgT (F := Ideal)).win 4).cut ((cfgT (F := Ideal)).grid.coords t) ((dat1 (F := Ideal) V c).after 4 t) = _
  rw [after1_4]
  funext j
  obtain ⟨a, e, rfl⟩ : ∃ (a : Fin 1024) (e : Fin 64), j = ix2 a e := ⟨j 0, j 1, eq_ix2 j⟩
  show accAfter (F := Ideal) V c t.val t.isLt (ix2 a e) = G ((((cfgT (F := Ideal)).win 4).blk t).view.emb (ix2 a e))
  refine (h a e).trans (congrArg G ?_)
  funext x
  apply Fin.ext
  have h0 := index4_row (F := Ideal) t
  have h1 := index4_col (F := Ideal) t
  match x with
  | ⟨0, _⟩ => show 1024 * rowT (ptT t) + a.val = ((cfgT (F := Ideal)).win 4).index t (0 : Fin 2) * 1024 + 1 * a.val; rw [h0]; omega
  | ⟨1, _⟩ => show e.val = ((cfgT (F := Ideal)).win 4).index t (1 : Fin 2) * 64 + 1 * e.val; rw [h1]; omega

/-- THE OUTPUT ARRAY after the region is `G`, for any `G` the accumulator agrees with at every diagonal point on that
    point's block of rows. -/
theorem final1_of (c : Dev nD) (G : S8192x64.Idx → EReal)
    (hdiag : ∀ (t : Fin (cfgT (F := Ideal)).N), lit1 (ptT t) = lit0 (ptT t) → ∀ (a : Fin 1024) (e : Fin 64), accAfter (F := Ideal) V c t.val t.isLt (ix2 a e) = G (ix2 ⟨1024 * rowT (ptT t) + a.val, by have := (tiles_facts (ptT t)).2; have := a.isLt; omega⟩ e)) :
    (dat1 (F := Ideal) V c).arrAt 4 (cfgT (F := Ideal)).N = G :=
  (dat1 (F := Ideal) V c).arrAt_eq_of_cover 4 G (fun t hf => flushed4_of V c G t (hdiag t ((flush4_iff t).mp hf))) cover4

end Cert.KernelIdeal.R1

end
-- ==== Proof.KI.Value1b.lean ====
/-
  What the second region leaves in the result array, as the specification.

  When the three arrays the region reads its queries, keys and values from hold the projections of x, the result array
  after the region holds, at (r, e), the specification's entry: at the diagonal point of r's row tile the accumulator's
  entry is the sum over all columns of the weighted scores times the value entries, and with the projections in place
  of the arrays that sum is the specification's.
-/
import proofs.«162603_j30889404792899_1_alg».proof.Proof.KI.Value1
import proofs.«162603_j30889404792899_1_alg».proof.Proof.KI.Final1
import proofs.«162603_j30889404792899_1_alg».proof.Proof.KI.Value0

set_option maxRecDepth 16384

noncomputable section

open scoped BigOperators

namespace Cert.KernelIdeal.R1

open Cert.KernelIdeal Cert.KernelIdeal.Gen
open Idealize.ShloMosaic Idealize.ShloMosaic.TcCoe Idealize.SL.Sem
open Idealize.ShloMosaic.Pipeline (Dat)
open Idealize.ShloMosaic.ValueIdx

/-- A matrix product read by coordinates is the specification's projection of the factors read by coordinates. -/
theorem mat_proj (x : S8192x512.Idx → EReal) (w : S512x64.Idx → EReal) :
    mat (Cert.KernelIdeal.R0.proj x w) = Cert.Spec.proj (mat x) (mat w) := rfl

variable (V : (c : Dev nD) → (b : Ref sig .tc) → Buf (Elt Ideal) ((c : Thread nD τ).loc b))

/-- THE SECOND REGION'S RESULT: with the projections of `x` in the three arrays it reads them from, the result array after
    the region is the specification of `x`, the three weight matrices and the learned weight, entry by entry. -/
theorem region1_value (c : Dev nD) (x : S8192x512.Idx → EReal) (wq wk wv : S512x64.Idx → EReal)
    (hq : (V c main_v0_0 : S8192x64.Idx → EReal) = Cert.KernelIdeal.R0.proj x wq)
    (hk : (V c main_v0_1 : S8192x64.Idx → EReal) = Cert.KernelIdeal.R0.proj x wk)
    (hv : (V c main_v0_2 : S8192x64.Idx → EReal) = Cert.KernelIdeal.R0.proj x wv) :
    (dat1 (F := Ideal) V c).arrAt 4 (cfgT (F := Ideal)).N
      = fun i : S8192x64.Idx => Cert.Spec.out (mat x) (mat wq) (mat wk) (mat wv) (mat (V c main_arg4)) (i 0) (i 1) := by
  have eq : mat (V c main_v0_0 : S8192x64.Idx → EReal) = Cert.Spec.proj (mat x) (mat wq) := by rw [hq]; exact mat_proj x wq
  have ek : mat (V c main_v0_1 : S8192x64.Idx → EReal) = Cert.Spec.proj (mat x) (mat wk) := by rw [hk]; exact mat_proj x wk
  have ev : mat (V c main_v0_2 : S8192x64.Idx → EReal) = Cert.Spec.proj (mat x) (mat wv) := by rw [hv]; exact mat_proj x wv
  refine final1_of V c _ fun t hd a e => ?_
  refine (accAfter_diag_apply V c t hd a e
    ⟨1024 * rowT (ptT t) + a.val, by have := (tiles_facts (ptT t)).2; have := a.isLt; omega⟩ rfl).trans ?_
  rw [eq, ek, ev]
  rfl

end Cert.KernelIdeal.R1

end
-- ==== Proof.KI.ValueMain.lean ====
/-
  What the idealized kernel's result array holds after its run, as one whole-array function of the argument arrays:
  entry (r, e) is the sum over all columns c of w(r, c) · v(c, e), where q, k, v are the three projections of x and
  w(r, c) is (q(r,·) · k(c,·)) · l(r, c) on and below the diagonal and zero above it. The first region leaves the three
  projections; the second accumulates, per row tile, the causal column tiles in order, restarting from zeros at the
  first one and storing at the diagonal one; the tiles above the diagonal contribute zero terms, so the stored
  partial sum is the whole row sum.
-/
import proofs.«162603_j30889404792899_1_alg».proof.Proof.KI.Main
import proofs.«162603_j30889404792899_1_alg».proof.Proof.KI.Value0
import proofs.«162603_j30889404792899_1_alg».proof.Proof.KI.Value1b

noncomputable section

namespace Cert.KernelIdeal.Run

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

/-- The result as a function of the launch memory's argument arrays. -/
def result (c : Dev nD) : S8192x64.Idx → EReal := fun i =>
  Cert.Spec.out (R1.mat (m ((c.tc : Thread nD τ).loc main_arg0))) (R1.mat (m ((c.tc : Thread nD τ).loc main_arg1)))
    (R1.mat (m ((c.tc : Thread nD τ).loc main_arg2))) (R1.mat (m ((c.tc : Thread nD τ).loc main_arg3)))
    (R1.mat (m ((c.tc : Thread nD τ).loc main_arg4))) (i 0) (i 1)

/-- The second region's output array ends at that function: the first region's arrays are the projections of the
    arguments, which the second reads. -/
theorem result_eq (c : Dev nD) :
    (R1.dat1 (F := Ideal) (E2 m (outs m)) c).arrAt 4 (R1.cfgT (F := Ideal)).N = result m c := by
  have hq : (E2 m (outs m) c main_v0_0 : S8192x64.Idx → EReal)
      = R0.proj (m ((c.tc : Thread nD τ).loc main_arg0)) (m ((c.tc : Thread nD τ).loc main_arg1)) := by
    rw [E2_main_v0_0, R0.final4, E1_main_arg0, E1_main_arg1]
  have hk : (E2 m (outs m) c main_v0_1 : S8192x64.Idx → EReal)
      = R0.proj (m ((c.tc : Thread nD τ).loc main_arg0)) (m ((c.tc : Thread nD τ).loc main_arg2)) := by
    rw [E2_main_v0_1, R0.final5, E1_main_arg0, E1_main_arg2]
  have hv : (E2 m (outs m) c main_v0_2 : S8192x64.Idx → EReal)
      = R0.proj (m ((c.tc : Thread nD τ).loc main_arg0)) (m ((c.tc : Thread nD τ).loc main_arg3)) := by
    rw [E2_main_v0_2, R0.final6, E1_main_arg0, E1_main_arg3]
  rw [R1.region1_value (E2 m (outs m)) c _ _ _ _ hq hk hv, E2_main_arg4]
  rfl

/-- The idealized kernel's run with its result named. -/
theorem value_run (ρ : Dev nD → PrngReg) :
    θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (main_run m ρ)

end Cert.KernelIdeal.Run

end
-- ==== Proof.RefSpec.lean ====
/-
  The reference program's result, read entry by entry, is the specification.

  The reference computes the three projections as matrix products, the score matrix as the product of the
  projected queries with the transposed projected keys, masks the learned weight to its lower triangle
  (row number ≥ column number keeps the entry, everything above the diagonal becomes 0), multiplies scores and
  masked weight entrywise and multiplies the result with the projected values. Entry (r, e) of that is
  ∑_c (score r c · (L r c if c ≤ r, else 0)) · (X Wv) c e; the specification selects the PRODUCT
  score · L instead of the weight, and the two agree because a · 0 = 0 for every extended real a.
-/
import proofs.«162603_j30889404792899_1_alg».proof.Proof.Gen.ReferenceIdeal.Read
import proofs.«162603_j30889404792899_1_alg».proof.Proof.Spec
import Idealize.ShloMosaic.Lib.WordArith
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.ValueIdx

/-- The mask's bit at (r, c): the row number, plus the zero offset of the main diagonal, compared signed
    "≥" with the column number. Both numbers are below 8192, so as signed 32-bit words they are themselves. -/
theorem tril_bit (r c : Fin 8192) :
    IntOp.cmpi .sge (IntOp.addi (BitVec.ofNat 32 r.val) 0#32) (BitVec.ofNat 32 c.val) = 1#1 ↔ c ≤ r := by
  have h0 : IntOp.addi (BitVec.ofNat 32 r.val) 0#32 = BitVec.ofNat 32 r.val := BitVec.add_zero _
  rw [IntOp.cmpi_sge, h0, WordArith.toInt_ofNat_small _ (by have := r.isLt; omega),
    WordArith.toInt_ofNat_small _ (by have := c.isLt; omega), Fin.le_def]
  exact Int.ofNat_le

/-- The masked weight at (r, c): the weight on and below the diagonal, zero above. -/
theorem tril_apply (x4 : (⟨S8192x8192, .f32⟩ : BufTy).Contents (Elt Ideal)) (r c : Fin 8192) :
    val_main_v4 (F := Ideal) x4 (ix2 r c) = if c ≤ r then x4 (ix2 r c) else 0 := by
  rw [val_main_v4_apply, val_main_call0_v4_apply, val_main_call0_v2_apply, val_main_call0_v0_apply,
    val_main_call0_v1_apply, val_main_call0_c_apply, val_main_call0_v3_apply, val_main_call0_v5_apply,
    val_main_call0_cst_apply]
  by_cases h : c ≤ r
  · rw [if_pos h]
    exact (congrArg (fun b => Scalar.select b _ _) ((tril_bit r c).mpr h)).trans (select_one _ _)
  · rw [if_neg h]
    exact (congrArg (fun b => Scalar.select b _ _) (eq_zero_of_ne_one (mt (tril_bit r c).mp h))).trans
      ((select_zero _ _).trans Ideal.ofBits_zero_f32)

/-- An array of the reference as a function of its two coordinates. -/
abbrev mat {n0 n1 : ℕ} (x : (⟨2, ![n0, n1]⟩ : Shape).Idx → EReal) : Fin n0 → Fin n1 → EReal := fun a b => x (ix2 a b)

/-! The operands' indices of each matrix product, by coordinates: entry (a, b) of a product reads row `a` of the
    left operand and column `b` of the right one (for the score matrix, ROW `b` of the right one: it is
    contracted along its second axis, that is, transposed). -/

theorem lidx_v0 (r : Fin 8192) (n : Fin 64) (d : Fin 512) : lidx_main_v0 (ix2 r n) d = ix2 r d :=
  funext fun a => Fin.ext (by match a with | ⟨0, _⟩ => rfl | ⟨1, _⟩ => rfl)
theorem ridx_v0 (r : Fin 8192) (n : Fin 64) (d : Fin 512) : ridx_main_v0 (ix2 r n) d = ix2 d n :=
  funext fun a => Fin.ext (by match a with | ⟨0, _⟩ => rfl | ⟨1, _⟩ => rfl)
theorem lidx_v1 (r : Fin 8192) (n : Fin 64) (d : Fin 512) : lidx_main_v1 (ix2 r n) d = ix2 r d :=
  funext fun a => Fin.ext (by match a with | ⟨0, _⟩ => rfl | ⟨1, _⟩ => rfl)
theorem ridx_v1 (r : Fin 8192) (n : Fin 64) (d : Fin 512) : ridx_main_v1 (ix2 r n) d = ix2 d n :=
  funext fun a => Fin.ext (by match a with | ⟨0, _⟩ => rfl | ⟨1, _⟩ => rfl)
theorem lidx_v2 (r : Fin 8192) (n : Fin 64) (d : Fin 512) : lidx_main_v2 (ix2 r n) d = ix2 r d :=
  funext fun a => Fin.ext (by match a with | ⟨0, _⟩ => rfl | ⟨1, _⟩ => rfl)
theorem ridx_v2 (r : Fin 8192) (n : Fin 64) (d : Fin 512) : ridx_main_v2 (ix2 r n) d = ix2 d n :=
  funext fun a => Fin.ext (by match a with | ⟨0, _⟩ => rfl | ⟨1, _⟩ => rfl)
theorem lidx_v3 (r c : Fin 8192) (n : Fin 64) : lidx_main_v3 (ix2 r c) n = ix2 r n :=
  funext fun a => Fin.ext (by match a with | ⟨0, _⟩ => rfl | ⟨1, _⟩ => rfl)
theorem ridx_v3 (r c : Fin 8192) (n : Fin 64) : ridx_main_v3 (ix2 r c) n = ix2 c n :=
  funext fun a => Fin.ext (by match a with | ⟨0, _⟩ => rfl | ⟨1, _⟩ => rfl)
theorem lidx_v6 (r : Fin 8192) (e : Fin 64) (c : Fin 8192) : lidx_main_v6 (ix2 r e) c = ix2 r c :=
  funext fun a => Fin.ext (by match a with | ⟨0, _⟩ => rfl | ⟨1, _⟩ => rfl)
theorem ridx_v6 (r : Fin 8192) (e : Fin 64) (c : Fin 8192) : ridx_main_v6 (ix2 r e) c = ix2 c e :=
  funext fun a => Fin.ext (by match a with | ⟨0, _⟩ => rfl | ⟨1, _⟩ => rfl)

/-- The projected queries' entry. -/
theorem proj_q (x0 : (⟨S8192x512, .f32⟩ : BufTy).Contents (Elt Ideal)) (x1 : (⟨S512x64, .f32⟩ : BufTy).Contents (Elt Ideal))
    (r : Fin 8192) (n : Fin 64) :
    val_main_v0 (F := Ideal) x0 x1 (ix2 r n) = Cert.Spec.proj (mat x0) (mat x1) r n := by
  rw [val_main_v0_apply]
  exact Finset.sum_congr rfl fun d _ => by rw [lidx_v0, ridx_v0]

/-- The projected keys' entry. -/
theorem proj_k (x0 : (⟨S8192x512, .f32⟩ : BufTy).Contents (Elt Ideal)) (x2 : (⟨S512x64, .f32⟩ : BufTy).Contents (Elt Ideal))
    (r : Fin 8192) (n : Fin 64) :
    val_main_v1 (F := Ideal) x0 x2 (ix2 r n) = Cert.Spec.proj (mat x0) (mat x2) r n := by
  rw [val_main_v1_apply]
  exact Finset.sum_congr rfl fun d _ => by rw [lidx_v1, ridx_v1]

/-- The projected values' entry. -/
theorem proj_v (x0 : (⟨S8192x512, .f32⟩ : BufTy).Contents (Elt Ideal)) (x3 : (⟨S512x64, .f32⟩ : BufTy).Contents (Elt Ideal))
    (r : Fin 8192) (n : Fin 64) :
    val_main_v2 (F := Ideal) x0 x3 (ix2 r n) = Cert.Spec.proj (mat x0) (mat x3) r n := by
  rw [val_main_v2_apply]
  exact Finset.sum_congr rfl fun d _ => by rw [lidx_v2, ridx_v2]

/-- The score matrix's entry. -/
theorem score_apply (x0 : (⟨S8192x512, .f32⟩ : BufTy).Contents (Elt Ideal)) (x1 x2 : (⟨S512x64, .f32⟩ : BufTy).Contents (Elt Ideal))
    (r c : Fin 8192) :
    val_main_v3 (F := Ideal) x0 x1 x2 (ix2 r c) = Cert.Spec.score (mat x0) (mat x1) (mat x2) r c := by
  rw [val_main_v3_apply]
  exact Finset.sum_congr rfl fun n _ => by rw [lidx_v3, ridx_v3, proj_q, proj_k]

/-- The weighted, masked score's entry: the reference multiplies the score with the masked weight, the
    specification masks the product; above the diagonal both are zero since `a * 0 = 0`. -/
theorem wgt_apply (x0 : (⟨S8192x512, .f32⟩ : BufTy).Contents (Elt Ideal)) (x1 x2 : (⟨S512x64, .f32⟩ : BufTy).Contents (Elt Ideal))
    (x4 : (⟨S8192x8192, .f32⟩ : BufTy).Contents (Elt Ideal)) (r c : Fin 8192) :
    val_main_v5 (F := Ideal) x0 x1 x2 x4 (ix2 r c) = Cert.Spec.wgt (mat x0) (mat x1) (mat x2) (mat x4) r c := by
  rw [val_main_v5_apply, score_apply, tril_apply]
  unfold Cert.Spec.wgt
  by_cases h : c ≤ r
  · rw [if_pos h, if_pos h]; exact Ideal.mulf_def _ _
  · rw [if_neg h, if_neg h]; exact (Ideal.mulf_def _ _).trans (mul_zero _)

/-- The reference's last stage is the specification, entry by entry. -/
theorem stage_apply (x0 : (⟨S8192x512, .f32⟩ : BufTy).Contents (Elt Ideal)) (x1 x2 x3 : (⟨S512x64, .f32⟩ : BufTy).Contents (Elt Ideal))
    (x4 : (⟨S8192x8192, .f32⟩ : BufTy).Contents (Elt Ideal)) (r : Fin 8192) (e : Fin 64) :
    val_main_v6 (F := Ideal) x0 x1 x2 x3 x4 (ix2 r e)
      = Cert.Spec.out (fun r d => x0 (ix2 r d)) (fun d n => x1 (ix2 d n)) (fun d n => x2 (ix2 d n))
          (fun d n => x3 (ix2 d n)) (fun r c => x4 (ix2 r c)) r e := by
  rw [val_main_v6_apply]
  exact Finset.sum_congr rfl fun c _ => by rw [lidx_v6, ridx_v6, wgt_apply, proj_v]

/-- The same as one equation of whole arrays: an index is the pair of its coordinates. -/
theorem stage_eq (x0 : (⟨S8192x512, .f32⟩ : BufTy).Contents (Elt Ideal)) (x1 x2 x3 : (⟨S512x64, .f32⟩ : BufTy).Contents (Elt Ideal))
    (x4 : (⟨S8192x8192, .f32⟩ : BufTy).Contents (Elt Ideal)) :
    val_main_v6 (F := Ideal) x0 x1 x2 x3 x4
      = fun i : S8192x64.Idx => Cert.Spec.out (fun r d => x0 (ix2 r d)) (fun d n => x1 (ix2 d n)) (fun d n => x2 (ix2 d n))
          (fun d n => x3 (ix2 d n)) (fun r c => x4 (ix2 r c)) (i 0) (i 1) := by
  funext i
  obtain ⟨r, e, rfl⟩ : ∃ (r : Fin 8192) (e : Fin 64), i = ix2 r e := ⟨i 0, i 1, eq_ix2 i⟩
  exact stage_apply x0 x1 x2 x3 x4 r e

end Cert.ReferenceIdeal.RefValue

end
-- ==== Proof.lean ====
/-
  The kernel computes, in two passes over tiles, out = ((q kᵀ) ∘ tril(l)) v with q, k, v = x Wq, x Wk, x Wv; the reference
  computes the same expression with whole-array operations. On the extended reals every change of float format is the
  identity and every operation exact, so both programs are read as functions of the five argument arrays.

  The first pass writes the three projections tile by tile. The second visits only the tile pairs (i, j) with j ≤ i, in
  the order two constant tables list them: for a row tile i it restarts an accumulator from zeros at j = 0, adds for each
  j the product of the masked scores of tiles (i, j) — (q_i k_jᵀ) ∘ l_ij where row ≥ column, zero elsewhere — with v_j, and
  stores the accumulator into the result's tile i at j = i. Entry (r, e) of the result is therefore the sum over the
  columns c of the tiles 0 … i of w(r, c) · v(c, e), with w(r, c) = (q(r,·) · k(c,·)) · l(r, c) for c ≤ r and 0 for c > r.
  The reference sums w'(r, c) · v(c, e) over all 8192 columns with w'(r, c) = (q(r,·) · k(c,·)) · (l(r, c) if c ≤ r else 0).
  The two agree: x · 0 = 0 and 0 · x = 0 hold on the extended reals, so w' = w and every column beyond tile i contributes
  a zero term, and a finite sum in a commutative monoid may be grouped by tiles. No finiteness of the inputs is used.

  Each program also runs to the end without a fault and leaves its arguments as launched: the reference by its run as a
  list of host operations; the kernel, at the word level and on the extended reals alike, by the run of its two regions
  — every table-named block lies inside its array, each region's body is run once per control case, the accumulator's
  contents between grid points are part of the second region's invariant. The idealization rewrote no operation.
-/
import proofs.«162603_j30889404792899_1_alg».proof.Defs
import proofs.«162603_j30889404792899_1_alg».proof.Proof.Gen.Kernel
import proofs.«162603_j30889404792899_1_alg».proof.Proof.Gen.KernelIdeal
import proofs.«162603_j30889404792899_1_alg».proof.Proof.Gen.ReferenceIdeal
import proofs.«162603_j30889404792899_1_alg».proof.Proof.Gen.Pre_finite_inputs
import proofs.«162603_j30889404792899_1_alg».proof.Proof.Gen.ReferenceIdeal.Run
import proofs.«162603_j30889404792899_1_alg».proof.Proof.Gen.ReferenceIdeal.Read
import proofs.«162603_j30889404792899_1_alg».proof.Proof.K.Main
import proofs.«162603_j30889404792899_1_alg».proof.Proof.KI.ValueMain
import proofs.«162603_j30889404792899_1_alg».proof.Proof.RefSpec
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Run.frame m ρ

/-- So does the kernel read on the extended reals. -/
theorem frame_kernelIdeal : Cert.frame_KernelIdeal := fun m ρ _ => Cert.KernelIdeal.Run.frame m ρ

/-- And the reference: its run as a list of host operations, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- From memories agreeing on the arguments both programs end with the same result array: the kernel's is the tile-wise
    accumulation, the reference's the whole-array expression, and both are the one function of the arguments. -/
theorem algebraic : Cert.algebraic_KernelIdeal_ReferenceIdeal := by
  intro m ρ m' ρ' _ hagree
  refine ⟨fun c => Cert.KernelIdeal.Run.result m c, Cert.KernelIdeal.Run.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.stage_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
